-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64x40 : Shape := ⟨2, ![64, 40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_

variable [Facts]

def fn_part2 {F : FTy → Type} [FloatOps F] (main_arg8 : FVec F S64x64 .f32) (main_arg9 : FVec F S64x40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  main_v43

def fn_part1 {F : FTy → Type} [FloatOps F] (main_arg5 : FVec F S64x40 .f32) (main_arg6 : FVec F S64x64 .f32) (main_arg7 : FVec F S64x64 .f32) (main_arg8 : FVec F S64x64 .f32) (main_arg9 : FVec F S64x40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64x64 .f32) (main_arg5 : FVec F S64x40 .f32) (main_arg6 : FVec F S64x64 .f32) (main_arg7 : FVec F S64x64 .f32) (main_arg8 : FVec F S64x64 .f32) (main_arg9 : FVec F S64x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64x40 : Shape := ⟨2, ![64, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S64x128 : Shape := ⟨2, ![64, 128]⟩
abbrev S10000x64 : Shape := ⟨2, ![10000, 64]⟩
abbrev S10000x128 : Shape := ⟨2, ![10000, 128]⟩
abbrev S1700000x64 : Shape := ⟨2, ![1700000, 64]⟩
abbrev S64x80 : Shape := ⟨2, ![64, 80]⟩
abbrev S100000x40 : Shape := ⟨2, ![100000, 40]⟩
abbrev S10000x40 : Shape := ⟨2, ![10000, 40]⟩
abbrev S10000x80 : Shape := ⟨2, ![10000, 80]⟩
abbrev S1700000x40 : Shape := ⟨2, ![1700000, 40]⟩

abbrev nBuf : Space → Nat
  | .hbm => 133
  | .vmem => 52
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64x64, .f32⟩
  | 5 => ⟨S64x40, .f32⟩
  | 6 => ⟨S64x64, .f32⟩
  | 7 => ⟨S64x64, .f32⟩
  | 8 => ⟨S64x64, .f32⟩
  | 9 => ⟨S64x40, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S64x128, .f32⟩
  | 54 => ⟨S100000x64, .f32⟩
  | 55 => ⟨S100000x64, .f32⟩
  | 56 => ⟨S1700000x1, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S100000x64, .f32⟩
  | 73 => ⟨S64x128, .f32⟩
  | 74 => ⟨S100000x64, .f32⟩
  | 75 => ⟨S100000x64, .f32⟩
  | 76 => ⟨S1700000x1, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x64, .f32⟩
  | 87 => ⟨S1700000x64, .f32⟩
  | 88 => ⟨S_, .f32⟩
  | 89 => ⟨S100000x64, .f32⟩
  | 90 => ⟨S1700000x1, .i32⟩
  | 91 => ⟨S100000x64, .f32⟩
  | 92 => ⟨S100000x64, .f32⟩
  | 93 => ⟨S64x128, .f32⟩
  | 94 => ⟨S100000x64, .f32⟩
  | 95 => ⟨S100000x64, .f32⟩
  | 96 => ⟨S1700000x1, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S100000x64, .f32⟩
  | 113 => ⟨S64x80, .f32⟩
  | 114 => ⟨S100000x40, .f32⟩
  | 115 => ⟨S100000x40, .f32⟩
  | 116 => ⟨S1700000x1, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x40, .f32⟩
  | 126 => ⟨S1700000x40, .f32⟩
  | 127 => ⟨S1700000x40, .f32⟩
  | _ => ⟨S100000x64, .f32⟩

abbrev hbmTy0_1 (i : Nat) : BufTy := match i % 128 with
  | 0 => ⟨S_, .f32⟩
  | 1 => ⟨S100000x40, .f32⟩
  | 2 => ⟨S1700000x1, .i32⟩
  | 3 => ⟨S100000x40, .f32⟩
  | 4 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x128, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x128, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S64x80, .f32⟩
  | .local _ .vmem, ⟨42, _⟩ => ⟨S10000x40, .f32⟩
  | .local _ .vmem, ⟨43, _⟩ => ⟨S10000x40, .f32⟩
  | .local _ .vmem, ⟨44, _⟩ => ⟨S10000x40, .f32⟩
  | .local _ .vmem, ⟨45, _⟩ => ⟨S10000x40, .f32⟩
  | .local _ .vmem, ⟨46, _⟩ => ⟨S10000x40, .f32⟩
  | .local _ .vmem, ⟨47, _⟩ => ⟨S10000x40, .f32⟩
  | .local _ .vmem, ⟨48, _⟩ => ⟨S10000x40, .f32⟩
  | .local _ .vmem, ⟨49, _⟩ => ⟨S10000x40, .f32⟩
  | .local _ .vmem, ⟨50, _⟩ => ⟨S10000x40, .f32⟩
  | .local _ .vmem, ⟨51, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33_0 : Ref sig .tc := ⟨.hbm, 54, rfl⟩
abbrev main_v33_1 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65_0 : Ref sig .tc := ⟨.hbm, 94, rfl⟩
abbrev main_v65_1 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81_0 : Ref sig .tc := ⟨.hbm, 114, rfl⟩
abbrev main_v81_1 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x80 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S64x64_S64x64_S64x128_d1 : Shape.Concatenates [S64x64, S64x64] S64x128 1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S10000x128_o0_0_S10000x64 : S10000x128.Slices ![0, 0] S10000x64
  slices_S10000x128_o0_64_S10000x64 : S10000x128.Slices ![0, 64] S10000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  concatenates_S64x40_S64x40_S64x80_d1 : Shape.Concatenates [S64x40, S64x40] S64x80 1
  inb_S64x80_S64x80_0_0 : ∀ a, (![0, 0] : Fin 2 → Nat) a + S64x80.size a ≤ S64x80.size a
  h_S64x80 : 0 < S64x80.numel
  shapeCasts_S64x80_S64x80 : S64x80.ShapeCasts S64x80
  slices_S10000x80_o0_0_S10000x40 : S10000x80.Slices ![0, 0] S10000x40
  inb_S10000x40_S10000x40_0_0 : ∀ a, (![0, 0] : Fin 2 → Nat) a + S10000x40.size a ≤ S10000x40.size a
  h_S10000x40 : 0 < S10000x40.numel
  slices_S10000x80_o0_40_S10000x40 : S10000x80.Slices ![0, 40] S10000x40
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S10000x40_S10000x40 : S10000x40.ShapeCasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x80_S10000x80_1_0_0_1_n_n_wf : DotDims.WF S10000x64 S64x80 S10000x80 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x80.size a ≤ S64x80.size a
  hwx6_1 : ∀ i : grid6.Coords, EltTy.bits .f32 = 32 ∨ (Rect.block (s := S64x80) S64x80.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x40.size a ≤ S100000x40.size a
  hwx6_2 : ∀ i : grid6.Coords, EltTy.bits .f32 = 32 ∨ (Rect.block (s := S100000x40) S10000x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x40.size a ≤ S100000x40.size a
  hwx6_3 : ∀ i : grid6.Coords, EltTy.bits .f32 = 32 ∨ (Rect.block (s := S100000x40) S10000x40.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x40.size a ≤ S100000x40.size a
  hwx7_0 : ∀ i : grid7.Coords, EltTy.bits .f32 = 32 ∨ (Rect.block (s := S100000x40) S10000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x40.size a ≤ S100000x40.size a
  hwx7_1 : ∀ i : grid7.Coords, EltTy.bits .f32 = 32 ∨ (Rect.block (s := S100000x40) S10000x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x40.size a ≤ S100000x40.size a
  hwx7_2 : ∀ i : grid7.Coords, EltTy.bits .f32 = 32 ∨ (Rect.block (s := S100000x40) S10000x40.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x80_S10000x80_1_0_0_1_n_n : DotDims S10000x64 S64x80 S10000x80 where
  lhsContracting := [1]
  rhsContracting := [0]
  lhsNonContracting := [0]
  rhsNonContracting := [1]
  lhsBatch := []
  rhsBatch := []
  wf := dot_S10000x64_S64x80_S10000x80_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33_0) S10000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33_1) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49_0) S10000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49_1) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49_1) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65_0) S10000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65_1) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v78) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65_1) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S64x80.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81_0) S10000x40.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v81_1) S10000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v94) S10000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v81_1) S10000x40.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v95) S10000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64x40 : Shape := ⟨2, ![64, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x40 : Shape := ⟨2, ![100000, 40]⟩
abbrev S1700000x40 : Shape := ⟨2, ![1700000, 40]⟩

abbrev nBuf : Space → Nat
  | .hbm => 141
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64x64, .f32⟩
  | 5 => ⟨S64x40, .f32⟩
  | 6 => ⟨S64x64, .f32⟩
  | 7 => ⟨S64x64, .f32⟩
  | 8 => ⟨S64x64, .f32⟩
  | 9 => ⟨S64x40, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S100000x64, .f32⟩
  | 75 => ⟨S100000x64, .f32⟩
  | 76 => ⟨S1700000x1, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x64, .f32⟩
  | 87 => ⟨S1700000x64, .f32⟩
  | 88 => ⟨S_, .f32⟩
  | 89 => ⟨S100000x64, .f32⟩
  | 90 => ⟨S1700000x1, .i32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S100000x64, .f32⟩
  | 97 => ⟨S100000x64, .f32⟩
  | 98 => ⟨S1700000x1, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x64, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x64, .f32⟩
  | 119 => ⟨S100000x40, .f32⟩
  | 120 => ⟨S1700000x1, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x64, .f32⟩

abbrev hbmTy0_1 (i : Nat) : BufTy := match i % 128 with
  | 0 => ⟨S1700000x1, .i32⟩
  | 1 => ⟨S1700000x40, .f32⟩
  | 2 => ⟨S1700000x40, .f32⟩
  | 3 => ⟨S1700000x40, .f32⟩
  | 4 => ⟨S_, .f32⟩
  | 5 => ⟨S100000x40, .f32⟩
  | 6 => ⟨S1700000x1, .i32⟩
  | 7 => ⟨S100000x40, .f32⟩
  | 8 => ⟨S_, .f32⟩
  | 9 => ⟨S100000x40, .f32⟩
  | 10 => ⟨S100000x40, .f32⟩
  | 11 => ⟨S100000x40, .f32⟩
  | 12 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_cst : Ref sig .tc := ⟨.hbm, 92, rfl⟩
abbrev main_call2_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call3_cst : Ref sig .tc := ⟨.hbm, 114, rfl⟩
abbrev main_call3_v0 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_16 : Ref sig .tc := ⟨.hbm, 121, rfl⟩
abbrev main_v85 : Ref sig .tc := ⟨.hbm, 122, rfl⟩
abbrev main_v86 : Ref sig .tc := ⟨.hbm, 123, rfl⟩
abbrev main_c_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_18 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_call4_cst : Ref sig .tc := ⟨.hbm, 136, rfl⟩
abbrev main_call4_v0 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result named: every weakly fair execution of @main ends, and on each core
  the result buffer then holds what the last region's write-backs leave in it (the contents the fold through
  @main's eighteen segments assigns to it), the ten arguments as launched.
-/
import proofs.«143482_j29437705846971_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's segments; the last thread state read against the final state, the result buffer among
    the unscoped buffers it names. -/
theorem run : θ_run defs (onTc (τ := τ) (main (F := F))) ⟨m, fun _ => 0, ρ⟩ (fun r => ∀ c : Dev nD,
      r.2.mem ((c.tc : Thread nD τ).loc main_v95) = W18 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v95 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.Named

end
-- ==== Proof.Net.lean ====
/-
  The network both programs compute, as functions of whole arrays over the extended reals (or any float
  instance): the graph's normalised edge weights from the edge list, one round of message passing
  (gather the source rows, scale each by its edge weight, add it into its destination row), and a layer
  x ↦ max(messages(x · W), 0) + x · R. Four layers are stacked: three of width 64 and one of width 40.
-/
import proofs.«143482_j29437705846971_1_alg».proof.Proof.Gen.KernelIdeal

noncomputable section

namespace Cert.Net

open Idealize.ShloMosaic Cert.KernelIdeal Cert.KernelIdeal.Gen

variable {F : FTy → Type} [FloatOps F]

/-- The edge list's row `r` (0: sources, 1: destinations) followed by one loop per node. -/
def srcOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩,
    ⟨S100000, iotaInDim S100000 32 0⟩] concatenates_S1600000_S100000_S1700000_d0

def dstOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩,
    ⟨S100000, iotaInDim S100000 32 0⟩] concatenates_S1600000_S100000_S1700000_d0

/-- Node numbers as gather indices: a negative number counts from the end. -/
def wrap (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Each node's in-degree, loops included. -/
def degOf (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- 1/sqrt(max(degree, 1)) where the degree is positive, else 0. -/
def dinvOf (d : (⟨S1700000, .i32⟩ : BufTy).Contents (Elt F)) : (⟨S100000, .f32⟩ : BufTy).Contents (Elt F) :=
  select (cmpf .ogt (degOf d) (broadcastInDim S100000 ![] bcast_S_S100000 (constant S_ .f32 0x00000000#32)))
    (Host.rsqrt (maximumf (degOf d) (broadcastInDim S100000 ![] bcast_S_S100000 (constant S_ .f32 0x3F800000#32))))
    (broadcastInDim S100000 ![] bcast_S_S100000 (id (constant S_ .f32 0x00000000#32)))

/-- The weight of each edge from the nodes' scales: the product of its two ends' scales. -/
def normFrom (v : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 v (wrap s))
    (Host.gather gather_S100000_S1700000x1_S1700000_n_0_n_n_0_1_1 v (wrap d))

/-- The weight of each edge. -/
def normOf (s d : (⟨S1700000, .i32⟩ : BufTy).Contents (Elt F)) : (⟨S1700000, .f32⟩ : BufTy).Contents (Elt F) :=
  normFrom (dinvOf d) s d

/-- One round of message passing on rows of width 64. -/
def pass64 (h : (⟨S100000x64, .f32⟩ : BufTy).Contents (Elt F)) (s d : (⟨S1700000, .i32⟩ : BufTy).Contents (Elt F))
    (n : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (broadcastInDim S1700000x64 ![0, 1] bcast_S1700000x1_S1700000x64_0_1 (broadcastInDim S1700000x1 ![0] bcast_S1700000_S1700000x1_0 n))
      (Host.gather gather_S100000x64_S1700000x1_S1700000x64_1_0_n_n_0_1_164 h (wrap s)))

/-- One round of message passing on rows of width 40. -/
def pass40 (h : (⟨S100000x40, .f32⟩ : BufTy).Contents (Elt F)) (s d : (⟨S1700000, .i32⟩ : BufTy).Contents (Elt F))
    (n : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 d)
    (mulf (broadcastInDim S1700000x40 ![0, 1] bcast_S1700000x1_S1700000x40_0_1 (broadcastInDim S1700000x1 ![0] bcast_S1700000_S1700000x1_0 n))
      (Host.gather gather_S100000x40_S1700000x1_S1700000x40_1_0_n_n_0_1_140 h (wrap s)))

/-- max(msg, 0) + res on rows of width 64. -/
def reluAdd64 (msg res : (⟨S100000x64, .f32⟩ : BufTy).Contents (Elt F)) : (⟨S100000x64, .f32⟩ : BufTy).Contents (Elt F) :=
  addf (maximumf msg (broadcastInDim S100000x64 ![] bcast_S_S100000x64 (constant S_ .f32 0x00000000#32))) res

/-- max(msg, 0) + res on rows of width 40. -/
def reluAdd40 (msg res : (⟨S100000x40, .f32⟩ : BufTy).Contents (Elt F)) : (⟨S100000x40, .f32⟩ : BufTy).Contents (Elt F) :=
  addf (maximumf msg (broadcastInDim S100000x40 ![] bcast_S_S100000x40 (constant S_ .f32 0x00000000#32))) res

/-- A layer of width 64: max(messages(x · W), 0) + x · R. -/
def layer64 (x : (⟨S100000x64, .f32⟩ : BufTy).Contents (Elt F)) (W R : (⟨S64x64, .f32⟩ : BufTy).Contents (Elt F))
    (s d : (⟨S1700000, .i32⟩ : BufTy).Contents (Elt F)) (n : (⟨S1700000, .f32⟩ : BufTy).Contents (Elt F)) :
    (⟨S100000x64, .f32⟩ : BufTy).Contents (Elt F) :=
  reluAdd64 (pass64 (Host.dotGeneral (DotDims.plain 100000 64 64) none x W) s d n) (Host.dotGeneral (DotDims.plain 100000 64 64) none x R)

/-- The last layer, of width 40. -/
def layer40 (x : (⟨S100000x64, .f32⟩ : BufTy).Contents (Elt F)) (W R : (⟨S64x40, .f32⟩ : BufTy).Contents (Elt F))
    (s d : (⟨S1700000, .i32⟩ : BufTy).Contents (Elt F)) (n : (⟨S1700000, .f32⟩ : BufTy).Contents (Elt F)) :
    (⟨S100000x40, .f32⟩ : BufTy).Contents (Elt F) :=
  reluAdd40 (pass40 (Host.dotGeneral (DotDims.plain 100000 64 40) none x W) s d n) (Host.dotGeneral (DotDims.plain 100000 64 40) none x R)

/-- The whole network. -/
def net (x : (⟨S100000x64, .f32⟩ : BufTy).Contents (Elt F)) (e : (⟨S2x1600000, .i32⟩ : BufTy).Contents (Elt F))
    (W0 W1 W2 : (⟨S64x64, .f32⟩ : BufTy).Contents (Elt F)) (W3 : (⟨S64x40, .f32⟩ : BufTy).Contents (Elt F))
    (R0 R1 R2 : (⟨S64x64, .f32⟩ : BufTy).Contents (Elt F)) (R3 : (⟨S64x40, .f32⟩ : BufTy).Contents (Elt F)) :
    (⟨S100000x40, .f32⟩ : BufTy).Contents (Elt F) :=
  layer40 (layer64 (layer64 (layer64 x W0 R0 (srcOf e) (dstOf e) (normOf (srcOf e) (dstOf e))) W1 R1 (srcOf e) (dstOf e) (normOf (srcOf e) (dstOf e)))
    W2 R2 (srcOf e) (dstOf e) (normOf (srcOf e) (dstOf e))) W3 R3 (srcOf e) (dstOf e) (normOf (srcOf e) (dstOf e))

end Cert.Net

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibFusedLinear.lean ====
/-
  A dense layer whose two weight tables W (K × N₁) and R (K × N₂) are laid side by side into one table
  [W | R] (K × N), multiplied once, and the product cut back into column windows: on the extended reals the
  window that starts at column 0 is x · W and the window that starts at column N₁ is x · R, entry by entry,
  because entry (i, j) of a product reads only column j of the right operand. Over any sizes and operand formats;
  no finiteness is needed (no sum is regrouped).

  * `sideBySide_left`, `sideBySide_right`: an entry of two tables joined along the column axis.
  * `window_matmul_apply`: entry (i, j) of the column window [off, off + N₁) of a product into zeros is
    Σ_k x (i, k) · wr (k, off + j).
  * `window_left_apply`, `window_right_apply`: the two windows of x · [W | R] as plain sums over W and over R.
  * `dot_rows_apply`: the host's product of a tall matrix read at a row r is the same sum over that row.
-/
import Idealize.ShloMosaic.PureOps.Ideal.Laws
import Idealize.ShloMosaic.Lib.Pipeline.Value
import Idealize.ShloMosaic.Lib.ValueIdx
import proofs.«143482_j29437705846971_1_alg».proof.Proof.LibPlainMatmul
import proofs.«143482_j29437705846971_1_alg».proof.Proof.LibHostReads

noncomputable section

open scoped BigOperators

namespace Cert.FusedLinear

open Idealize.ShloMosaic Idealize.ShloMosaic.ValueIdx

/-- Two tables joined along the columns, read at a column of the first. -/
theorem sideBySide_left {α : Type} {K N N1 N2 : Nat} (W : (⟨2, ![K, N1]⟩ : Shape).Idx → α) (R : (⟨2, ![K, N2]⟩ : Shape).Idx → α)
    (h : Shape.Concatenates [⟨2, ![K, N1]⟩, ⟨2, ![K, N2]⟩] ⟨2, ![K, N]⟩ (1 : Fin 2)) (k : Fin K) (j : Fin N1) (hj : j.val < N) :
    concatenate ⟨2, ![K, N]⟩ (1 : Fin 2) [⟨⟨2, ![K, N1]⟩, W⟩, ⟨⟨2, ![K, N2]⟩, R⟩] h (ix2 k ⟨j.val, hj⟩) = W (ix2 k j) :=
  concatenate_pair_apply_left (1 : Fin 2) W R h (ix2 k ⟨j.val, hj⟩) rfl (ix2 k j) (fun b => by
    match b with
    | ⟨0, _⟩ => rfl
    | ⟨1, _⟩ => rfl)

/-- Two tables joined along the columns, read at a column of the second. -/
theorem sideBySide_right {α : Type} {K N N1 N2 : Nat} (W : (⟨2, ![K, N1]⟩ : Shape).Idx → α) (R : (⟨2, ![K, N2]⟩ : Shape).Idx → α)
    (h : Shape.Concatenates [⟨2, ![K, N1]⟩, ⟨2, ![K, N2]⟩] ⟨2, ![K, N]⟩ (1 : Fin 2)) (k : Fin K) (j : Fin N2) (hj : N1 + j.val < N) :
    concatenate ⟨2, ![K, N]⟩ (1 : Fin 2) [⟨⟨2, ![K, N1]⟩, W⟩, ⟨⟨2, ![K, N2]⟩, R⟩] h (ix2 k ⟨N1 + j.val, hj⟩) = R (ix2 k j) :=
  concatenate_pair_apply_right (1 : Fin 2) W R h (ix2 k ⟨N1 + j.val, hj⟩) rfl rfl (ix2 k j) (fun b hb => by
    match b with
    | ⟨0, _⟩ => rfl
    | ⟨1, _⟩ => exact absurd rfl hb) (by
    show j.val + N1 = N1 + j.val
    omega)

/-- Entry (i, j) of the column window that starts at `off` of the product x · wr accumulated into zeros. -/
theorem window_matmul_apply (M K N N1 off : Nat) {φ₁ φ₂ : FTy} (prec : Option ContractPrecision)
    (x : FVec Ideal ⟨2, ![M, K]⟩ φ₁) (wr : FVec Ideal ⟨2, ![K, N]⟩ φ₂)
    (h : (⟨2, ![M, N]⟩ : Shape).Slices ![0, off] ⟨2, ![M, N1]⟩) (i : Fin M) (j : Fin N1) (hj : off + j.val < N) :
    extractStridedSlice ⟨2, ![M, N1]⟩ ![0, off]
        (FloatOps.matmul (DotDims.plain M K N) prec x wr (constant ⟨2, ![M, N]⟩ .f32 0x00000000#32)) h (ix2 i j)
      = ∑ k : Fin K, x (ix2 i k) * wr (ix2 k ⟨off + j.val, hj⟩) := by
  refine (extractStridedSlice_apply ![0, off] _ h (ix2 i j) (ix2 i ⟨off + j.val, hj⟩) ?_).trans ?_
  · intro a
    match a with
    | ⟨0, _⟩ => show i.val = 0 + i.val; omega
    | ⟨1, _⟩ => rfl
  exact Cert.PlainMatmul.matmul_zero_apply M K N prec x wr i ⟨off + j.val, hj⟩

/-- The window at column 0 of x · [W | R] is x · W. -/
theorem window_left_apply (M K N N1 N2 : Nat) {φ₁ φ₂ : FTy} (prec : Option ContractPrecision)
    (x : FVec Ideal ⟨2, ![M, K]⟩ φ₁) (W : FVec Ideal ⟨2, ![K, N1]⟩ φ₂) (R : FVec Ideal ⟨2, ![K, N2]⟩ φ₂)
    (hc : Shape.Concatenates [⟨2, ![K, N1]⟩, ⟨2, ![K, N2]⟩] ⟨2, ![K, N]⟩ (1 : Fin 2))
    (h : (⟨2, ![M, N]⟩ : Shape).Slices ![0, 0] ⟨2, ![M, N1]⟩) (hN : N1 ≤ N) (i : Fin M) (j : Fin N1) :
    extractStridedSlice ⟨2, ![M, N1]⟩ ![0, 0]
        (FloatOps.matmul (DotDims.plain M K N) prec x
          (concatenate ⟨2, ![K, N]⟩ (1 : Fin 2) [⟨⟨2, ![K, N1]⟩, W⟩, ⟨⟨2, ![K, N2]⟩, R⟩] hc : FVec Ideal ⟨2, ![K, N]⟩ φ₂)
          (constant ⟨2, ![M, N]⟩ .f32 0x00000000#32)) h (ix2 i j)
      = ∑ k : Fin K, x (ix2 i k) * W (ix2 k j) := by
  have hj : 0 + j.val < N := by have := j.isLt; omega
  rw [window_matmul_apply M K N N1 0 prec x _ h i j hj]
  refine Finset.sum_congr rfl fun k _ => ?_
  have e : (⟨0 + j.val, hj⟩ : Fin N) = ⟨j.val, by omega⟩ := Fin.ext (Nat.zero_add _)
  rw [e, sideBySide_left W R hc k j (by omega)]

/-- The window at column N₁ of x · [W | R] is x · R. -/
theorem window_right_apply (M K N N1 N2 : Nat) {φ₁ φ₂ : FTy} (prec : Option ContractPrecision)
    (x : FVec Ideal ⟨2, ![M, K]⟩ φ₁) (W : FVec Ideal ⟨2, ![K, N1]⟩ φ₂) (R : FVec Ideal ⟨2, ![K, N2]⟩ φ₂)
    (hc : Shape.Concatenates [⟨2, ![K, N1]⟩, ⟨2, ![K, N2]⟩] ⟨2, ![K, N]⟩ (1 : Fin 2))
    (h : (⟨2, ![M, N]⟩ : Shape).Slices ![0, N1] ⟨2, ![M, N2]⟩) (hN : N1 + N2 ≤ N) (i : Fin M) (j : Fin N2) :
    extractStridedSlice ⟨2, ![M, N2]⟩ ![0, N1]
        (FloatOps.matmul (DotDims.plain M K N) prec x
          (concatenate ⟨2, ![K, N]⟩ (1 : Fin 2) [⟨⟨2, ![K, N1]⟩, W⟩, ⟨⟨2, ![K, N2]⟩, R⟩] hc : FVec Ideal ⟨2, ![K, N]⟩ φ₂)
          (constant ⟨2, ![M, N]⟩ .f32 0x00000000#32)) h (ix2 i j)
      = ∑ k : Fin K, x (ix2 i k) * R (ix2 k j) := by
  have hj : N1 + j.val < N := by have := j.isLt; omega
  rw [window_matmul_apply M K N N2 N1 prec x _ h i j hj]
  refine Finset.sum_congr rfl fun k _ => ?_
  rw [sideBySide_right W R hc k j hj]

/-- Row r of the host's product X · W of a tall matrix, as the sum over that row of X. -/
theorem dot_rows_apply (M K N : Nat) {φ₁ φ₂ : FTy} (prec : Option ContractPrecision)
    (X : FVec Ideal ⟨2, ![M, K]⟩ φ₁) (W : FVec Ideal ⟨2, ![K, N]⟩ φ₂) (r : Fin M) (j : Fin N) :
    Host.dotGeneral (F := Ideal) (DotDims.plain M K N) prec X W (ix2 r j) = ∑ k : Fin K, X (ix2 r k) * W (ix2 k j) :=
  Cert.LibHostReads.dotGeneral_plain_apply M K N prec X W r j

end Cert.FusedLinear

end
-- ==== Proof.Lin0.lean ====
/-
  The first linear region. Its grid has ten points; point t stages rows [10000·t, 10000·t + 10000) of the
  layer's input x (100000 × 64) and the whole table [W | R] (64 × 128), multiplies them once, and writes the
  left 64 columns of the product to the same rows of one output and the right 64 columns to the same rows of
  the other. Entry (r, q) of a product reads only row r of x and column q of the table, so the first output
  ends as the host's product x · W and the second as x · R, whatever else the buffers held.
-/
import proofs.«143482_j29437705846971_1_alg».proof.Proof.Gen.KernelIdeal.Frame
import proofs.«143482_j29437705846971_1_alg».proof.Proof.LibFusedLinear
import Idealize.ShloMosaic.Lib.Pipeline.Value
import Idealize.ShloMosaic.Lib.ValueIdx

set_option maxRecDepth 16384

noncomputable section

open scoped BigOperators

namespace Cert.KernelIdeal.Lin0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point t: rows move with t, columns never move. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

/-- The body's product, with the narrowing of its operands read as the identity. -/
theorem product_eq (v0 : Vec Ideal S10000x64 .f32) (v2 : Vec Ideal S64x128 .f32) :
    k0_pay1 v0 v2 = FloatOps.matmul (DotDims.plain 10000 64 128) none (φ₁ := .bf16) (φ₂ := .bf16) v0 v2
      (constant ⟨2, ![10000, 128]⟩ .f32 0x00000000#32) := by
  unfold k0_pay1
  rw [shapeCast_self]
  rfl

/-- The left window of the block's product, at an entry. -/
theorem left_apply (v0 : Vec Ideal S10000x64 .f32) (W R : Vec Ideal S64x64 .f32) (p : Fin 10000) (q : Fin 64) :
    k0_pay2 v0 (concatenate S64x128 1 [⟨S64x64, W⟩, ⟨S64x64, R⟩] concatenates_S64x64_S64x64_S64x128_d1) (ix2 p q)
      = ∑ k : Fin 64, v0 (ix2 p k) * W (ix2 k q) := by
  unfold k0_pay2
  rw [product_eq]
  exact Cert.FusedLinear.window_left_apply 10000 64 128 64 64 none v0 W R _ _ (by decide) p q

/-- The right window of the block's product, at an entry. -/
theorem right_apply (v0 : Vec Ideal S10000x64 .f32) (W R : Vec Ideal S64x64 .f32) (p : Fin 10000) (q : Fin 64) :
    k0_pay3 v0 (concatenate S64x128 1 [⟨S64x64, W⟩, ⟨S64x64, R⟩] concatenates_S64x64_S64x64_S64x128_d1) (ix2 p q)
      = ∑ k : Fin 64, v0 (ix2 p k) * R (ix2 k q) := by
  unfold k0_pay3
  rw [product_eq]
  exact Cert.FusedLinear.window_right_apply 10000 64 128 64 64 none v0 W R _ _ (by decide) p q

/-- The table's block is the whole table at every point. -/
theorem table_block (c : Dev nD) (t : Fin cfg0.N) : iblk0 V c 1 t = V c main_v32 := by
  obtain ⟨e0, e1, e2, e3, e4, e5, e6, e7, e8⟩ := blockIndex t
  funext y
  show V c main_v32 (((cfg0.win 1).blk t).view.emb y) = V c main_v32 y
  refine congrArg _ ?_
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The input's block at point t is rows 10000·t … of the input. -/
theorem rows_block (c : Dev nD) (t : Fin cfg0.N) (p : Fin 10000) (k : Fin 64) (h : t.val * 10000 + p.val < 100000) :
    iblk0 V c 0 t (ix2 p k) = V c main_arg0 (ix2 ⟨t.val * 10000 + p.val, h⟩ k) := by
  obtain ⟨e0, e1, e2, e3, e4, e5, e6, e7, e8⟩ := blockIndex t
  show V c main_arg0 (((cfg0.win 0).blk t).view.emb (ix2 p k)) = _
  refine congrArg _ ?_
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- What point t writes back to the first output is its block of x · W. -/
theorem flushed_left (c : Dev nD) (W R : FVec Ideal S64x64 .f32)
    (hWR : V c main_v32 = concatenate S64x128 1 [⟨S64x64, W⟩, ⟨S64x64, R⟩] concatenates_S64x64_S64x64_S64x128_d1) (t : Fin cfg0.N) :
    (dat0 V c).flushed 2 t = ((cfg0.win 2).blk t).view.read (Elt Ideal)
      (Host.dotGeneral (F := Ideal) (φ₁ := .f32) (φ₂ := .f32) (DotDims.plain 100000 64 64) none (V c main_arg0) W) := by
  show (cfg0.win 2).cut (grid0.coords t) ((dat0 V c).after 2 t) = _
  rw [after0_2]
  unfold out0_2
  rw [View.canon_unit_zero zeros]
  simp only [View.ld_unit_zero (S := S10000x64) zeros, View.ld_unit_zero (S := S64x128) zeros]
  rw [table_block V c t, hWR]
  obtain ⟨e0, e1, e2, e3, e4, e5, e6, e7, e8⟩ := blockIndex t
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg0.win 2).blk t).view.emb (ix2 p q) = ix2 ⟨t.val * 10000 + p.val, hp⟩ q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay2 (iblk0 V c 0 t) _ (ix2 p q)
    = Host.dotGeneral (F := Ideal) (φ₁ := .f32) (φ₂ := .f32) (DotDims.plain 100000 64 64) none (V c main_arg0) W (((cfg0.win 2).blk t).view.emb (ix2 p q))
  rw [hemb, left_apply (iblk0 V c 0 t) W R p q, Cert.FusedLinear.dot_rows_apply]
  exact Finset.sum_congr rfl fun k _ => by rw [rows_block V c t p k hp]

/-- What point t writes back to the second output is its block of x · R. -/
theorem flushed_right (c : Dev nD) (W R : FVec Ideal S64x64 .f32)
    (hWR : V c main_v32 = concatenate S64x128 1 [⟨S64x64, W⟩, ⟨S64x64, R⟩] concatenates_S64x64_S64x64_S64x128_d1) (t : Fin cfg0.N) :
    (dat0 V c).flushed 3 t = ((cfg0.win 3).blk t).view.read (Elt Ideal)
      (Host.dotGeneral (F := Ideal) (φ₁ := .f32) (φ₂ := .f32) (DotDims.plain 100000 64 64) none (V c main_arg0) R) := by
  show (cfg0.win 3).cut (grid0.coords t) ((dat0 V c).after 3 t) = _
  rw [after0_3]
  unfold out0_3
  rw [View.canon_unit_zero zeros]
  simp only [View.ld_unit_zero (S := S10000x64) zeros, View.ld_unit_zero (S := S64x128) zeros]
  rw [table_block V c t, hWR]
  obtain ⟨e0, e1, e2, e3, e4, e5, e6, e7, e8⟩ := blockIndex t
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg0.win 3).blk t).view.emb (ix2 p q) = ix2 ⟨t.val * 10000 + p.val, hp⟩ q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay3 (iblk0 V c 0 t) _ (ix2 p q)
    = Host.dotGeneral (F := Ideal) (φ₁ := .f32) (φ₂ := .f32) (DotDims.plain 100000 64 64) none (V c main_arg0) R (((cfg0.win 3).blk t).view.emb (ix2 p q))
  rw [hemb, right_apply (iblk0 V c 0 t) W R p q, Cert.FusedLinear.dot_rows_apply]
  exact Finset.sum_congr rfl fun k _ => by rw [rows_block V c t p k hp]

/-- An index of the first output is in point t's block iff each coordinate is in the block's range. -/
theorem mem_left (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v33_0).slice (win0_2.rect t)).set ↔ _
  rw [View.set_slice_whole, Rect.mem_set_unit]
  exact Iff.rfl

theorem mem_right (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v33_1).slice (win0_3.rect t)).set ↔ _
  rw [View.set_slice_whole, Rect.mem_set_unit]
  exact Iff.rfl

/-- Row r is written by point r / 10000. -/
theorem cover_left (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < grid0.N := by rw [N_0]; omega
  obtain ⟨e0, e1, e2, e3, e4, e5, e6, e7, e8⟩ := blockIndex ⟨(i 0).val / 10000, ht⟩
  refine ⟨⟨(i 0).val / 10000, ht⟩, flush0_2 _, ?_⟩
  rw [mem_left]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

theorem cover_right (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < grid0.N := by rw [N_0]; omega
  obtain ⟨e0, e1, e2, e3, e4, e5, e6, e7, e8⟩ := blockIndex ⟨(i 0).val / 10000, ht⟩
  refine ⟨⟨(i 0).val / 10000, ht⟩, flush0_3 _, ?_⟩
  rw [mem_right]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e7]; omega

/-- After the region the first output holds x · W … -/
theorem final_left (c : Dev nD) (W R : FVec Ideal S64x64 .f32)
    (hWR : V c main_v32 = concatenate S64x128 1 [⟨S64x64, W⟩, ⟨S64x64, R⟩] concatenates_S64x64_S64x64_S64x128_d1) :
    (dat0 V c).arrAt 2 cfg0.N = Host.dotGeneral (F := Ideal) (φ₁ := .f32) (φ₂ := .f32) (DotDims.plain 100000 64 64) none (V c main_arg0) W :=
  (dat0 V c).arrAt_eq_of_cover 2 _ (fun t _ => flushed_left V c W R hWR t) cover_left

/-- … and the second x · R. -/
theorem final_right (c : Dev nD) (W R : FVec Ideal S64x64 .f32)
    (hWR : V c main_v32 = concatenate S64x128 1 [⟨S64x64, W⟩, ⟨S64x64, R⟩] concatenates_S64x64_S64x64_S64x128_d1) :
    (dat0 V c).arrAt 3 cfg0.N = Host.dotGeneral (F := Ideal) (φ₁ := .f32) (φ₂ := .f32) (DotDims.plain 100000 64 64) none (V c main_arg0) R :=
  (dat0 V c).arrAt_eq_of_cover 3 _ (fun t _ => flushed_right V c W R hWR t) cover_right

end Cert.KernelIdeal.Lin0

end
-- ==== Proof.Lin2.lean ====
/-
  The second linear region. Its grid has ten points; point t stages rows [10000·t, 10000·t + 10000) of the
  layer's input x (100000 × 64) and the whole table [W | R] (64 × 128), multiplies them once, and writes the
  left 64 columns of the product to the same rows of one output and the right 64 columns to the same rows of
  the other. Entry (r, q) of a product reads only row r of x and column q of the table, so the first output
  ends as the host's product x · W and the second as x · R, whatever else the buffers held.
-/
import proofs.«143482_j29437705846971_1_alg».proof.Proof.Gen.KernelIdeal.Frame
import proofs.«143482_j29437705846971_1_alg».proof.Proof.LibFusedLinear
import Idealize.ShloMosaic.Lib.Pipeline.Value
import Idealize.ShloMosaic.Lib.ValueIdx

set_option maxRecDepth 16384

noncomputable section

open scoped BigOperators

namespace Cert.KernelIdeal.Lin2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point t: rows move with t, columns never move. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 10 :=
  (by decide +kernel : ∀ t : Fin grid2.N, _)

/-- The body's product, with the narrowing of its operands read as the identity. -/
theorem product_eq (v0 : Vec Ideal S10000x64 .f32) (v2 : Vec Ideal S64x128 .f32) :
    k2_pay1 v0 v2 = FloatOps.matmul (DotDims.plain 10000 64 128) none (φ₁ := .bf16) (φ₂ := .bf16) v0 v2
      (constant ⟨2, ![10000, 128]⟩ .f32 0x00000000#32) := by
  unfold k2_pay1
  rw [shapeCast_self, shapeCast_self]
  rfl

/-- The left window of the block's product, at an entry. -/
theorem left_apply (v0 : Vec Ideal S10000x64 .f32) (W R : Vec Ideal S64x64 .f32) (p : Fin 10000) (q : Fin 64) :
    k2_pay2 v0 (concatenate S64x128 1 [⟨S64x64, W⟩, ⟨S64x64, R⟩] concatenates_S64x64_S64x64_S64x128_d1) (ix2 p q)
      = ∑ k : Fin 64, v0 (ix2 p k) * W (ix2 k q) := by
  unfold k2_pay2
  rw [product_eq]
  exact Cert.FusedLinear.window_left_apply 10000 64 128 64 64 none v0 W R _ _ (by decide) p q

/-- The right window of the block's product, at an entry. -/
theorem right_apply (v0 : Vec Ideal S10000x64 .f32) (W R : Vec Ideal S64x64 .f32) (p : Fin 10000) (q : Fin 64) :
    k2_pay3 v0 (concatenate S64x128 1 [⟨S64x64, W⟩, ⟨S64x64, R⟩] concatenates_S64x64_S64x64_S64x128_d1) (ix2 p q)
      = ∑ k : Fin 64, v0 (ix2 p k) * R (ix2 k q) := by
  unfold k2_pay3
  rw [product_eq]
  exact Cert.FusedLinear.window_right_apply 10000 64 128 64 64 none v0 W R _ _ (by decide) p q

/-- The table's block is the whole table at every point. -/
theorem table_block (c : Dev nD) (t : Fin cfg2.N) : iblk2 V c 1 t = V c main_v48 := by
  obtain ⟨e0, e1, e2, e3, e4, e5, e6, e7, e8⟩ := blockIndex t
  funext y
  show V c main_v48 (((cfg2.win 1).blk t).view.emb y) = V c main_v48 y
  refine congrArg _ ?_
  funext a; apply Fin.ext
  match a with
  | ⟨0, _⟩ => show win2_1.index t (0 : Fin 2) * 64 + 1 * (y 0).val = (y 0).val; omega
  | ⟨1, _⟩ => show win2_1.index t (1 : Fin 2) * 128 + 1 * (y 1).val = (y 1).val; omega

/-- The input's block at point t is rows 10000·t … of the input. -/
theorem rows_block (c : Dev nD) (t : Fin cfg2.N) (p : Fin 10000) (k : Fin 64) (h : t.val * 10000 + p.val < 100000) :
    iblk2 V c 0 t (ix2 p k) = V c main_v47 (ix2 ⟨t.val * 10000 + p.val, h⟩ k) := by
  obtain ⟨e0, e1, e2, e3, e4, e5, e6, e7, e8⟩ := blockIndex t
  show V c main_v47 (((cfg2.win 0).blk t).view.emb (ix2 p k)) = _
  refine congrArg _ ?_
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- What point t writes back to the first output is its block of x · W. -/
theorem flushed_left (c : Dev nD) (W R : FVec Ideal S64x64 .f32)
    (hWR : V c main_v48 = concatenate S64x128 1 [⟨S64x64, W⟩, ⟨S64x64, R⟩] concatenates_S64x64_S64x64_S64x128_d1) (t : Fin cfg2.N) :
    (dat2 V c).flushed 2 t = ((cfg2.win 2).blk t).view.read (Elt Ideal)
      (Host.dotGeneral (F := Ideal) (φ₁ := .f32) (φ₂ := .f32) (DotDims.plain 100000 64 64) none (V c main_v47) W) := by
  show (cfg2.win 2).cut (grid2.coords t) ((dat2 V c).after 2 t) = _
  rw [after2_2]
  unfold out2_2
  rw [View.canon_unit_zero zeros]
  simp only [View.ld_unit_zero (S := S10000x64) zeros, View.ld_unit_zero (S := S64x128) zeros]
  rw [table_block V c t, hWR]
  obtain ⟨e0, e1, e2, e3, e4, e5, e6, e7, e8⟩ := blockIndex t
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg2.win 2).blk t).view.emb (ix2 p q) = ix2 ⟨t.val * 10000 + p.val, hp⟩ q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  show k2_pay2 (iblk2 V c 0 t) _ (ix2 p q)
    = Host.dotGeneral (F := Ideal) (φ₁ := .f32) (φ₂ := .f32) (DotDims.plain 100000 64 64) none (V c main_v47) W (((cfg2.win 2).blk t).view.emb (ix2 p q))
  rw [hemb, left_apply (iblk2 V c 0 t) W R p q, Cert.FusedLinear.dot_rows_apply]
  exact Finset.sum_congr rfl fun k _ => by rw [rows_block V c t p k hp]

/-- What point t writes back to the second output is its block of x · R. -/
theorem flushed_right (c : Dev nD) (W R : FVec Ideal S64x64 .f32)
    (hWR : V c main_v48 = concatenate S64x128 1 [⟨S64x64, W⟩, ⟨S64x64, R⟩] concatenates_S64x64_S64x64_S64x128_d1) (t : Fin cfg2.N) :
    (dat2 V c).flushed 3 t = ((cfg2.win 3).blk t).view.read (Elt Ideal)
      (Host.dotGeneral (F := Ideal) (φ₁ := .f32) (φ₂ := .f32) (DotDims.plain 100000 64 64) none (V c main_v47) R) := by
  show (cfg2.win 3).cut (grid2.coords t) ((dat2 V c).after 3 t) = _
  rw [after2_3]
  unfold out2_3
  rw [View.canon_unit_zero zeros]
  simp only [View.ld_unit_zero (S := S10000x64) zeros, View.ld_unit_zero (S := S64x128) zeros]
  rw [table_block V c t, hWR]
  obtain ⟨e0, e1, e2, e3, e4, e5, e6, e7, e8⟩ := blockIndex t
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg2.win 3).blk t).view.emb (ix2 p q) = ix2 ⟨t.val * 10000 + p.val, hp⟩ q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  show k2_pay3 (iblk2 V c 0 t) _ (ix2 p q)
    = Host.dotGeneral (F := Ideal) (φ₁ := .f32) (φ₂ := .f32) (DotDims.plain 100000 64 64) none (V c main_v47) R (((cfg2.win 3).blk t).view.emb (ix2 p q))
  rw [hemb, right_apply (iblk2 V c 0 t) W R p q, Cert.FusedLinear.dot_rows_apply]
  exact Finset.sum_congr rfl fun k _ => by rw [rows_block V c t p k hp]

/-- An index of the first output is in point t's block iff each coordinate is in the block's range. -/
theorem mem_left (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v49_0).slice (win2_2.rect t)).set ↔ _
  rw [View.set_slice_whole, Rect.mem_set_unit]
  exact Iff.rfl

theorem mem_right (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v49_1).slice (win2_3.rect t)).set ↔ _
  rw [View.set_slice_whole, Rect.mem_set_unit]
  exact Iff.rfl

/-- Row r is written by point r / 10000. -/
theorem cover_left (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < grid2.N := by rw [N_2]; omega
  obtain ⟨e0, e1, e2, e3, e4, e5, e6, e7, e8⟩ := blockIndex ⟨(i 0).val / 10000, ht⟩
  refine ⟨⟨(i 0).val / 10000, ht⟩, flush2_2 _, ?_⟩
  rw [mem_left]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]; omega

theorem cover_right (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 10000 < grid2.N := by rw [N_2]; omega
  obtain ⟨e0, e1, e2, e3, e4, e5, e6, e7, e8⟩ := blockIndex ⟨(i 0).val / 10000, ht⟩
  refine ⟨⟨(i 0).val / 10000, ht⟩, flush2_3 _, ?_⟩
  rw [mem_right]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 64 ≤ (i 1).val
      ∧ (i 1).val < win2_3.index ⟨(i 0).val / 10000, ht⟩ (1 : Fin 2) * 64 + 64
    rw [e7]; omega

/-- After the region the first output holds x · W … -/
theorem final_left (c : Dev nD) (W R : FVec Ideal S64x64 .f32)
    (hWR : V c main_v48 = concatenate S64x128 1 [⟨S64x64, W⟩, ⟨S64x64, R⟩] concatenates_S64x64_S64x64_S64x128_d1) :
    (dat2 V c).arrAt 2 cfg2.N = Host.dotGeneral (F := Ideal) (φ₁ := .f32) (φ₂ := .f32) (DotDims.plain 100000 64 64) none (V c main_v47) W :=
  (dat2 V c).arrAt_eq_of_cover 2 _ (fun t _ => flushed_left V c W R hWR t) cover_left

/-- … and the second x · R. -/
theorem final_right (c : Dev nD) (W R : FVec Ideal S64x64 .f32)
    (hWR : V c main_v48 = concatenate S64x128 1 [⟨S64x64, W⟩, ⟨S64x64, R⟩] concatenates_S64x64_S64x64_S64x128_d1) :
    (dat2 V c).arrAt 3 cfg2.N = Host.dotGeneral (F := Ideal) (φ₁ := .f32) (φ₂ := .f32) (DotDims.plain 100000 64 64) none (V c main_v47) R :=
  (dat2 V c).arrAt_eq_of_cover 3 _ (fun t _ => flushed_right V c W R hWR t) cover_right

end Cert.KernelIdeal.Lin2

end
-- ==== Proof.Lin4.lean ====
/-
  The third linear region. Its grid has ten points; point t stages rows [10000·t, 10000·t + 10000) of the
  layer's input x (100000 × 64) and the whole table [W | R] (64 × 128), multiplies them once, and writes the
  left 64 columns of the product to the same rows of one output and the right 64 columns to the same rows of
  the other. Entry (r, q) of a product reads only row r of x and column q of the table, so the first output
  ends as the host's product x · W and the second as x · R, whatever else the buffers held.
-/
import proofs.«143482_j29437705846971_1_alg».proof.Proof.Gen.KernelIdeal.Frame
import proofs.«143482_j29437705846971_1_alg».proof.Proof.LibFusedLinear
import Idealize.ShloMosaic.Lib.Pipeline.Value
import Idealize.ShloMosaic.Lib.ValueIdx

set_option maxRecDepth 16384

noncomputable section

open scoped BigOperators

namespace Cert.KernelIdeal.Lin4

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point t: rows move with t, columns never move. -/
theorem blockIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 ∧ t.val < 10 :=
  (by decide +kernel : ∀ t : Fin grid4.N, _)

/-- The body's product, with the narrowing of its operands read as the identity. -/
theorem product_eq (v0 : Vec Ideal S10000x64 .f32) (v2 : Vec Ideal S64x128 .f32) :
    k4_pay1 v0 v2 = FloatOps.matmul (DotDims.plain 10000 64 128) none (φ₁ := .bf16) (φ₂ := .bf16) v0 v2
      (constant ⟨2, ![10000, 128]⟩ .f32 0x00000000#32) := by
  unfold k4_pay1
  rw [shapeCast_self, shapeCast_self]
  rfl

/-- The left window of the block's product, at an entry. -/
theorem left_apply (v0 : Vec Ideal S10000x64 .f32) (W R : Vec Ideal S64x64 .f32) (p : Fin 10000) (q : Fin 64) :
    k4_pay2 v0 (concatenate S64x128 1 [⟨S64x64, W⟩, ⟨S64x64, R⟩] concatenates_S64x64_S64x64_S64x128_d1) (ix2 p q)
      = ∑ k : Fin 64, v0 (ix2 p k) * W (ix2 k q) := by
  unfold k4_pay2
  rw [product_eq]
  exact Cert.FusedLinear.window_left_apply 10000 64 128 64 64 none v0 W R _ _ (by decide) p q

/-- The right window of the block's product, at an entry. -/
theorem right_apply (v0 : Vec Ideal S10000x64 .f32) (W R : Vec Ideal S64x64 .f32) (p : Fin 10000) (q : Fin 64) :
    k4_pay3 v0 (concatenate S64x128 1 [⟨S64x64, W⟩, ⟨S64x64, R⟩] concatenates_S64x64_S64x64_S64x128_d1) (ix2 p q)
      = ∑ k : Fin 64, v0 (ix2 p k) * R (ix2 k q) := by
  unfold k4_pay3
  rw [product_eq]
  exact Cert.FusedLinear.window_right_apply 10000 64 128 64 64 none v0 W R _ _ (by decide) p q

/-- The table's block is the whole table at every point. -/
theorem table_block (c : Dev nD) (t : Fin cfg4.N) : iblk4 V c 1 t = V c main_v64 := by
  obtain ⟨e0, e1, e2, e3, e4, e5, e6, e7, e8⟩ := blockIndex t
  funext y
  show V c main_v64 (((cfg4.win 1).blk t).view.emb y) = V c main_v64 y
  refine congrArg _ ?_
  funext a; apply Fin.ext
  match a with
  | ⟨0, _⟩ => show win4_1.index t (0 : Fin 2) * 64 + 1 * (y 0).val = (y 0).val; omega
  | ⟨1, _⟩ => show win4_1.index t (1 : Fin 2) * 128 + 1 * (y 1).val = (y 1).val; omega

/-- The input's block at point t is rows 10000·t … of the input. -/
theorem rows_block (c : Dev nD) (t : Fin cfg4.N) (p : Fin 10000) (k : Fin 64) (h : t.val * 10000 + p.val < 100000) :
    iblk4 V c 0 t (ix2 p k) = V c main_v63 (ix2 ⟨t.val * 10000 + p.val, h⟩ k) := by
  obtain ⟨e0, e1, e2, e3, e4, e5, e6, e7, e8⟩ := blockIndex t
  show V c main_v63 (((cfg4.win 0).blk t).view.emb (ix2 p k)) = _
  refine congrArg _ ?_
  funext a; apply Fin.ext
  match a with
  | ⟨0, _⟩ => show win4_0.index t (0 : Fin 2) * 10000 + 1 * p.val = t.val * 10000 + p.val; omega
  | ⟨1, _⟩ => show win4_0.index t (1 : Fin 2) * 64 + 1 * k.val = k.val; omega

/-- What point t writes back to the first output is its block of x · W. -/
theorem flushed_left (c : Dev nD) (W R : FVec Ideal S64x64 .f32)
    (hWR : V c main_v64 = concatenate S64x128 1 [⟨S64x64, W⟩, ⟨S64x64, R⟩] concatenates_S64x64_S64x64_S64x128_d1) (t : Fin cfg4.N) :
    (dat4 V c).flushed 2 t = ((cfg4.win 2).blk t).view.read (Elt Ideal)
      (Host.dotGeneral (F := Ideal) (φ₁ := .f32) (φ₂ := .f32) (DotDims.plain 100000 64 64) none (V c main_v63) W) := by
  show (cfg4.win 2).cut (grid4.coords t) ((dat4 V c).after 2 t) = _
  rw [after4_2]
  unfold out4_2
  rw [View.canon_unit_zero zeros]
  simp only [View.ld_unit_zero (S := S10000x64) zeros, View.ld_unit_zero (S := S64x128) zeros]
  rw [table_block V c t, hWR]
  obtain ⟨e0, e1, e2, e3, e4, e5, e6, e7, e8⟩ := blockIndex t
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg4.win 2).blk t).view.emb (ix2 p q) = ix2 ⟨t.val * 10000 + p.val, hp⟩ q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  show k4_pay2 (iblk4 V c 0 t) _ (ix2 p q)
    = Host.dotGeneral (F := Ideal) (φ₁ := .f32) (φ₂ := .f32) (DotDims.plain 100000 64 64) none (V c main_v63) W (((cfg4.win 2).blk t).view.emb (ix2 p q))
  rw [hemb, left_apply (iblk4 V c 0 t) W R p q, Cert.FusedLinear.dot_rows_apply]
  exact Finset.sum_congr rfl fun k _ => by rw [rows_block V c t p k hp]

/-- What point t writes back to the second output is its block of x · R. -/
theorem flushed_right (c : Dev nD) (W R : FVec Ideal S64x64 .f32)
    (hWR : V c main_v64 = concatenate S64x128 1 [⟨S64x64, W⟩, ⟨S64x64, R⟩] concatenates_S64x64_S64x64_S64x128_d1) (t : Fin cfg4.N) :
    (dat4 V c).flushed 3 t = ((cfg4.win 3).blk t).view.read (Elt Ideal)
      (Host.dotGeneral (F := Ideal) (φ₁ := .f32) (φ₂ := .f32) (DotDims.plain 100000 64 64) none (V c main_v63) R) := by
  show (cfg4.win 3).cut (grid4.coords t) ((dat4 V c).after 3 t) = _
  rw [after4_3]
  unfold out4_3
  rw [View.canon_unit_zero zeros]
  simp only [View.ld_unit_zero (S := S10000x64) zeros, View.ld_unit_zero (S := S64x128) zeros]
  rw [table_block V c t, hWR]
  obtain ⟨e0, e1, e2, e3, e4, e5, e6, e7, e8⟩ := blockIndex t
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg4.win 3).blk t).view.emb (ix2 p q) = ix2 ⟨t.val * 10000 + p.val, hp⟩ q := by
    funext a; apply Fin.ext
    match a with
    | ⟨0, _⟩ => show win4_3.index t (0 : Fin 2) * 10000 + 1 * p.val = t.val * 10000 + p.val; omega
    | ⟨1, _⟩ => show win4_3.index t (1 : Fin 2) * 64 + 1 * q.val = q.val; omega
  show k4_pay3 (iblk4 V c 0 t) _ (ix2 p q)
    = Host.dotGeneral (F := Ideal) (φ₁ := .f32) (φ₂ := .f32) (DotDims.plain 100000 64 64) none (V c main_v63) R (((cfg4.win 3).blk t).view.emb (ix2 p q))
  rw [hemb, right_apply (iblk4 V c 0 t) W R p q, Cert.FusedLinear.dot_rows_apply]
  exact Finset.sum_congr rfl fun k _ => by rw [rows_block V c t p k hp]

/-- An index of the first output is in point t's block iff each coordinate is in the block's range. -/
theorem mem_left (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v65_0).slice (win4_2.rect t)).set ↔ _
  rw [View.set_slice_whole, Rect.mem_set_unit]
  exact Iff.rfl

theorem mem_right (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v65_1).slice (win4_3.rect t)).set ↔ _
  rw [View.set_slice_whole, Rect.mem_set_unit]
  exact Iff.rfl

/-- Row r is written by point r / 10000. -/
theorem cover_left (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have ht : (i 0).val / 10000 < grid4.N := by rw [N_4]; omega
  obtain ⟨e0, e1, e2, e3, e4, e5, e6, e7, e8⟩ := blockIndex ⟨(i 0).val / 10000, ht⟩
  refine ⟨⟨(i 0).val / 10000, ht⟩, flush4_2 _, ?_⟩
  rw [mem_left]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 64 ≤ (i 1).val
      ∧ (i 1).val < win4_2.index ⟨(i 0).val / 10000, ht⟩ (1 : Fin 2) * 64 + 64
    rw [e5]; omega

theorem cover_right (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have ht : (i 0).val / 10000 < grid4.N := by rw [N_4]; omega
  obtain ⟨e0, e1, e2, e3, e4, e5, e6, e7, e8⟩ := blockIndex ⟨(i 0).val / 10000, ht⟩
  refine ⟨⟨(i 0).val / 10000, ht⟩, flush4_3 _, ?_⟩
  rw [mem_right]
  intro a
  match a with
  | ⟨0, _⟩ =>
    show win4_3.index ⟨(i 0).val / 10000, ht⟩ (0 : Fin 2) * 10000 ≤ (i 0).val
      ∧ (i 0).val < win4_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, ht⟩ (1 : Fin 2) * 64 ≤ (i 1).val
      ∧ (i 1).val < win4_3.index ⟨(i 0).val / 10000, ht⟩ (1 : Fin 2) * 64 + 64
    rw [e7]; omega

/-- After the region the first output holds x · W … -/
theorem final_left (c : Dev nD) (W R : FVec Ideal S64x64 .f32)
    (hWR : V c main_v64 = concatenate S64x128 1 [⟨S64x64, W⟩, ⟨S64x64, R⟩] concatenates_S64x64_S64x64_S64x128_d1) :
    (dat4 V c).arrAt 2 cfg4.N = Host.dotGeneral (F := Ideal) (φ₁ := .f32) (φ₂ := .f32) (DotDims.plain 100000 64 64) none (V c main_v63) W :=
  (dat4 V c).arrAt_eq_of_cover 2 _ (fun t _ => flushed_left V c W R hWR t) cover_left

/-- … and the second x · R. -/
theorem final_right (c : Dev nD) (W R : FVec Ideal S64x64 .f32)
    (hWR : V c main_v64 = concatenate S64x128 1 [⟨S64x64, W⟩, ⟨S64x64, R⟩] concatenates_S64x64_S64x64_S64x128_d1) :
    (dat4 V c).arrAt 3 cfg4.N = Host.dotGeneral (F := Ideal) (φ₁ := .f32) (φ₂ := .f32) (DotDims.plain 100000 64 64) none (V c main_v63) R :=
  (dat4 V c).arrAt_eq_of_cover 3 _ (fun t _ => flushed_right V c W R hWR t) cover_right

end Cert.KernelIdeal.Lin4

end
-- ==== Proof.Lin6.lean ====
/-
  The last linear region. Its grid has ten points; point t stages rows [10000·t, 10000·t + 10000) of the
  layer's input x (100000 × 64) and the whole table [W | R] (64 × 80), multiplies them once, and writes the
  left 40 columns of the product to the same rows of one output and the right 40 columns to the same rows of
  the other. Entry (r, q) of a product reads only row r of x and column q of the table, so the first output
  ends as the host's product x · W and the second as x · R, whatever else the buffers held.
-/
import proofs.«143482_j29437705846971_1_alg».proof.Proof.Gen.KernelIdeal.Frame
import proofs.«143482_j29437705846971_1_alg».proof.Proof.LibFusedLinear
import Idealize.ShloMosaic.Lib.Pipeline.Value
import Idealize.ShloMosaic.Lib.ValueIdx

set_option maxRecDepth 16384

noncomputable section

open scoped BigOperators

namespace Cert.KernelIdeal.Lin6

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point t: rows move with t, columns never move. -/
theorem blockIndex : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 ∧ t.val < 10 :=
  (by decide +kernel : ∀ t : Fin grid6.N, _)

/-- The body's product, with the narrowing of its operands read as the identity. -/
theorem product_eq (v0 : Vec Ideal S10000x64 .f32) (v2 : Vec Ideal S64x80 .f32) :
    k6_pay1 v0 v2 = FloatOps.matmul (DotDims.plain 10000 64 80) none (φ₁ := .bf16) (φ₂ := .bf16) v0 v2
      (constant ⟨2, ![10000, 80]⟩ .f32 0x00000000#32) := by
  unfold k6_pay1
  rw [shapeCast_self, shapeCast_self]
  rfl

/-- The left window of the block's product, at an entry. -/
theorem left_apply (v0 : Vec Ideal S10000x64 .f32) (W R : Vec Ideal S64x40 .f32) (p : Fin 10000) (q : Fin 40) :
    k6_pay2 v0 (concatenate S64x80 1 [⟨S64x40, W⟩, ⟨S64x40, R⟩] concatenates_S64x40_S64x40_S64x80_d1) (ix2 p q)
      = ∑ k : Fin 64, v0 (ix2 p k) * W (ix2 k q) := by
  unfold k6_pay2
  rw [product_eq]
  exact Cert.FusedLinear.window_left_apply 10000 64 80 40 40 none v0 W R _ _ (by decide) p q

/-- The right window of the block's product, at an entry. -/
theorem right_apply (v0 : Vec Ideal S10000x64 .f32) (W R : Vec Ideal S64x40 .f32) (p : Fin 10000) (q : Fin 40) :
    k6_pay3 v0 (concatenate S64x80 1 [⟨S64x40, W⟩, ⟨S64x40, R⟩] concatenates_S64x40_S64x40_S64x80_d1) (ix2 p q)
      = ∑ k : Fin 64, v0 (ix2 p k) * R (ix2 k q) := by
  unfold k6_pay3
  rw [product_eq]
  exact Cert.FusedLinear.window_right_apply 10000 64 80 40 40 none v0 W R _ _ (by decide) p q

/-- The table's block is the whole table at every point. -/
theorem table_block (c : Dev nD) (t : Fin cfg6.N) : iblk6 V c 1 t = V c main_v80 := by
  obtain ⟨e0, e1, e2, e3, e4, e5, e6, e7, e8⟩ := blockIndex t
  funext y
  show V c main_v80 (((cfg6.win 1).blk t).view.emb y) = V c main_v80 y
  refine congrArg _ ?_
  funext a; apply Fin.ext
  match a with
  | ⟨0, _⟩ => show win6_1.index t (0 : Fin 2) * 64 + 1 * (y 0).val = (y 0).val; omega
  | ⟨1, _⟩ => show win6_1.index t (1 : Fin 2) * 80 + 1 * (y 1).val = (y 1).val; omega

/-- The input's block at point t is rows 10000·t … of the input. -/
theorem rows_block (c : Dev nD) (t : Fin cfg6.N) (p : Fin 10000) (k : Fin 64) (h : t.val * 10000 + p.val < 100000) :
    iblk6 V c 0 t (ix2 p k) = V c main_v79 (ix2 ⟨t.val * 10000 + p.val, h⟩ k) := by
  obtain ⟨e0, e1, e2, e3, e4, e5, e6, e7, e8⟩ := blockIndex t
  show V c main_v79 (((cfg6.win 0).blk t).view.emb (ix2 p k)) = _
  refine congrArg _ ?_
  funext a; apply Fin.ext
  match a with
  | ⟨0, _⟩ => show win6_0.index t (0 : Fin 2) * 10000 + 1 * p.val = t.val * 10000 + p.val; omega
  | ⟨1, _⟩ => show win6_0.index t (1 : Fin 2) * 64 + 1 * k.val = k.val; omega

/-- What point t writes back to the first output is its block of x · W. -/
theorem flushed_left (c : Dev nD) (W R : FVec Ideal S64x40 .f32)
    (hWR : V c main_v80 = concatenate S64x80 1 [⟨S64x40, W⟩, ⟨S64x40, R⟩] concatenates_S64x40_S64x40_S64x80_d1) (t : Fin cfg6.N) :
    (dat6 V c).flushed 2 t = ((cfg6.win 2).blk t).view.read (Elt Ideal)
      (Host.dotGeneral (F := Ideal) (φ₁ := .f32) (φ₂ := .f32) (DotDims.plain 100000 64 40) none (V c main_v79) W) := by
  show (cfg6.win 2).cut (grid6.coords t) ((dat6 V c).after 2 t) = _
  rw [after6_2]
  unfold out6_2
  rw [View.canon_unit_zero zeros]
  simp only [View.ld_unit_zero (S := S10000x64) zeros, View.ld_unit_zero (S := S64x80) zeros]
  rw [table_block V c t, hWR]
  obtain ⟨e0, e1, e2, e3, e4, e5, e6, e7, e8⟩ := blockIndex t
  funext j
  obtain ⟨p, q, rfl⟩ : ∃ (p : Fin 10000) (q : Fin 40), j = ix2 p q := ⟨j 0, j 1, eq_ix2 j⟩
  have hp : t.val * 10000 + p.val < 100000 := by have := p.isLt; omega
  have hemb : ((cfg6.win 2).blk t).view.emb (ix2 p q) = ix2 ⟨t.val * 10000 + p.val, hp⟩ q := by
    funext a; apply Fin.ext
    match a with
    | ⟨0, _⟩ => show win6_2.index t (0 : Fin 2) * 10000 + 1 * p.val = t.val * 10000 + p.val; omega
    | ⟨1, _⟩ => show win6_2.index t (1 : Fin 2) * 40 + 1 * q.val = q.val; omega
  show k6_pay2 (iblk6 V c 0 t) _ (ix2 p q)
    = Host.dotGeneral (F := Ideal) (φ₁ := .f32) (φ₂ := .f32) (DotDims.plain 100000 64 40) none (V c main_v79) W (((cfg6.win 2).blk t).view.emb (ix2 p q))
  rw [hemb, left_apply (iblk6 V c 0 t) W R p q, Cert.FusedLinear.dot_rows_apply]
  exact Finset.sum_congr rfl fun k _ => by rw [rows_block V c t p k hp]

/-- What point t writes back to the second output is its block of x · R. -/
theorem flushed_right (c : Dev nD) (W R : FVec Ideal S64x40 .f32)
    (hWR : V c main_v80 = concatenate S64x80 1 [⟨S64x40, W⟩, ⟨S64x40, R⟩] concatenates_S64x40_S64x40_S64x80_d1) (t : Fin cfg6.N) :
    (dat6 V c).flushed 3 t = ((cfg6.win 3).blk t).view.read (Elt Ideal)
      (Host.dotGeneral (F := Ideal) (φ₁ := .f32) (φ₂ := .f32) (DotDims.plain 100000 64 40) none (V c main_v79) R) := by
  show (cfg6.win 3).cut (grid6.coords t) ((dat6 V c).after 3 t) = _
  rw [after6_3]
  unfold out6_3
  rw [View.canon_unit_zero zeros]
  simp only [View.ld_unit_zero (S := S10000x64) zeros, View.ld_unit_zero (S := S64x80) zeros]
  rw [table_block V c t, hWR]
  obtain ⟨e0, e1, e2, e3, e4, e5, e6, e7, e8⟩ := blockIndex t
  funext j
  obtain ⟨p, q, rfl⟩ : ∃ (p : Fin 10000) (q : Fin 40), j = ix2 p q := ⟨j 0, j 1, eq_ix2 j⟩
  have hp : t.val * 10000 + p.val < 100000 := by have := p.isLt; omega
  have hemb : ((cfg6.win 3).blk t).view.emb (ix2 p q) = ix2 ⟨t.val * 10000 + p.val, hp⟩ q := by
    funext a; apply Fin.ext
    match a with
    | ⟨0, _⟩ => show win6_3.index t (0 : Fin 2) * 10000 + 1 * p.val = t.val * 10000 + p.val; omega
    | ⟨1, _⟩ => show win6_3.index t (1 : Fin 2) * 40 + 1 * q.val = q.val; omega
  show k6_pay3 (iblk6 V c 0 t) _ (ix2 p q)
    = Host.dotGeneral (F := Ideal) (φ₁ := .f32) (φ₂ := .f32) (DotDims.plain 100000 64 40) none (V c main_v79) R (((cfg6.win 3).blk t).view.emb (ix2 p q))
  rw [hemb, right_apply (iblk6 V c 0 t) W R p q, Cert.FusedLinear.dot_rows_apply]
  exact Finset.sum_congr rfl fun k _ => by rw [rows_block V c t p k hp]

/-- An index of the first output is in point t's block iff each coordinate is in the block's range. -/
theorem mem_left (t : Fin cfg6.N) (i : S100000x40.Idx) :
    i ∈ ((cfg6.win 2).blk t).view.set ↔ ∀ a : Fin 2, win6_2.index t a * S10000x40.size a ≤ (i a).val
      ∧ (i a).val < win6_2.index t a * S10000x40.size a + S10000x40.size a := by
  show i ∈ ((View.whole main_v81_0).slice (win6_2.rect t)).set ↔ _
  rw [View.set_slice_whole, Rect.mem_set_unit]
  exact Iff.rfl

theorem mem_right (t : Fin cfg6.N) (i : S100000x40.Idx) :
    i ∈ ((cfg6.win 3).blk t).view.set ↔ ∀ a : Fin 2, win6_3.index t a * S10000x40.size a ≤ (i a).val
      ∧ (i a).val < win6_3.index t a * S10000x40.size a + S10000x40.size a := by
  show i ∈ ((View.whole main_v81_1).slice (win6_3.rect t)).set ↔ _
  rw [View.set_slice_whole, Rect.mem_set_unit]
  exact Iff.rfl

/-- Row r is written by point r / 10000. -/
theorem cover_left (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  have ht : (i 0).val / 10000 < grid6.N := by rw [N_6]; omega
  obtain ⟨e0, e1, e2, e3, e4, e5, e6, e7, e8⟩ := blockIndex ⟨(i 0).val / 10000, ht⟩
  refine ⟨⟨(i 0).val / 10000, ht⟩, flush6_2 _, ?_⟩
  rw [mem_left]
  intro a
  match a with
  | ⟨0, _⟩ =>
    show win6_2.index ⟨(i 0).val / 10000, ht⟩ (0 : Fin 2) * 10000 ≤ (i 0).val
      ∧ (i 0).val < win6_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, ht⟩ (1 : Fin 2) * 40 ≤ (i 1).val
      ∧ (i 1).val < win6_2.index ⟨(i 0).val / 10000, ht⟩ (1 : Fin 2) * 40 + 40
    rw [e5]; omega

theorem cover_right (i : S100000x40.Idx) :
    ∃ t : Fin cfg6.N, (cfg6.win 3).flush t = true ∧ i ∈ ((cfg6.win 3).blk t).view.set := by
  have hi0 : (i 0).val < 100000 := (i 0).isLt
  have hi1 : (i 1).val < 40 := (i 1).isLt
  have ht : (i 0).val / 10000 < grid6.N := by rw [N_6]; omega
  obtain ⟨e0, e1, e2, e3, e4, e5, e6, e7, e8⟩ := blockIndex ⟨(i 0).val / 10000, ht⟩
  refine ⟨⟨(i 0).val / 10000, ht⟩, flush6_3 _, ?_⟩
  rw [mem_right]
  intro a
  match a with
  | ⟨0, _⟩ =>
    show win6_3.index ⟨(i 0).val / 10000, ht⟩ (0 : Fin 2) * 10000 ≤ (i 0).val
      ∧ (i 0).val < win6_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win6_3.index ⟨(i 0).val / 10000, ht⟩ (1 : Fin 2) * 40 ≤ (i 1).val
      ∧ (i 1).val < win6_3.index ⟨(i 0).val / 10000, ht⟩ (1 : Fin 2) * 40 + 40
    rw [e7]; omega

/-- After the region the first output holds x · W … -/
theorem final_left (c : Dev nD) (W R : FVec Ideal S64x40 .f32)
    (hWR : V c main_v80 = concatenate S64x80 1 [⟨S64x40, W⟩, ⟨S64x40, R⟩] concatenates_S64x40_S64x40_S64x80_d1) :
    (dat6 V c).arrAt 2 cfg6.N = Host.dotGeneral (F := Ideal) (φ₁ := .f32) (φ₂ := .f32) (DotDims.plain 100000 64 40) none (V c main_v79) W :=
  (dat6 V c).arrAt_eq_of_cover 2 _ (fun t _ => flushed_left V c W R hWR t) cover_left

/-- … and the second x · R. -/
theorem final_right (c : Dev nD) (W R : FVec Ideal S64x40 .f32)
    (hWR : V c main_v80 = concatenate S64x80 1 [⟨S64x40, W⟩, ⟨S64x40, R⟩] concatenates_S64x40_S64x40_S64x80_d1) :
    (dat6 V c).arrAt 3 cfg6.N = Host.dotGeneral (F := Ideal) (φ₁ := .f32) (φ₂ := .f32) (DotDims.plain 100000 64 40) none (V c main_v79) R :=
  (dat6 V c).arrAt_eq_of_cover 3 _ (fun t _ => flushed_right V c W R hWR t) cover_right

end Cert.KernelIdeal.Lin6

end
-- ==== Proof.Relu1.lean ====
/-
  The first rectifier region. Point t stages rows [10000·t, 10000·t + 10000) of the messages and of the
  residual (both 100000 × 64) and writes max(messages, 0) + residual to the same rows of its output: an
  entrywise formula, so the output ends as that formula of the two whole arrays.
-/
import proofs.«143482_j29437705846971_1_alg».proof.Proof.Gen.KernelIdeal.Frame
import proofs.«143482_j29437705846971_1_alg».proof.Proof.Net
import Idealize.ShloMosaic.Lib.Pipeline.Value
import Idealize.ShloMosaic.Lib.ValueIdx

set_option maxRecDepth 16384

noncomputable section

namespace Cert.KernelIdeal.Relu1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- All three windows move together: block t is rows 10000·t …, all columns. -/
theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 ∧ t.val < 10 :=
  (by decide +kernel : ∀ t : Fin grid1.N, _)

/-- The body's value at an entry. -/
theorem body_apply (v0 v4 : Vec Ideal S10000x64 .f32) (j : S10000x64.Idx) :
    k1_pay1 v0 v4 j = FloatOps.addf (FloatOps.maximumf (v0 j) (Scalar.ofBits (F := Ideal) .f32 0x00000000#32)) (v4 j) := by
  unfold k1_pay1
  rw [shapeCast_self, shapeCast_self]
  rfl

/-- The host's formula at an entry. -/
theorem host_apply (msg res : FVec Ideal S100000x64 .f32) (i : S100000x64.Idx) :
    Cert.Net.reluAdd64 (F := Ideal) msg res i
      = FloatOps.addf (FloatOps.maximumf (msg i) (Scalar.ofBits (F := Ideal) .f32 0x00000000#32)) (res i) := by
  unfold Cert.Net.reluAdd64
  show FloatOps.addf (FloatOps.maximumf (msg i)
    (broadcastInDim S100000x64 ![] bcast_S_S100000x64 (constant (F := Ideal) S_ .f32 0x00000000#32) i)) (res i) = _
  rw [broadcastInDim_apply _ bcast_S_S100000x64 (constant (F := Ideal) S_ .f32 0x00000000#32) i (fun a => a.elim0) (fun a => a.elim0)]
  rfl

/-- What point t writes back is its block of max(messages, 0) + residual. -/
theorem flushed_eq (c : Dev nD) (t : Fin cfg1.N) :
    (dat1 V c).flushed 2 t = ((cfg1.win 2).blk t).view.read (Elt Ideal)
      (Cert.Net.reluAdd64 (F := Ideal) (V c main_v46) (V c main_v33_1)) := by
  show (cfg1.win 2).cut (grid1.coords t) ((dat1 V c).after 2 t) = _
  rw [after1_2]
  unfold out1_2
  rw [View.canon_unit_zero zeros]
  simp only [View.ld_unit_zero (S := S10000x64) zeros]
  obtain ⟨e0, e1, e2, e3, e4, e5, e6⟩ := blockIndex t
  funext j
  show k1_pay1 (iblk1 V c 0 t) (iblk1 V c 1 t) j
    = Cert.Net.reluAdd64 (F := Ideal) (V c main_v46) (V c main_v33_1) (((cfg1.win 2).blk t).view.emb j)
  rw [body_apply (iblk1 V c 0 t) (iblk1 V c 1 t) j, host_apply]
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  have hA : iblk1 V c 0 t j = V c main_v46 (((cfg1.win 2).blk t).view.emb j) := by
    show V c main_v46 (((cfg1.win 0).blk t).view.emb j) = _
    rw [h0]
  have hB : iblk1 V c 1 t j = V c main_v33_1 (((cfg1.win 2).blk t).view.emb j) := by
    show V c main_v33_1 (((cfg1.win 1).blk t).view.emb j) = _
    rw [h1]
  rw [hA, hB]

theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Row r is written by point r / 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 10000 < grid1.N := by rw [N_1]; omega
  obtain ⟨e0, e1, e2, e3, e4, e5, e6⟩ := blockIndex ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- After the region the output holds max(messages, 0) + residual. -/
theorem final (c : Dev nD) :
    (dat1 V c).arrAt 2 cfg1.N = Cert.Net.reluAdd64 (F := Ideal) (V c main_v46) (V c main_v33_1) :=
  (dat1 V c).arrAt_eq_of_cover 2 _ (fun t _ => flushed_eq V c t) cover

end Cert.KernelIdeal.Relu1

end
-- ==== Proof.Relu3.lean ====
/-
  The second rectifier region. Point t stages rows [10000·t, 10000·t + 10000) of the messages and of the
  residual (both 100000 × 64) and writes max(messages, 0) + residual to the same rows of its output: an
  entrywise formula, so the output ends as that formula of the two whole arrays.
-/
import proofs.«143482_j29437705846971_1_alg».proof.Proof.Gen.KernelIdeal.Frame
import proofs.«143482_j29437705846971_1_alg».proof.Proof.Net
import Idealize.ShloMosaic.Lib.Pipeline.Value
import Idealize.ShloMosaic.Lib.ValueIdx

set_option maxRecDepth 16384

noncomputable section

namespace Cert.KernelIdeal.Relu3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- All three windows move together: block t is rows 10000·t …, all columns. -/
theorem blockIndex : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 ∧ t.val < 10 :=
  (by decide +kernel : ∀ t : Fin grid3.N, _)

/-- The body's value at an entry. -/
theorem body_apply (v0 v4 : Vec Ideal S10000x64 .f32) (j : S10000x64.Idx) :
    k3_pay1 v0 v4 j = FloatOps.addf (FloatOps.maximumf (v0 j) (Scalar.ofBits (F := Ideal) .f32 0x00000000#32)) (v4 j) := by
  unfold k3_pay1
  rw [shapeCast_self, shapeCast_self]
  rfl

/-- The host's formula at an entry. -/
theorem host_apply (msg res : FVec Ideal S100000x64 .f32) (i : S100000x64.Idx) :
    Cert.Net.reluAdd64 (F := Ideal) msg res i
      = FloatOps.addf (FloatOps.maximumf (msg i) (Scalar.ofBits (F := Ideal) .f32 0x00000000#32)) (res i) := by
  unfold Cert.Net.reluAdd64
  show FloatOps.addf (FloatOps.maximumf (msg i)
    (broadcastInDim S100000x64 ![] bcast_S_S100000x64 (constant (F := Ideal) S_ .f32 0x00000000#32) i)) (res i) = _
  rw [broadcastInDim_apply _ bcast_S_S100000x64 (constant (F := Ideal) S_ .f32 0x00000000#32) i (fun a => a.elim0) (fun a => a.elim0)]
  rfl

/-- What point t writes back is its block of max(messages, 0) + residual. -/
theorem flushed_eq (c : Dev nD) (t : Fin cfg3.N) :
    (dat3 V c).flushed 2 t = ((cfg3.win 2).blk t).view.read (Elt Ideal)
      (Cert.Net.reluAdd64 (F := Ideal) (V c main_v62) (V c main_v49_1)) := by
  show (cfg3.win 2).cut (grid3.coords t) ((dat3 V c).after 2 t) = _
  rw [after3_2]
  unfold out3_2
  rw [View.canon_unit_zero zeros]
  simp only [View.ld_unit_zero (S := S10000x64) zeros]
  obtain ⟨e0, e1, e2, e3, e4, e5, e6⟩ := blockIndex t
  funext j
  show k3_pay1 (iblk3 V c 0 t) (iblk3 V c 1 t) j
    = Cert.Net.reluAdd64 (F := Ideal) (V c main_v62) (V c main_v49_1) (((cfg3.win 2).blk t).view.emb j)
  rw [body_apply (iblk3 V c 0 t) (iblk3 V c 1 t) j, host_apply]
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  have hA : iblk3 V c 0 t j = V c main_v62 (((cfg3.win 2).blk t).view.emb j) := by
    show V c main_v62 (((cfg3.win 0).blk t).view.emb j) = _
    rw [h0]
  have hB : iblk3 V c 1 t j = V c main_v49_1 (((cfg3.win 2).blk t).view.emb j) := by
    show V c main_v49_1 (((cfg3.win 1).blk t).view.emb j) = _
    rw [h1]
  rw [hA, hB]

theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v63).slice (win3_2.rect t)).set ↔ _
  rw [View.set_slice_whole, Rect.mem_set_unit]
  exact Iff.rfl

/-- Row r is written by point r / 10000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 10000 < grid3.N := by rw [N_3]; omega
  obtain ⟨e0, e1, e2, e3, e4, e5, e6⟩ := blockIndex ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e5]; omega

/-- After the region the output holds max(messages, 0) + residual. -/
theorem final (c : Dev nD) :
    (dat3 V c).arrAt 2 cfg3.N = Cert.Net.reluAdd64 (F := Ideal) (V c main_v62) (V c main_v49_1) :=
  (dat3 V c).arrAt_eq_of_cover 2 _ (fun t _ => flushed_eq V c t) cover

end Cert.KernelIdeal.Relu3

end
-- ==== Proof.Relu5.lean ====
/-
  The third rectifier region. Point t stages rows [10000·t, 10000·t + 10000) of the messages and of the
  residual (both 100000 × 64) and writes max(messages, 0) + residual to the same rows of its output: an
  entrywise formula, so the output ends as that formula of the two whole arrays.
-/
import proofs.«143482_j29437705846971_1_alg».proof.Proof.Gen.KernelIdeal.Frame
import proofs.«143482_j29437705846971_1_alg».proof.Proof.Net
import Idealize.ShloMosaic.Lib.Pipeline.Value
import Idealize.ShloMosaic.Lib.ValueIdx

set_option maxRecDepth 16384

noncomputable section

namespace Cert.KernelIdeal.Relu5

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- All three windows move together: block t is rows 10000·t …, all columns. -/
theorem blockIndex : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 ∧ t.val < 10 :=
  (by decide +kernel : ∀ t : Fin grid5.N, _)

/-- The body's value at an entry. -/
theorem body_apply (v0 v4 : Vec Ideal S10000x64 .f32) (j : S10000x64.Idx) :
    k5_pay1 v0 v4 j = FloatOps.addf (FloatOps.maximumf (v0 j) (Scalar.ofBits (F := Ideal) .f32 0x00000000#32)) (v4 j) := by
  unfold k5_pay1
  rw [shapeCast_self, shapeCast_self]
  rfl

/-- The host's formula at an entry. -/
theorem host_apply (msg res : FVec Ideal S100000x64 .f32) (i : S100000x64.Idx) :
    Cert.Net.reluAdd64 (F := Ideal) msg res i
      = FloatOps.addf (FloatOps.maximumf (msg i) (Scalar.ofBits (F := Ideal) .f32 0x00000000#32)) (res i) := by
  unfold Cert.Net.reluAdd64
  show FloatOps.addf (FloatOps.maximumf (msg i)
    (broadcastInDim S100000x64 ![] bcast_S_S100000x64 (constant (F := Ideal) S_ .f32 0x00000000#32) i)) (res i) = _
  rw [broadcastInDim_apply _ bcast_S_S100000x64 (constant (F := Ideal) S_ .f32 0x00000000#32) i (fun a => a.elim0) (fun a => a.elim0)]
  rfl

/-- What point t writes back is its block of max(messages, 0) + residual. -/
theorem flushed_eq (c : Dev nD) (t : Fin cfg5.N) :
    (dat5 V c).flushed 2 t = ((cfg5.win 2).blk t).view.read (Elt Ideal)
      (Cert.Net.reluAdd64 (F := Ideal) (V c main_v78) (V c main_v65_1)) := by
  show (cfg5.win 2).cut (grid5.coords t) ((dat5 V c).after 2 t) = _
  rw [after5_2]
  unfold out5_2
  rw [View.canon_unit_zero zeros]
  simp only [View.ld_unit_zero (S := S10000x64) zeros]
  obtain ⟨e0, e1, e2, e3, e4, e5, e6⟩ := blockIndex t
  funext j
  show k5_pay1 (iblk5 V c 0 t) (iblk5 V c 1 t) j
    = Cert.Net.reluAdd64 (F := Ideal) (V c main_v78) (V c main_v65_1) (((cfg5.win 2).blk t).view.emb j)
  rw [body_apply (iblk5 V c 0 t) (iblk5 V c 1 t) j, host_apply]
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  have hA : iblk5 V c 0 t j = V c main_v78 (((cfg5.win 2).blk t).view.emb j) := by
    show V c main_v78 (((cfg5.win 0).blk t).view.emb j) = _
    rw [h0]
  have hB : iblk5 V c 1 t j = V c main_v65_1 (((cfg5.win 2).blk t).view.emb j) := by
    show V c main_v65_1 (((cfg5.win 1).blk t).view.emb j) = _
    rw [h1]
  rw [hA, hB]

theorem mem_blk (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v79).slice (win5_2.rect t)).set ↔ _
  rw [View.set_slice_whole, Rect.mem_set_unit]
  exact Iff.rfl

/-- Row r is written by point r / 10000. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have ht : (i 0).val / 10000 < grid5.N := by rw [N_5]; omega
  obtain ⟨e0, e1, e2, e3, e4, e5, e6⟩ := blockIndex ⟨(i 0).val / 10000, ht⟩
  refine ⟨⟨(i 0).val / 10000, ht⟩, flush5_2 _, ?_⟩
  rw [mem_blk]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 64 ≤ (i 1).val
      ∧ (i 1).val < win5_2.index ⟨(i 0).val / 10000, ht⟩ (1 : Fin 2) * 64 + 64
    rw [e5]; omega

/-- After the region the output holds max(messages, 0) + residual. -/
theorem final (c : Dev nD) :
    (dat5 V c).arrAt 2 cfg5.N = Cert.Net.reluAdd64 (F := Ideal) (V c main_v78) (V c main_v65_1) :=
  (dat5 V c).arrAt_eq_of_cover 2 _ (fun t _ => flushed_eq V c t) cover

end Cert.KernelIdeal.Relu5

end
-- ==== Proof.Relu7.lean ====
/-
  The last rectifier region. Point t stages rows [10000·t, 10000·t + 10000) of the messages and of the
  residual (both 100000 × 40) and writes max(messages, 0) + residual to the same rows of its output: an
  entrywise formula, so the output ends as that formula of the two whole arrays.
-/
import proofs.«143482_j29437705846971_1_alg».proof.Proof.Gen.KernelIdeal.Frame
import proofs.«143482_j29437705846971_1_alg».proof.Proof.Net
import Idealize.ShloMosaic.Lib.Pipeline.Value
import Idealize.ShloMosaic.Lib.ValueIdx

set_option maxRecDepth 16384

noncomputable section

namespace Cert.KernelIdeal.Relu7

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- All three windows move together: block t is rows 10000·t …, all columns. -/
theorem blockIndex : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 ∧ t.val < 10 :=
  (by decide +kernel : ∀ t : Fin grid7.N, _)

/-- The body's value at an entry. -/
theorem body_apply (v0 v4 : Vec Ideal S10000x40 .f32) (j : S10000x40.Idx) :
    k7_pay1 v0 v4 j = FloatOps.addf (FloatOps.maximumf (v0 j) (Scalar.ofBits (F := Ideal) .f32 0x00000000#32)) (v4 j) := by
  unfold k7_pay1
  rw [shapeCast_self, shapeCast_self]
  rfl

/-- The host's formula at an entry. -/
theorem host_apply (msg res : FVec Ideal S100000x40 .f32) (i : S100000x40.Idx) :
    Cert.Net.reluAdd40 (F := Ideal) msg res i
      = FloatOps.addf (FloatOps.maximumf (msg i) (Scalar.ofBits (F := Ideal) .f32 0x00000000#32)) (res i) := by
  unfold Cert.Net.reluAdd40
  show FloatOps.addf (FloatOps.maximumf (msg i)
    (broadcastInDim S100000x40 ![] bcast_S_S100000x40 (constant (F := Ideal) S_ .f32 0x00000000#32) i)) (res i) = _
  rw [broadcastInDim_apply _ bcast_S_S100000x40 (constant (F := Ideal) S_ .f32 0x00000000#32) i (fun a => a.elim0) (fun a => a.elim0)]
  rfl

/-- What point t writes back is its block of max(messages, 0) + residual. -/
theorem flushed_eq (c : Dev nD) (t : Fin cfg7.N) :
    (dat7 V c).flushed 2 t = ((cfg7.win 2).blk t).view.read (Elt Ideal)
      (Cert.Net.reluAdd40 (F := Ideal) (V c main_v94) (V c main_v81_1)) := by
  show (cfg7.win 2).cut (grid7.coords t) ((dat7 V c).after 2 t) = _
  rw [after7_2]
  unfold out7_2
  rw [View.canon_unit_zero zeros]
  simp only [View.ld_unit_zero (S := S10000x40) zeros]
  obtain ⟨e0, e1, e2, e3, e4, e5, e6⟩ := blockIndex t
  funext j
  show k7_pay1 (iblk7 V c 0 t) (iblk7 V c 1 t) j
    = Cert.Net.reluAdd40 (F := Ideal) (V c main_v94) (V c main_v81_1) (((cfg7.win 2).blk t).view.emb j)
  rw [body_apply (iblk7 V c 0 t) (iblk7 V c 1 t) j, host_apply]
  have h0 : ((cfg7.win 0).blk t).view.emb j = ((cfg7.win 2).blk t).view.emb j := by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 40 + 1 * (j 1).val = win7_2.index t (1 : Fin 2) * 40 + 1 * (j 1).val; omega
  have h1 : ((cfg7.win 1).blk t).view.emb j = ((cfg7.win 2).blk t).view.emb j := by
    funext a; apply Fin.ext
    match a with
    | ⟨0, _⟩ => show win7_1.index t (0 : Fin 2) * 10000 + 1 * (j 0).val = win7_2.index t (0 : Fin 2) * 10000 + 1 * (j 0).val; omega
    | ⟨1, _⟩ => show win7_1.index t (1 : Fin 2) * 40 + 1 * (j 1).val = win7_2.index t (1 : Fin 2) * 40 + 1 * (j 1).val; omega
  have hA : iblk7 V c 0 t j = V c main_v94 (((cfg7.win 2).blk t).view.emb j) := by
    show V c main_v94 (((cfg7.win 0).blk t).view.emb j) = _
    rw [h0]
  have hB : iblk7 V c 1 t j = V c main_v81_1 (((cfg7.win 2).blk t).view.emb j) := by
    show V c main_v81_1 (((cfg7.win 1).blk t).view.emb j) = _
    rw [h1]
  rw [hA, hB]

theorem mem_blk (t : Fin cfg7.N) (i : S100000x40.Idx) :
    i ∈ ((cfg7.win 2).blk t).view.set ↔ ∀ a : Fin 2, win7_2.index t a * S10000x40.size a ≤ (i a).val
      ∧ (i a).val < win7_2.index t a * S10000x40.size a + S10000x40.size a := by
  show i ∈ ((View.whole main_v95).slice (win7_2.rect t)).set ↔ _
  rw [View.set_slice_whole, Rect.mem_set_unit]
  exact Iff.rfl

/-- Row r is written by point r / 10000. -/
theorem cover (i : S100000x40.Idx) :
    ∃ t : Fin cfg7.N, (cfg7.win 2).flush t = true ∧ i ∈ ((cfg7.win 2).blk t).view.set := by
  have hi0 : (i 0).val < 100000 := (i 0).isLt
  have hi1 : (i 1).val < 40 := (i 1).isLt
  have ht : (i 0).val / 10000 < grid7.N := by rw [N_7]; omega
  obtain ⟨e0, e1, e2, e3, e4, e5, e6⟩ := blockIndex ⟨(i 0).val / 10000, ht⟩
  refine ⟨⟨(i 0).val / 10000, ht⟩, flush7_2 _, ?_⟩
  rw [mem_blk]
  intro a
  match a with
  | ⟨0, _⟩ =>
    show win7_2.index ⟨(i 0).val / 10000, ht⟩ (0 : Fin 2) * 10000 ≤ (i 0).val
      ∧ (i 0).val < win7_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win7_2.index ⟨(i 0).val / 10000, ht⟩ (1 : Fin 2) * 40 ≤ (i 1).val
      ∧ (i 1).val < win7_2.index ⟨(i 0).val / 10000, ht⟩ (1 : Fin 2) * 40 + 40
    rw [e5]; omega

/-- After the region the output holds max(messages, 0) + residual. -/
theorem final (c : Dev nD) :
    (dat7 V c).arrAt 2 cfg7.N = Cert.Net.reluAdd40 (F := Ideal) (V c main_v94) (V c main_v81_1) :=
  (dat7 V c).arrAt_eq_of_cover 2 _ (fun t _ => flushed_eq V c t) cover

end Cert.KernelIdeal.Relu7

end
-- ==== Proof.LibJoinTwo.lean ====
/-
  Two arrays joined along an axis, the two operands as plain arguments of one function (the list of shape-tagged
  pieces a concatenation takes hides them from a rewriter that goes argument by argument).
-/
import Idealize.ShloMosaic.PureOps.Ideal
import Idealize.ShloMosaic.Lib.Pipeline.Value

noncomputable section

namespace Cert.JoinTwo

open Idealize.ShloMosaic

/-- The concatenation of two pieces along axis a. -/
def cat2 {α : Type} (t s₁ s₂ : Shape) (a : Fin t.rank) (h : Shape.Concatenates [s₁, s₂] t a)
    (u : s₁.Idx → α) (v : s₂.Idx → α) : t.Idx → α :=
  concatenate t a [⟨s₁, u⟩, ⟨s₂, v⟩] h

/-- A two-piece concatenation is it. -/
theorem cat2_fold {α : Type} (t s₁ s₂ : Shape) (a : Fin t.rank) (h : Shape.Concatenates [s₁, s₂] t a)
    (u : s₁.Idx → α) (v : s₂.Idx → α) : concatenate t a [⟨s₁, u⟩, ⟨s₂, v⟩] h = cat2 t s₁ s₂ a h u v := rfl

end Cert.JoinTwo

end
-- ==== Proof.KernelChain.lean ====
/-
  The idealized kernel's result is the network of the definition. @main is eighteen segments: the host's edge data,
  then per layer a join of the two weight tables, the linear region, the host's message passing, and the rectifier
  region. Each host stretch is read over ANY contents it starts from; each region leaves its outputs at the
  whole-array functions proved of it and every other buffer as it found it. The edge data and the ten arguments
  are written by no later segment, so every layer finds them.
-/
import proofs.«143482_j29437705846971_1_alg».proof.Proof.Gen.KernelIdeal.Frame
import proofs.«143482_j29437705846971_1_alg».proof.Proof.Net
import proofs.«143482_j29437705846971_1_alg».proof.Proof.Lin0
import proofs.«143482_j29437705846971_1_alg».proof.Proof.Lin2
import proofs.«143482_j29437705846971_1_alg».proof.Proof.Lin4
import proofs.«143482_j29437705846971_1_alg».proof.Proof.Lin6
import proofs.«143482_j29437705846971_1_alg».proof.Proof.Relu1
import proofs.«143482_j29437705846971_1_alg».proof.Proof.Relu3
import proofs.«143482_j29437705846971_1_alg».proof.Proof.Relu5
import proofs.«143482_j29437705846971_1_alg».proof.Proof.Relu7
import Idealize.ShloMosaic.Lib.StableHlo.Run
import proofs.«143482_j29437705846971_1_alg».proof.Proof.LibJoinTwo

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem

/-- What every segment after the edge data finds in the buffers no later segment writes. -/
structure At (s d : (⟨S1700000, .i32⟩ : BufTy).Contents (Elt Ideal)) (n : (⟨S1700000, .f32⟩ : BufTy).Contents (Elt Ideal))
    (w0 w1 w2 : (⟨S64x64, .f32⟩ : BufTy).Contents (Elt Ideal)) (w3 : (⟨S64x40, .f32⟩ : BufTy).Contents (Elt Ideal)) (r0 r1 r2 : (⟨S64x64, .f32⟩ : BufTy).Contents (Elt Ideal)) (r3 : (⟨S64x40, .f32⟩ : BufTy).Contents (Elt Ideal))
    (V : Valuation τ sig (Elt Ideal)) : Prop where
  src : V (Proc.devRef .tc main_v3) = s
  dst : V (Proc.devRef .tc main_v6) = d
  nrm : V (Proc.devRef .tc main_v31) = n
  a2 : V (Proc.devRef .tc main_arg2) = w0
  a3 : V (Proc.devRef .tc main_arg3) = w1
  a4 : V (Proc.devRef .tc main_arg4) = w2
  a5 : V (Proc.devRef .tc main_arg5) = w3
  a6 : V (Proc.devRef .tc main_arg6) = r0
  a7 : V (Proc.devRef .tc main_arg7) = r1
  a8 : V (Proc.devRef .tc main_arg8) = r2
  a9 : V (Proc.devRef .tc main_arg9) = r3

/-! ## The host stretches, over any contents -/

section Host

variable (V : Valuation τ sig (Elt Ideal))

theorem s0_r_v3 : StableHlo.after (hostOps0 : List (HloOp τ sig (Elt Ideal))) V (Proc.devRef .tc main_v3)
    = Cert.Net.srcOf (F := Ideal) (V (Proc.devRef .tc main_arg1)) := by
  simp only [hostOps0, Cert.JoinTwo.cat2_fold]
  after_results_simp
  rfl
theorem s0_r_v6 : StableHlo.after (hostOps0 : List (HloOp τ sig (Elt Ideal))) V (Proc.devRef .tc main_v6)
    = Cert.Net.dstOf (F := Ideal) (V (Proc.devRef .tc main_arg1)) := by
  simp only [hostOps0, Cert.JoinTwo.cat2_fold]
  after_results_simp
  rfl
theorem s0_r_v12 : StableHlo.after (hostOps0 : List (HloOp τ sig (Elt Ideal))) V (Proc.devRef .tc main_v12)
    = cmpf .ogt (Cert.Net.degOf (F := Ideal) (Cert.Net.dstOf (V (Proc.devRef .tc main_arg1)))) (broadcastInDim S100000 ![] bcast_S_S100000 (constant (F := Ideal) S_ .f32 0x00000000#32)) := by
  simp only [hostOps0, Cert.JoinTwo.cat2_fold]
  after_results_simp
  rfl
theorem s0_r_v15 : StableHlo.after (hostOps0 : List (HloOp τ sig (Elt Ideal))) V (Proc.devRef .tc main_v15)
    = Host.rsqrt (maximumf (Cert.Net.degOf (F := Ideal) (Cert.Net.dstOf (V (Proc.devRef .tc main_arg1)))) (broadcastInDim S100000 ![] bcast_S_S100000 (constant (F := Ideal) S_ .f32 0x3F800000#32))) := by
  simp only [hostOps0, Cert.JoinTwo.cat2_fold]
  after_results_simp
  rfl
theorem s0_r_cst_3 : StableHlo.after (hostOps0 : List (HloOp τ sig (Elt Ideal))) V (Proc.devRef .tc main_cst_3)
    = constant (F := Ideal) S_ .f32 0x00000000#32 := by
  after_results
theorem s0_k_arg0 : StableHlo.after (hostOps0 : List (HloOp τ sig (Elt Ideal))) V (Proc.devRef .tc main_arg0) = V (Proc.devRef .tc main_arg0) := by
  after_results
theorem s0_k_arg2 : StableHlo.after (hostOps0 : List (HloOp τ sig (Elt Ideal))) V (Proc.devRef .tc main_arg2) = V (Proc.devRef .tc main_arg2) := by
  after_results
theorem s0_k_arg3 : StableHlo.after (hostOps0 : List (HloOp τ sig (Elt Ideal))) V (Proc.devRef .tc main_arg3) = V (Proc.devRef .tc main_arg3) := by
  after_results
theorem s0_k_arg4 : StableHlo.after (hostOps0 : List (HloOp τ sig (Elt Ideal))) V (Proc.devRef .tc main_arg4) = V (Proc.devRef .tc main_arg4) := by
  after_results
theorem s0_k_arg5 : StableHlo.after (hostOps0 : List (HloOp τ sig (Elt Ideal))) V (Proc.devRef .tc main_arg5) = V (Proc.devRef .tc main_arg5) := by
  after_results
theorem s0_k_arg6 : StableHlo.after (hostOps0 : List (HloOp τ sig (Elt Ideal))) V (Proc.devRef .tc main_arg6) = V (Proc.devRef .tc main_arg6) := by
  after_results
theorem s0_k_arg7 : StableHlo.after (hostOps0 : List (HloOp τ sig (Elt Ideal))) V (Proc.devRef .tc main_arg7) = V (Proc.devRef .tc main_arg7) := by
  after_results
theorem s0_k_arg8 : StableHlo.after (hostOps0 : List (HloOp τ sig (Elt Ideal))) V (Proc.devRef .tc main_arg8) = V (Proc.devRef .tc main_arg8) := by
  after_results
theorem s0_k_arg9 : StableHlo.after (hostOps0 : List (HloOp τ sig (Elt Ideal))) V (Proc.devRef .tc main_arg9) = V (Proc.devRef .tc main_arg9) := by
  after_results
theorem s1_r_v16 : StableHlo.after (hostOps0_1 : List (HloOp τ sig (Elt Ideal))) V (Proc.devRef .tc main_v16)
    = select (V (Proc.devRef .tc main_v12)) (V (Proc.devRef .tc main_v15)) (broadcastInDim S100000 ![] bcast_S_S100000 (id (V (Proc.devRef .tc main_cst_3)))) := by
  after_results
  rfl
theorem s1_k_v3 : StableHlo.after (hostOps0_1 : List (HloOp τ sig (Elt Ideal))) V (Proc.devRef .tc main_v3) = V (Proc.devRef .tc main_v3) := by
  after_results
theorem s1_k_v6 : StableHlo.after (hostOps0_1 : List (HloOp τ sig (Elt Ideal))) V (Proc.devRef .tc main_v6) = V (Proc.devRef .tc main_v6) := by
  after_results
theorem s1_k_arg0 : StableHlo.after (hostOps0_1 : List (HloOp τ sig (Elt Ideal))) V (Proc.devRef .tc main_arg0) = V (Proc.devRef .tc main_arg0) := by
  after_results
theorem s1_k_arg2 : StableHlo.after (hostOps0_1 : List (HloOp τ sig (Elt Ideal))) V (Proc.devRef .tc main_arg2) = V (Proc.devRef .tc main_arg2) := by
  after_results
theorem s1_k_arg3 : StableHlo.after (hostOps0_1 : List (HloOp τ sig (Elt Ideal))) V (Proc.devRef .tc main_arg3) = V (Proc.devRef .tc main_arg3) := by
  after_results
theorem s1_k_arg4 : StableHlo.after (hostOps0_1 : List (HloOp τ sig (Elt Ideal))) V (Proc.devRef .tc main_arg4) = V (Proc.devRef .tc main_arg4) := by
  after_results
theorem s1_k_arg5 : StableHlo.after (hostOps0_1 : List (HloOp τ sig (Elt Ideal))) V (Proc.devRef .tc main_arg5) = V (Proc.devRef .tc main_arg5) := by
  after_results
theorem s1_k_arg6 : StableHlo.after (hostOps0_1 : List (HloOp τ sig (Elt Ideal))) V (Proc.devRef .tc main_arg6) = V (Proc.devRef .tc main_arg6) := by
  after_results
theorem s1_k_arg7 : StableHlo.after (hostOps0_1 : List (HloOp τ sig (Elt Ideal))) V (Proc.devRef .tc main_arg7) = V (Proc.devRef .tc main_arg7) := by
  after_results
theorem s1_k_arg8 : StableHlo.after (hostOps0_1 : List (HloOp τ sig (Elt Ideal))) V (Proc.devRef .tc main_arg8) = V (Proc.devRef .tc main_arg8) := by
  after_results
theorem s1_k_arg9 : StableHlo.after (hostOps0_1 : List (HloOp τ sig (Elt Ideal))) V (Proc.devRef .tc main_arg9) = V (Proc.devRef .tc main_arg9) := by
  after_results
theorem s2_r_v31 : StableHlo.after (hostOps0_2 : List (HloOp τ sig (Elt Ideal))) V (Proc.devRef .tc main_v31)
    = Cert.Net.normFrom (F := Ideal) (V (Proc.devRef .tc main_v16)) (V (Proc.devRef .tc main_v3)) (V (Proc.devRef .tc main_v6)) := by
  after_results
  rfl
theorem s2_r_v32 : StableHlo.after (hostOps0_2 : List (HloOp τ sig (Elt Ideal))) V (Proc.devRef .tc main_v32)
    = concatenate S64x128 1 [⟨S64x64, V (Proc.devRef .tc main_arg2)⟩, ⟨S64x64, V (Proc.devRef .tc main_arg6)⟩] concatenates_S64x64_S64x64_S64x128_d1 := by
  after_results
theorem s2_k_v3 : StableHlo.after (hostOps0_2 : List (HloOp τ sig (Elt Ideal))) V (Proc.devRef .tc main_v3) = V (Proc.devRef .tc main_v3) := by
  after_results
theorem s2_k_v6 : StableHlo.after (hostOps0_2 : List (HloOp τ sig (Elt Ideal))) V (Proc.devRef .tc main_v6) = V (Proc.devRef .tc main_v6) := by
  after_results
theorem s2_k_arg0 : StableHlo.after (hostOps0_2 : List (HloOp τ sig (Elt Ideal))) V (Proc.devRef .tc main_arg0) = V (Proc.devRef .tc main_arg0) := by
  after_results
theorem s2_k_arg2 : StableHlo.after (hostOps0_2 : List (HloOp τ sig (Elt Ideal))) V (Proc.devRef .tc main_arg2) = V (Proc.devRef .tc main_arg2) := by
  after_results
theorem s2_k_arg3 : StableHlo.after (hostOps0_2 : List (HloOp τ sig (Elt Ideal))) V (Proc.devRef .tc main_arg3) = V (Proc.devRef .tc main_arg3) := by
  after_results
theorem s2_k_arg4 : StableHlo.after (hostOps0_2 : List (HloOp τ sig (Elt Ideal))) V (Proc.devRef .tc main_arg4) = V (Proc.devRef .tc main_arg4) := by
  after_results
theorem s2_k_arg5 : StableHlo.after (hostOps0_2 : List (HloOp τ sig (Elt Ideal))) V (Proc.devRef .tc main_arg5) = V (Proc.devRef .tc main_arg5) := by
  after_results
theorem s2_k_arg6 : StableHlo.after (hostOps0_2 : List (HloOp τ sig (Elt Ideal))) V (Proc.devRef .tc main_arg6) = V (Proc.devRef .tc main_arg6) := by
  after_results
theorem s2_k_arg7 : StableHlo.after (hostOps0_2 : List (HloOp τ sig (Elt Ideal))) V (Proc.devRef .tc main_arg7) = V (Proc.devRef .tc main_arg7) := by
  after_results
theorem s2_k_arg8 : StableHlo.after (hostOps0_2 : List (HloOp τ sig (Elt Ideal))) V (Proc.devRef .tc main_arg8) = V (Proc.devRef .tc main_arg8) := by
  after_results
theorem s2_k_arg9 : StableHlo.after (hostOps0_2 : List (HloOp τ sig (Elt Ideal))) V (Proc.devRef .tc main_arg9) = V (Proc.devRef .tc main_arg9) := by
  after_results

/-- The three stretches before the first region leave the edge data of the definition … -/
theorem pre_src : StableHlo.after (hostOps0_2 : List (HloOp τ sig (Elt Ideal))) (StableHlo.after hostOps0_1 (StableHlo.after hostOps0 V)) (Proc.devRef .tc main_v3) = Cert.Net.srcOf (F := Ideal) (V (Proc.devRef .tc main_arg1)) := by
  rw [s2_k_v3, s1_k_v3, s0_r_v3]
theorem pre_dst : StableHlo.after (hostOps0_2 : List (HloOp τ sig (Elt Ideal))) (StableHlo.after hostOps0_1 (StableHlo.after hostOps0 V)) (Proc.devRef .tc main_v6) = Cert.Net.dstOf (F := Ideal) (V (Proc.devRef .tc main_arg1)) := by
  rw [s2_k_v6, s1_k_v6, s0_r_v6]
theorem pre_nrm : StableHlo.after (hostOps0_2 : List (HloOp τ sig (Elt Ideal))) (StableHlo.after hostOps0_1 (StableHlo.after hostOps0 V)) (Proc.devRef .tc main_v31)
    = Cert.Net.normOf (F := Ideal) (Cert.Net.srcOf (V (Proc.devRef .tc main_arg1))) (Cert.Net.dstOf (V (Proc.devRef .tc main_arg1))) := by
  rw [s2_r_v31, s1_r_v16, s1_k_v3, s1_k_v6, s0_r_v12, s0_r_v15, s0_r_cst_3, s0_r_v3, s0_r_v6]
  rfl
/-- … the first layer's joined table … -/
theorem pre_wr : StableHlo.after (hostOps0_2 : List (HloOp τ sig (Elt Ideal))) (StableHlo.after hostOps0_1 (StableHlo.after hostOps0 V)) (Proc.devRef .tc main_v32)
    = concatenate S64x128 1 [⟨S64x64, V (Proc.devRef .tc main_arg2)⟩, ⟨S64x64, V (Proc.devRef .tc main_arg6)⟩] concatenates_S64x64_S64x64_S64x128_d1 := by
  rw [s2_r_v32, s1_k_arg2, s1_k_arg6, s0_k_arg2, s0_k_arg6]
/-- … and the arguments as they were. -/
theorem pre_x : StableHlo.after (hostOps0_2 : List (HloOp τ sig (Elt Ideal))) (StableHlo.after hostOps0_1 (StableHlo.after hostOps0 V)) (Proc.devRef .tc main_arg0) = V (Proc.devRef .tc main_arg0) := by
  rw [s2_k_arg0, s1_k_arg0, s0_k_arg0]
theorem pre_at : At (Cert.Net.srcOf (F := Ideal) (V (Proc.devRef .tc main_arg1))) (Cert.Net.dstOf (F := Ideal) (V (Proc.devRef .tc main_arg1)))
    (Cert.Net.normOf (F := Ideal) (Cert.Net.srcOf (V (Proc.devRef .tc main_arg1))) (Cert.Net.dstOf (V (Proc.devRef .tc main_arg1))))
    (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    (StableHlo.after (hostOps0_2 : List (HloOp τ sig (Elt Ideal))) (StableHlo.after hostOps0_1 (StableHlo.after hostOps0 V))) :=
  ⟨pre_src V, pre_dst V, pre_nrm V,
    by rw [s2_k_arg2, s1_k_arg2, s0_k_arg2],
    by rw [s2_k_arg3, s1_k_arg3, s0_k_arg3],
    by rw [s2_k_arg4, s1_k_arg4, s0_k_arg4],
    by rw [s2_k_arg5, s1_k_arg5, s0_k_arg5],
    by rw [s2_k_arg6, s1_k_arg6, s0_k_arg6],
    by rw [s2_k_arg7, s1_k_arg7, s0_k_arg7],
    by rw [s2_k_arg8, s1_k_arg8, s0_k_arg8],
    by rw [s2_k_arg9, s1_k_arg9, s0_k_arg9]⟩

variable {s d : (⟨S1700000, .i32⟩ : BufTy).Contents (Elt Ideal)} {n : (⟨S1700000, .f32⟩ : BufTy).Contents (Elt Ideal)}
    {w0 w1 w2 : (⟨S64x64, .f32⟩ : BufTy).Contents (Elt Ideal)} {w3 : (⟨S64x40, .f32⟩ : BufTy).Contents (Elt Ideal)} {r0 r1 r2 : (⟨S64x64, .f32⟩ : BufTy).Contents (Elt Ideal)} {r3 : (⟨S64x40, .f32⟩ : BufTy).Contents (Elt Ideal)}

/-- Layer 1's message passing. -/
theorem msg0_raw : StableHlo.after (hostOps1 : List (HloOp τ sig (Elt Ideal))) V (Proc.devRef .tc main_v46)
    = Cert.Net.pass64 (F := Ideal) (V (Proc.devRef .tc main_v33_0)) (V (Proc.devRef .tc main_v3)) (V (Proc.devRef .tc main_v6)) (V (Proc.devRef .tc main_v31)) := by
  after_results
  rfl
theorem msg0_res : StableHlo.after (hostOps1 : List (HloOp τ sig (Elt Ideal))) V (Proc.devRef .tc main_v33_1) = V (Proc.devRef .tc main_v33_1) := by
  after_results
theorem msg0_at (h : At s d n w0 w1 w2 w3 r0 r1 r2 r3 V) : At s d n w0 w1 w2 w3 r0 r1 r2 r3 (StableHlo.after (hostOps1 : List (HloOp τ sig (Elt Ideal))) V) :=
  ⟨
    (show StableHlo.after (hostOps1 : List (HloOp τ sig (Elt Ideal))) V (Proc.devRef .tc main_v3) = V (Proc.devRef .tc main_v3) by after_results).trans h.src,
    (show StableHlo.after (hostOps1 : List (HloOp τ sig (Elt Ideal))) V (Proc.devRef .tc main_v6) = V (Proc.devRef .tc main_v6) by after_results).trans h.dst,
    (show StableHlo.after (hostOps1 : List (HloOp τ sig (Elt Ideal))) V (Proc.devRef .tc main_v31) = V (Proc.devRef .tc main_v31) by after_results).trans h.nrm,
    (show StableHlo.after (hostOps1 : List (HloOp τ sig (Elt Ideal))) V (Proc.devRef .tc main_arg2) = V (Proc.devRef .tc main_arg2) by after_results).trans h.a2,
    (show StableHlo.after (hostOps1 : List (HloOp τ sig (Elt Ideal))) V (Proc.devRef .tc main_arg3) = V (Proc.devRef .tc main_arg3) by after_results).trans h.a3,
    (show StableHlo.after (hostOps1 : List (HloOp τ sig (Elt Ideal))) V (Proc.devRef .tc main_arg4) = V (Proc.devRef .tc main_arg4) by after_results).trans h.a4,
    (show StableHlo.after (hostOps1 : List (HloOp τ sig (Elt Ideal))) V (Proc.devRef .tc main_arg5) = V (Proc.devRef .tc main_arg5) by after_results).trans h.a5,
    (show StableHlo.after (hostOps1 : List (HloOp τ sig (Elt Ideal))) V (Proc.devRef .tc main_arg6) = V (Proc.devRef .tc main_arg6) by after_results).trans h.a6,
    (show StableHlo.after (hostOps1 : List (HloOp τ sig (Elt Ideal))) V (Proc.devRef .tc main_arg7) = V (Proc.devRef .tc main_arg7) by after_results).trans h.a7,
    (show StableHlo.after (hostOps1 : List (HloOp τ sig (Elt Ideal))) V (Proc.devRef .tc main_arg8) = V (Proc.devRef .tc main_arg8) by after_results).trans h.a8,
    (show StableHlo.after (hostOps1 : List (HloOp τ sig (Elt Ideal))) V (Proc.devRef .tc main_arg9) = V (Proc.devRef .tc main_arg9) by after_results).trans h.a9⟩

/-- Layer 2's join of its two tables. -/
theorem cat1_raw : StableHlo.after (hostOps2 : List (HloOp τ sig (Elt Ideal))) V (Proc.devRef .tc main_v48)
    = concatenate S64x128 1 [⟨S64x64, V (Proc.devRef .tc main_arg3)⟩, ⟨S64x64, V (Proc.devRef .tc main_arg7)⟩] concatenates_S64x64_S64x64_S64x128_d1 := by
  after_results
theorem cat1_x : StableHlo.after (hostOps2 : List (HloOp τ sig (Elt Ideal))) V (Proc.devRef .tc main_v47) = V (Proc.devRef .tc main_v47) := by
  after_results
theorem cat1_at (h : At s d n w0 w1 w2 w3 r0 r1 r2 r3 V) : At s d n w0 w1 w2 w3 r0 r1 r2 r3 (StableHlo.after (hostOps2 : List (HloOp τ sig (Elt Ideal))) V) :=
  ⟨
    (show StableHlo.after (hostOps2 : List (HloOp τ sig (Elt Ideal))) V (Proc.devRef .tc main_v3) = V (Proc.devRef .tc main_v3) by after_results).trans h.src,
    (show StableHlo.after (hostOps2 : List (HloOp τ sig (Elt Ideal))) V (Proc.devRef .tc main_v6) = V (Proc.devRef .tc main_v6) by after_results).trans h.dst,
    (show StableHlo.after (hostOps2 : List (HloOp τ sig (Elt Ideal))) V (Proc.devRef .tc main_v31) = V (Proc.devRef .tc main_v31) by after_results).trans h.nrm,
    (show StableHlo.after (hostOps2 : List (HloOp τ sig (Elt Ideal))) V (Proc.devRef .tc main_arg2) = V (Proc.devRef .tc main_arg2) by after_results).trans h.a2,
    (show StableHlo.after (hostOps2 : List (HloOp τ sig (Elt Ideal))) V (Proc.devRef .tc main_arg3) = V (Proc.devRef .tc main_arg3) by after_results).trans h.a3,
    (show StableHlo.after (hostOps2 : List (HloOp τ sig (Elt Ideal))) V (Proc.devRef .tc main_arg4) = V (Proc.devRef .tc main_arg4) by after_results).trans h.a4,
    (show StableHlo.after (hostOps2 : List (HloOp τ sig (Elt Ideal))) V (Proc.devRef .tc main_arg5) = V (Proc.devRef .tc main_arg5) by after_results).trans h.a5,
    (show StableHlo.after (hostOps2 : List (HloOp τ sig (Elt Ideal))) V (Proc.devRef .tc main_arg6) = V (Proc.devRef .tc main_arg6) by after_results).trans h.a6,
    (show StableHlo.after (hostOps2 : List (HloOp τ sig (Elt Ideal))) V (Proc.devRef .tc main_arg7) = V (Proc.devRef .tc main_arg7) by after_results).trans h.a7,
    (show StableHlo.after (hostOps2 : List (HloOp τ sig (Elt Ideal))) V (Proc.devRef .tc main_arg8) = V (Proc.devRef .tc main_arg8) by after_results).trans h.a8,
    (show StableHlo.after (hostOps2 : List (HloOp τ sig (Elt Ideal))) V (Proc.devRef .tc main_arg9) = V (Proc.devRef .tc main_arg9) by after_results).trans h.a9⟩

/-- Layer 2's message passing. -/
theorem msg1_raw : StableHlo.after (hostOps3 : List (HloOp τ sig (Elt Ideal))) V (Proc.devRef .tc main_v62)
    = Cert.Net.pass64 (F := Ideal) (V (Proc.devRef .tc main_v49_0)) (V (Proc.devRef .tc main_v3)) (V (Proc.devRef .tc main_v6)) (V (Proc.devRef .tc main_v31)) := by
  after_results
  rfl
theorem msg1_res : StableHlo.after (hostOps3 : List (HloOp τ sig (Elt Ideal))) V (Proc.devRef .tc main_v49_1) = V (Proc.devRef .tc main_v49_1) := by
  after_results
theorem msg1_at (h : At s d n w0 w1 w2 w3 r0 r1 r2 r3 V) : At s d n w0 w1 w2 w3 r0 r1 r2 r3 (StableHlo.after (hostOps3 : List (HloOp τ sig (Elt Ideal))) V) :=
  ⟨
    (show StableHlo.after (hostOps3 : List (HloOp τ sig (Elt Ideal))) V (Proc.devRef .tc main_v3) = V (Proc.devRef .tc main_v3) by after_results).trans h.src,
    (show StableHlo.after (hostOps3 : List (HloOp τ sig (Elt Ideal))) V (Proc.devRef .tc main_v6) = V (Proc.devRef .tc main_v6) by after_results).trans h.dst,
    (show StableHlo.after (hostOps3 : List (HloOp τ sig (Elt Ideal))) V (Proc.devRef .tc main_v31) = V (Proc.devRef .tc main_v31) by after_results).trans h.nrm,
    (show StableHlo.after (hostOps3 : List (HloOp τ sig (Elt Ideal))) V (Proc.devRef .tc main_arg2) = V (Proc.devRef .tc main_arg2) by after_results).trans h.a2,
    (show StableHlo.after (hostOps3 : List (HloOp τ sig (Elt Ideal))) V (Proc.devRef .tc main_arg3) = V (Proc.devRef .tc main_arg3) by after_results).trans h.a3,
    (show StableHlo.after (hostOps3 : List (HloOp τ sig (Elt Ideal))) V (Proc.devRef .tc main_arg4) = V (Proc.devRef .tc main_arg4) by after_results).trans h.a4,
    (show StableHlo.after (hostOps3 : List (HloOp τ sig (Elt Ideal))) V (Proc.devRef .tc main_arg5) = V (Proc.devRef .tc main_arg5) by after_results).trans h.a5,
    (show StableHlo.after (hostOps3 : List (HloOp τ sig (Elt Ideal))) V (Proc.devRef .tc main_arg6) = V (Proc.devRef .tc main_arg6) by after_results).trans h.a6,
    (show StableHlo.after (hostOps3 : List (HloOp τ sig (Elt Ideal))) V (Proc.devRef .tc main_arg7) = V (Proc.devRef .tc main_arg7) by after_results).trans h.a7,
    (show StableHlo.after (hostOps3 : List (HloOp τ sig (Elt Ideal))) V (Proc.devRef .tc main_arg8) = V (Proc.devRef .tc main_arg8) by after_results).trans h.a8,
    (show StableHlo.after (hostOps3 : List (HloOp τ sig (Elt Ideal))) V (Proc.devRef .tc main_arg9) = V (Proc.devRef .tc main_arg9) by after_results).trans h.a9⟩

/-- Layer 3's join of its two tables. -/
theorem cat2_raw : StableHlo.after (hostOps4 : List (HloOp τ sig (Elt Ideal))) V (Proc.devRef .tc main_v64)
    = concatenate S64x128 1 [⟨S64x64, V (Proc.devRef .tc main_arg4)⟩, ⟨S64x64, V (Proc.devRef .tc main_arg8)⟩] concatenates_S64x64_S64x64_S64x128_d1 := by
  after_results
theorem cat2_x : StableHlo.after (hostOps4 : List (HloOp τ sig (Elt Ideal))) V (Proc.devRef .tc main_v63) = V (Proc.devRef .tc main_v63) := by
  after_results
theorem cat2_at (h : At s d n w0 w1 w2 w3 r0 r1 r2 r3 V) : At s d n w0 w1 w2 w3 r0 r1 r2 r3 (StableHlo.after (hostOps4 : List (HloOp τ sig (Elt Ideal))) V) :=
  ⟨
    (show StableHlo.after (hostOps4 : List (HloOp τ sig (Elt Ideal))) V (Proc.devRef .tc main_v3) = V (Proc.devRef .tc main_v3) by after_results).trans h.src,
    (show StableHlo.after (hostOps4 : List (HloOp τ sig (Elt Ideal))) V (Proc.devRef .tc main_v6) = V (Proc.devRef .tc main_v6) by after_results).trans h.dst,
    (show StableHlo.after (hostOps4 : List (HloOp τ sig (Elt Ideal))) V (Proc.devRef .tc main_v31) = V (Proc.devRef .tc main_v31) by after_results).trans h.nrm,
    (show StableHlo.after (hostOps4 : List (HloOp τ sig (Elt Ideal))) V (Proc.devRef .tc main_arg2) = V (Proc.devRef .tc main_arg2) by after_results).trans h.a2,
    (show StableHlo.after (hostOps4 : List (HloOp τ sig (Elt Ideal))) V (Proc.devRef .tc main_arg3) = V (Proc.devRef .tc main_arg3) by after_results).trans h.a3,
    (show StableHlo.after (hostOps4 : List (HloOp τ sig (Elt Ideal))) V (Proc.devRef .tc main_arg4) = V (Proc.devRef .tc main_arg4) by after_results).trans h.a4,
    (show StableHlo.after (hostOps4 : List (HloOp τ sig (Elt Ideal))) V (Proc.devRef .tc main_arg5) = V (Proc.devRef .tc main_arg5) by after_results).trans h.a5,
    (show StableHlo.after (hostOps4 : List (HloOp τ sig (Elt Ideal))) V (Proc.devRef .tc main_arg6) = V (Proc.devRef .tc main_arg6) by after_results).trans h.a6,
    (show StableHlo.after (hostOps4 : List (HloOp τ sig (Elt Ideal))) V (Proc.devRef .tc main_arg7) = V (Proc.devRef .tc main_arg7) by after_results).trans h.a7,
    (show StableHlo.after (hostOps4 : List (HloOp τ sig (Elt Ideal))) V (Proc.devRef .tc main_arg8) = V (Proc.devRef .tc main_arg8) by after_results).trans h.a8,
    (show StableHlo.after (hostOps4 : List (HloOp τ sig (Elt Ideal))) V (Proc.devRef .tc main_arg9) = V (Proc.devRef .tc main_arg9) by after_results).trans h.a9⟩

/-- Layer 3's message passing. -/
theorem msg2_raw : StableHlo.after (hostOps5 : List (HloOp τ sig (Elt Ideal))) V (Proc.devRef .tc main_v78)
    = Cert.Net.pass64 (F := Ideal) (V (Proc.devRef .tc main_v65_0)) (V (Proc.devRef .tc main_v3)) (V (Proc.devRef .tc main_v6)) (V (Proc.devRef .tc main_v31)) := by
  after_results
  rfl
theorem msg2_res : StableHlo.after (hostOps5 : List (HloOp τ sig (Elt Ideal))) V (Proc.devRef .tc main_v65_1) = V (Proc.devRef .tc main_v65_1) := by
  after_results
theorem msg2_at (h : At s d n w0 w1 w2 w3 r0 r1 r2 r3 V) : At s d n w0 w1 w2 w3 r0 r1 r2 r3 (StableHlo.after (hostOps5 : List (HloOp τ sig (Elt Ideal))) V) :=
  ⟨
    (show StableHlo.after (hostOps5 : List (HloOp τ sig (Elt Ideal))) V (Proc.devRef .tc main_v3) = V (Proc.devRef .tc main_v3) by after_results).trans h.src,
    (show StableHlo.after (hostOps5 : List (HloOp τ sig (Elt Ideal))) V (Proc.devRef .tc main_v6) = V (Proc.devRef .tc main_v6) by after_results).trans h.dst,
    (show StableHlo.after (hostOps5 : List (HloOp τ sig (Elt Ideal))) V (Proc.devRef .tc main_v31) = V (Proc.devRef .tc main_v31) by after_results).trans h.nrm,
    (show StableHlo.after (hostOps5 : List (HloOp τ sig (Elt Ideal))) V (Proc.devRef .tc main_arg2) = V (Proc.devRef .tc main_arg2) by after_results).trans h.a2,
    (show StableHlo.after (hostOps5 : List (HloOp τ sig (Elt Ideal))) V (Proc.devRef .tc main_arg3) = V (Proc.devRef .tc main_arg3) by after_results).trans h.a3,
    (show StableHlo.after (hostOps5 : List (HloOp τ sig (Elt Ideal))) V (Proc.devRef .tc main_arg4) = V (Proc.devRef .tc main_arg4) by after_results).trans h.a4,
    (show StableHlo.after (hostOps5 : List (HloOp τ sig (Elt Ideal))) V (Proc.devRef .tc main_arg5) = V (Proc.devRef .tc main_arg5) by after_results).trans h.a5,
    (show StableHlo.after (hostOps5 : List (HloOp τ sig (Elt Ideal))) V (Proc.devRef .tc main_arg6) = V (Proc.devRef .tc main_arg6) by after_results).trans h.a6,
    (show StableHlo.after (hostOps5 : List (HloOp τ sig (Elt Ideal))) V (Proc.devRef .tc main_arg7) = V (Proc.devRef .tc main_arg7) by after_results).trans h.a7,
    (show StableHlo.after (hostOps5 : List (HloOp τ sig (Elt Ideal))) V (Proc.devRef .tc main_arg8) = V (Proc.devRef .tc main_arg8) by after_results).trans h.a8,
    (show StableHlo.after (hostOps5 : List (HloOp τ sig (Elt Ideal))) V (Proc.devRef .tc main_arg9) = V (Proc.devRef .tc main_arg9) by after_results).trans h.a9⟩

/-- Layer 4's join of its two tables. -/
theorem cat3_raw : StableHlo.after (hostOps6 : List (HloOp τ sig (Elt Ideal))) V (Proc.devRef .tc main_v80)
    = concatenate S64x80 1 [⟨S64x40, V (Proc.devRef .tc main_arg5)⟩, ⟨S64x40, V (Proc.devRef .tc main_arg9)⟩] concatenates_S64x40_S64x40_S64x80_d1 := by
  after_results
theorem cat3_x : StableHlo.after (hostOps6 : List (HloOp τ sig (Elt Ideal))) V (Proc.devRef .tc main_v79) = V (Proc.devRef .tc main_v79) := by
  after_results
theorem cat3_at (h : At s d n w0 w1 w2 w3 r0 r1 r2 r3 V) : At s d n w0 w1 w2 w3 r0 r1 r2 r3 (StableHlo.after (hostOps6 : List (HloOp τ sig (Elt Ideal))) V) :=
  ⟨
    (show StableHlo.after (hostOps6 : List (HloOp τ sig (Elt Ideal))) V (Proc.devRef .tc main_v3) = V (Proc.devRef .tc main_v3) by after_results).trans h.src,
    (show StableHlo.after (hostOps6 : List (HloOp τ sig (Elt Ideal))) V (Proc.devRef .tc main_v6) = V (Proc.devRef .tc main_v6) by after_results).trans h.dst,
    (show StableHlo.after (hostOps6 : List (HloOp τ sig (Elt Ideal))) V (Proc.devRef .tc main_v31) = V (Proc.devRef .tc main_v31) by after_results).trans h.nrm,
    (show StableHlo.after (hostOps6 : List (HloOp τ sig (Elt Ideal))) V (Proc.devRef .tc main_arg2) = V (Proc.devRef .tc main_arg2) by after_results).trans h.a2,
    (show StableHlo.after (hostOps6 : List (HloOp τ sig (Elt Ideal))) V (Proc.devRef .tc main_arg3) = V (Proc.devRef .tc main_arg3) by after_results).trans h.a3,
    (show StableHlo.after (hostOps6 : List (HloOp τ sig (Elt Ideal))) V (Proc.devRef .tc main_arg4) = V (Proc.devRef .tc main_arg4) by after_results).trans h.a4,
    (show StableHlo.after (hostOps6 : List (HloOp τ sig (Elt Ideal))) V (Proc.devRef .tc main_arg5) = V (Proc.devRef .tc main_arg5) by after_results).trans h.a5,
    (show StableHlo.after (hostOps6 : List (HloOp τ sig (Elt Ideal))) V (Proc.devRef .tc main_arg6) = V (Proc.devRef .tc main_arg6) by after_results).trans h.a6,
    (show StableHlo.after (hostOps6 : List (HloOp τ sig (Elt Ideal))) V (Proc.devRef .tc main_arg7) = V (Proc.devRef .tc main_arg7) by after_results).trans h.a7,
    (show StableHlo.after (hostOps6 : List (HloOp τ sig (Elt Ideal))) V (Proc.devRef .tc main_arg8) = V (Proc.devRef .tc main_arg8) by after_results).trans h.a8,
    (show StableHlo.after (hostOps6 : List (HloOp τ sig (Elt Ideal))) V (Proc.devRef .tc main_arg9) = V (Proc.devRef .tc main_arg9) by after_results).trans h.a9⟩

/-- Layer 4's message passing. -/
theorem msg3_raw : StableHlo.after (hostOps7 : List (HloOp τ sig (Elt Ideal))) V (Proc.devRef .tc main_v94)
    = Cert.Net.pass40 (F := Ideal) (V (Proc.devRef .tc main_v81_0)) (V (Proc.devRef .tc main_v3)) (V (Proc.devRef .tc main_v6)) (V (Proc.devRef .tc main_v31)) := by
  after_results
  rfl
theorem msg3_res : StableHlo.after (hostOps7 : List (HloOp τ sig (Elt Ideal))) V (Proc.devRef .tc main_v81_1) = V (Proc.devRef .tc main_v81_1) := by
  after_results
theorem msg3_at (h : At s d n w0 w1 w2 w3 r0 r1 r2 r3 V) : At s d n w0 w1 w2 w3 r0 r1 r2 r3 (StableHlo.after (hostOps7 : List (HloOp τ sig (Elt Ideal))) V) :=
  ⟨
    (show StableHlo.after (hostOps7 : List (HloOp τ sig (Elt Ideal))) V (Proc.devRef .tc main_v3) = V (Proc.devRef .tc main_v3) by after_results).trans h.src,
    (show StableHlo.after (hostOps7 : List (HloOp τ sig (Elt Ideal))) V (Proc.devRef .tc main_v6) = V (Proc.devRef .tc main_v6) by after_results).trans h.dst,
    (show StableHlo.after (hostOps7 : List (HloOp τ sig (Elt Ideal))) V (Proc.devRef .tc main_v31) = V (Proc.devRef .tc main_v31) by after_results).trans h.nrm,
    (show StableHlo.after (hostOps7 : List (HloOp τ sig (Elt Ideal))) V (Proc.devRef .tc main_arg2) = V (Proc.devRef .tc main_arg2) by after_results).trans h.a2,
    (show StableHlo.after (hostOps7 : List (HloOp τ sig (Elt Ideal))) V (Proc.devRef .tc main_arg3) = V (Proc.devRef .tc main_arg3) by after_results).trans h.a3,
    (show StableHlo.after (hostOps7 : List (HloOp τ sig (Elt Ideal))) V (Proc.devRef .tc main_arg4) = V (Proc.devRef .tc main_arg4) by after_results).trans h.a4,
    (show StableHlo.after (hostOps7 : List (HloOp τ sig (Elt Ideal))) V (Proc.devRef .tc main_arg5) = V (Proc.devRef .tc main_arg5) by after_results).trans h.a5,
    (show StableHlo.after (hostOps7 : List (HloOp τ sig (Elt Ideal))) V (Proc.devRef .tc main_arg6) = V (Proc.devRef .tc main_arg6) by after_results).trans h.a6,
    (show StableHlo.after (hostOps7 : List (HloOp τ sig (Elt Ideal))) V (Proc.devRef .tc main_arg7) = V (Proc.devRef .tc main_arg7) by after_results).trans h.a7,
    (show StableHlo.after (hostOps7 : List (HloOp τ sig (Elt Ideal))) V (Proc.devRef .tc main_arg8) = V (Proc.devRef .tc main_arg8) by after_results).trans h.a8,
    (show StableHlo.after (hostOps7 : List (HloOp τ sig (Elt Ideal))) V (Proc.devRef .tc main_arg9) = V (Proc.devRef .tc main_arg9) by after_results).trans h.a9⟩

end Host

/-! ## The regions: every buffer but the region's own is as the region found it -/

section Regions

variable (m : (ℓ : Loc nD τ sig) → Buf (Elt Ideal) ℓ) (ρ : Dev nD → PrngReg) (c : Dev nD)
variable {s d : (⟨S1700000, .i32⟩ : BufTy).Contents (Elt Ideal)} {n : (⟨S1700000, .f32⟩ : BufTy).Contents (Elt Ideal)}
    {w0 w1 w2 : (⟨S64x64, .f32⟩ : BufTy).Contents (Elt Ideal)} {w3 : (⟨S64x40, .f32⟩ : BufTy).Contents (Elt Ideal)} {r0 r1 r2 : (⟨S64x64, .f32⟩ : BufTy).Contents (Elt Ideal)} {r3 : (⟨S64x40, .f32⟩ : BufTy).Contents (Elt Ideal)}

theorem reg0_at (h : At s d n w0 w1 w2 w3 r0 r1 r2 r3 (W3 m ρ c)) : At s d n w0 w1 w2 w3 r0 r1 r2 r3 (W4 m ρ c) :=
  ⟨
    (W4_of_ne m ρ c main_v3 (by decide)).trans h.src,
    (W4_of_ne m ρ c main_v6 (by decide)).trans h.dst,
    (W4_of_ne m ρ c main_v31 (by decide)).trans h.nrm,
    (W4_of_ne m ρ c main_arg2 (by decide)).trans h.a2,
    (W4_of_ne m ρ c main_arg3 (by decide)).trans h.a3,
    (W4_of_ne m ρ c main_arg4 (by decide)).trans h.a4,
    (W4_of_ne m ρ c main_arg5 (by decide)).trans h.a5,
    (W4_of_ne m ρ c main_arg6 (by decide)).trans h.a6,
    (W4_of_ne m ρ c main_arg7 (by decide)).trans h.a7,
    (W4_of_ne m ρ c main_arg8 (by decide)).trans h.a8,
    (W4_of_ne m ρ c main_arg9 (by decide)).trans h.a9⟩

theorem reg1_at (h : At s d n w0 w1 w2 w3 r0 r1 r2 r3 (W5 m ρ c)) : At s d n w0 w1 w2 w3 r0 r1 r2 r3 (W6 m ρ c) :=
  ⟨
    (W6_of_ne m ρ c main_v3 (by decide)).trans h.src,
    (W6_of_ne m ρ c main_v6 (by decide)).trans h.dst,
    (W6_of_ne m ρ c main_v31 (by decide)).trans h.nrm,
    (W6_of_ne m ρ c main_arg2 (by decide)).trans h.a2,
    (W6_of_ne m ρ c main_arg3 (by decide)).trans h.a3,
    (W6_of_ne m ρ c main_arg4 (by decide)).trans h.a4,
    (W6_of_ne m ρ c main_arg5 (by decide)).trans h.a5,
    (W6_of_ne m ρ c main_arg6 (by decide)).trans h.a6,
    (W6_of_ne m ρ c main_arg7 (by decide)).trans h.a7,
    (W6_of_ne m ρ c main_arg8 (by decide)).trans h.a8,
    (W6_of_ne m ρ c main_arg9 (by decide)).trans h.a9⟩

theorem reg2_at (h : At s d n w0 w1 w2 w3 r0 r1 r2 r3 (W7 m ρ c)) : At s d n w0 w1 w2 w3 r0 r1 r2 r3 (W8 m ρ c) :=
  ⟨
    (W8_of_ne m ρ c main_v3 (by decide)).trans h.src,
    (W8_of_ne m ρ c main_v6 (by decide)).trans h.dst,
    (W8_of_ne m ρ c main_v31 (by decide)).trans h.nrm,
    (W8_of_ne m ρ c main_arg2 (by decide)).trans h.a2,
    (W8_of_ne m ρ c main_arg3 (by decide)).trans h.a3,
    (W8_of_ne m ρ c main_arg4 (by decide)).trans h.a4,
    (W8_of_ne m ρ c main_arg5 (by decide)).trans h.a5,
    (W8_of_ne m ρ c main_arg6 (by decide)).trans h.a6,
    (W8_of_ne m ρ c main_arg7 (by decide)).trans h.a7,
    (W8_of_ne m ρ c main_arg8 (by decide)).trans h.a8,
    (W8_of_ne m ρ c main_arg9 (by decide)).trans h.a9⟩

theorem reg3_at (h : At s d n w0 w1 w2 w3 r0 r1 r2 r3 (W9 m ρ c)) : At s d n w0 w1 w2 w3 r0 r1 r2 r3 (W10 m ρ c) :=
  ⟨
    (W10_of_ne m ρ c main_v3 (by decide)).trans h.src,
    (W10_of_ne m ρ c main_v6 (by decide)).trans h.dst,
    (W10_of_ne m ρ c main_v31 (by decide)).trans h.nrm,
    (W10_of_ne m ρ c main_arg2 (by decide)).trans h.a2,
    (W10_of_ne m ρ c main_arg3 (by decide)).trans h.a3,
    (W10_of_ne m ρ c main_arg4 (by decide)).trans h.a4,
    (W10_of_ne m ρ c main_arg5 (by decide)).trans h.a5,
    (W10_of_ne m ρ c main_arg6 (by decide)).trans h.a6,
    (W10_of_ne m ρ c main_arg7 (by decide)).trans h.a7,
    (W10_of_ne m ρ c main_arg8 (by decide)).trans h.a8,
    (W10_of_ne m ρ c main_arg9 (by decide)).trans h.a9⟩

theorem reg4_at (h : At s d n w0 w1 w2 w3 r0 r1 r2 r3 (W11 m ρ c)) : At s d n w0 w1 w2 w3 r0 r1 r2 r3 (W12 m ρ c) :=
  ⟨
    (W12_of_ne m ρ c main_v3 (by decide)).trans h.src,
    (W12_of_ne m ρ c main_v6 (by decide)).trans h.dst,
    (W12_of_ne m ρ c main_v31 (by decide)).trans h.nrm,
    (W12_of_ne m ρ c main_arg2 (by decide)).trans h.a2,
    (W12_of_ne m ρ c main_arg3 (by decide)).trans h.a3,
    (W12_of_ne m ρ c main_arg4 (by decide)).trans h.a4,
    (W12_of_ne m ρ c main_arg5 (by decide)).trans h.a5,
    (W12_of_ne m ρ c main_arg6 (by decide)).trans h.a6,
    (W12_of_ne m ρ c main_arg7 (by decide)).trans h.a7,
    (W12_of_ne m ρ c main_arg8 (by decide)).trans h.a8,
    (W12_of_ne m ρ c main_arg9 (by decide)).trans h.a9⟩

theorem reg5_at (h : At s d n w0 w1 w2 w3 r0 r1 r2 r3 (W13 m ρ c)) : At s d n w0 w1 w2 w3 r0 r1 r2 r3 (W14 m ρ c) :=
  ⟨
    (W14_of_ne m ρ c main_v3 (by decide)).trans h.src,
    (W14_of_ne m ρ c main_v6 (by decide)).trans h.dst,
    (W14_of_ne m ρ c main_v31 (by decide)).trans h.nrm,
    (W14_of_ne m ρ c main_arg2 (by decide)).trans h.a2,
    (W14_of_ne m ρ c main_arg3 (by decide)).trans h.a3,
    (W14_of_ne m ρ c main_arg4 (by decide)).trans h.a4,
    (W14_of_ne m ρ c main_arg5 (by decide)).trans h.a5,
    (W14_of_ne m ρ c main_arg6 (by decide)).trans h.a6,
    (W14_of_ne m ρ c main_arg7 (by decide)).trans h.a7,
    (W14_of_ne m ρ c main_arg8 (by decide)).trans h.a8,
    (W14_of_ne m ρ c main_arg9 (by decide)).trans h.a9⟩

theorem reg6_at (h : At s d n w0 w1 w2 w3 r0 r1 r2 r3 (W15 m ρ c)) : At s d n w0 w1 w2 w3 r0 r1 r2 r3 (W16 m ρ c) :=
  ⟨
    (W16_of_ne m ρ c main_v3 (by decide)).trans h.src,
    (W16_of_ne m ρ c main_v6 (by decide)).trans h.dst,
    (W16_of_ne m ρ c main_v31 (by decide)).trans h.nrm,
    (W16_of_ne m ρ c main_arg2 (by decide)).trans h.a2,
    (W16_of_ne m ρ c main_arg3 (by decide)).trans h.a3,
    (W16_of_ne m ρ c main_arg4 (by decide)).trans h.a4,
    (W16_of_ne m ρ c main_arg5 (by decide)).trans h.a5,
    (W16_of_ne m ρ c main_arg6 (by decide)).trans h.a6,
    (W16_of_ne m ρ c main_arg7 (by decide)).trans h.a7,
    (W16_of_ne m ρ c main_arg8 (by decide)).trans h.a8,
    (W16_of_ne m ρ c main_arg9 (by decide)).trans h.a9⟩

theorem reg7_at (h : At s d n w0 w1 w2 w3 r0 r1 r2 r3 (W17 m ρ c)) : At s d n w0 w1 w2 w3 r0 r1 r2 r3 (W18 m ρ c) :=
  ⟨
    (W18_of_ne m ρ c main_v3 (by decide)).trans h.src,
    (W18_of_ne m ρ c main_v6 (by decide)).trans h.dst,
    (W18_of_ne m ρ c main_v31 (by decide)).trans h.nrm,
    (W18_of_ne m ρ c main_arg2 (by decide)).trans h.a2,
    (W18_of_ne m ρ c main_arg3 (by decide)).trans h.a3,
    (W18_of_ne m ρ c main_arg4 (by decide)).trans h.a4,
    (W18_of_ne m ρ c main_arg5 (by decide)).trans h.a5,
    (W18_of_ne m ρ c main_arg6 (by decide)).trans h.a6,
    (W18_of_ne m ρ c main_arg7 (by decide)).trans h.a7,
    (W18_of_ne m ρ c main_arg8 (by decide)).trans h.a8,
    (W18_of_ne m ρ c main_arg9 (by decide)).trans h.a9⟩

/-! ## The layers -/

/-- Layer 1: from its input at the boundary before it to its output at the boundary after it. -/
theorem layer0 (X : (⟨S100000x64, .f32⟩ : BufTy).Contents (Elt Ideal)) (h : At s d n w0 w1 w2 w3 r0 r1 r2 r3 (W3 m ρ c)) (hx : W3 m ρ c (Proc.devRef .tc main_arg0) = X)
    (hwr : W3 m ρ c (Proc.devRef .tc main_v32) = concatenate S64x128 1 [⟨S64x64, w0⟩, ⟨S64x64, r0⟩] concatenates_S64x64_S64x64_S64x128_d1) :
    At s d n w0 w1 w2 w3 r0 r1 r2 r3 (W6 m ρ c) ∧ W6 m ρ c (Proc.devRef .tc main_v47) = Cert.Net.layer64 (F := Ideal) X w0 r0 s d n := by
  have hc : At s d n w0 w1 w2 w3 r0 r1 r2 r3 (W3 m ρ c) := h
  have hxc : W3 m ρ c (Proc.devRef .tc main_arg0) = X := hx
  have hl : At s d n w0 w1 w2 w3 r0 r1 r2 r3 (W4 m ρ c) := reg0_at m ρ c hc
  have hh : W4 m ρ c (Proc.devRef .tc main_v33_0) = Host.dotGeneral (F := Ideal) (φ₁ := .f32) (φ₂ := .f32) (DotDims.plain 100000 64 64) none X w0 :=
    (W4_arr m ρ c 2).trans ((Cert.KernelIdeal.Lin0.final_left (V3 m ρ) c w0 r0 hwr).trans
      (congrArg (fun x => Host.dotGeneral (F := Ideal) (φ₁ := .f32) (φ₂ := .f32) (DotDims.plain 100000 64 64) none x w0) hxc))
  have hr : W4 m ρ c (Proc.devRef .tc main_v33_1) = Host.dotGeneral (F := Ideal) (φ₁ := .f32) (φ₂ := .f32) (DotDims.plain 100000 64 64) none X r0 :=
    (W4_arr m ρ c 3).trans ((Cert.KernelIdeal.Lin0.final_right (V3 m ρ) c w0 r0 hwr).trans
      (congrArg (fun x => Host.dotGeneral (F := Ideal) (φ₁ := .f32) (φ₂ := .f32) (DotDims.plain 100000 64 64) none x r0) hxc))
  have hm : At s d n w0 w1 w2 w3 r0 r1 r2 r3 (W5 m ρ c) := msg0_at (W4 m ρ c) hl
  have hmsg : W5 m ρ c (Proc.devRef .tc main_v46) = Cert.Net.pass64 (F := Ideal) (Host.dotGeneral (F := Ideal) (φ₁ := .f32) (φ₂ := .f32) (DotDims.plain 100000 64 64) none X w0) s d n := by
    refine (msg0_raw (W4 m ρ c)).trans ?_
    rw [hh, hl.src, hl.dst, hl.nrm]
  have hres : W5 m ρ c (Proc.devRef .tc main_v33_1) = Host.dotGeneral (F := Ideal) (φ₁ := .f32) (φ₂ := .f32) (DotDims.plain 100000 64 64) none X r0 := (msg0_res (W4 m ρ c)).trans hr
  refine ⟨reg1_at m ρ c hm, ?_⟩
  exact (W6_arr m ρ c 2).trans ((Cert.KernelIdeal.Relu1.final (V5 m ρ) c).trans
    (congrArg₂ (Cert.Net.reluAdd64 (F := Ideal)) hmsg hres))

/-- Layer 2: from its input at the boundary before it to its output at the boundary after it. -/
theorem layer1 (X : (⟨S100000x64, .f32⟩ : BufTy).Contents (Elt Ideal)) (h : At s d n w0 w1 w2 w3 r0 r1 r2 r3 (W6 m ρ c)) (hx : W6 m ρ c (Proc.devRef .tc main_v47) = X) :
    At s d n w0 w1 w2 w3 r0 r1 r2 r3 (W10 m ρ c) ∧ W10 m ρ c (Proc.devRef .tc main_v63) = Cert.Net.layer64 (F := Ideal) X w1 r1 s d n := by
  have hc : At s d n w0 w1 w2 w3 r0 r1 r2 r3 (W7 m ρ c) := cat1_at (W6 m ρ c) h
  have hxc : W7 m ρ c (Proc.devRef .tc main_v47) = X := (cat1_x (W6 m ρ c)).trans hx
  have hwr : W7 m ρ c (Proc.devRef .tc main_v48) = concatenate S64x128 1 [⟨S64x64, w1⟩, ⟨S64x64, r1⟩] concatenates_S64x64_S64x64_S64x128_d1 := by
    refine (cat1_raw (W6 m ρ c)).trans ?_
    rw [h.a3, h.a7]
  have hl : At s d n w0 w1 w2 w3 r0 r1 r2 r3 (W8 m ρ c) := reg2_at m ρ c hc
  have hh : W8 m ρ c (Proc.devRef .tc main_v49_0) = Host.dotGeneral (F := Ideal) (φ₁ := .f32) (φ₂ := .f32) (DotDims.plain 100000 64 64) none X w1 :=
    (W8_arr m ρ c 2).trans ((Cert.KernelIdeal.Lin2.final_left (V7 m ρ) c w1 r1 hwr).trans
      (congrArg (fun x => Host.dotGeneral (F := Ideal) (φ₁ := .f32) (φ₂ := .f32) (DotDims.plain 100000 64 64) none x w1) hxc))
  have hr : W8 m ρ c (Proc.devRef .tc main_v49_1) = Host.dotGeneral (F := Ideal) (φ₁ := .f32) (φ₂ := .f32) (DotDims.plain 100000 64 64) none X r1 :=
    (W8_arr m ρ c 3).trans ((Cert.KernelIdeal.Lin2.final_right (V7 m ρ) c w1 r1 hwr).trans
      (congrArg (fun x => Host.dotGeneral (F := Ideal) (φ₁ := .f32) (φ₂ := .f32) (DotDims.plain 100000 64 64) none x r1) hxc))
  have hm : At s d n w0 w1 w2 w3 r0 r1 r2 r3 (W9 m ρ c) := msg1_at (W8 m ρ c) hl
  have hmsg : W9 m ρ c (Proc.devRef .tc main_v62) = Cert.Net.pass64 (F := Ideal) (Host.dotGeneral (F := Ideal) (φ₁ := .f32) (φ₂ := .f32) (DotDims.plain 100000 64 64) none X w1) s d n := by
    refine (msg1_raw (W8 m ρ c)).trans ?_
    rw [hh, hl.src, hl.dst, hl.nrm]
  have hres : W9 m ρ c (Proc.devRef .tc main_v49_1) = Host.dotGeneral (F := Ideal) (φ₁ := .f32) (φ₂ := .f32) (DotDims.plain 100000 64 64) none X r1 := (msg1_res (W8 m ρ c)).trans hr
  refine ⟨reg3_at m ρ c hm, ?_⟩
  exact (W10_arr m ρ c 2).trans ((Cert.KernelIdeal.Relu3.final (V9 m ρ) c).trans
    (congrArg₂ (Cert.Net.reluAdd64 (F := Ideal)) hmsg hres))

/-- Layer 3: from its input at the boundary before it to its output at the boundary after it. -/
theorem layer2 (X : (⟨S100000x64, .f32⟩ : BufTy).Contents (Elt Ideal)) (h : At s d n w0 w1 w2 w3 r0 r1 r2 r3 (W10 m ρ c)) (hx : W10 m ρ c (Proc.devRef .tc main_v63) = X) :
    At s d n w0 w1 w2 w3 r0 r1 r2 r3 (W14 m ρ c) ∧ W14 m ρ c (Proc.devRef .tc main_v79) = Cert.Net.layer64 (F := Ideal) X w2 r2 s d n := by
  have hc : At s d n w0 w1 w2 w3 r0 r1 r2 r3 (W11 m ρ c) := cat2_at (W10 m ρ c) h
  have hxc : W11 m ρ c (Proc.devRef .tc main_v63) = X := (cat2_x (W10 m ρ c)).trans hx
  have hwr : W11 m ρ c (Proc.devRef .tc main_v64) = concatenate S64x128 1 [⟨S64x64, w2⟩, ⟨S64x64, r2⟩] concatenates_S64x64_S64x64_S64x128_d1 := by
    refine (cat2_raw (W10 m ρ c)).trans ?_
    rw [h.a4, h.a8]
  have hl : At s d n w0 w1 w2 w3 r0 r1 r2 r3 (W12 m ρ c) := reg4_at m ρ c hc
  have hh : W12 m ρ c (Proc.devRef .tc main_v65_0) = Host.dotGeneral (F := Ideal) (φ₁ := .f32) (φ₂ := .f32) (DotDims.plain 100000 64 64) none X w2 :=
    (W12_arr m ρ c 2).trans ((Cert.KernelIdeal.Lin4.final_left (V11 m ρ) c w2 r2 hwr).trans
      (congrArg (fun x => Host.dotGeneral (F := Ideal) (φ₁ := .f32) (φ₂ := .f32) (DotDims.plain 100000 64 64) none x w2) hxc))
  have hr : W12 m ρ c (Proc.devRef .tc main_v65_1) = Host.dotGeneral (F := Ideal) (φ₁ := .f32) (φ₂ := .f32) (DotDims.plain 100000 64 64) none X r2 :=
    (W12_arr m ρ c 3).trans ((Cert.KernelIdeal.Lin4.final_right (V11 m ρ) c w2 r2 hwr).trans
      (congrArg (fun x => Host.dotGeneral (F := Ideal) (φ₁ := .f32) (φ₂ := .f32) (DotDims.plain 100000 64 64) none x r2) hxc))
  have hm : At s d n w0 w1 w2 w3 r0 r1 r2 r3 (W13 m ρ c) := msg2_at (W12 m ρ c) hl
  have hmsg : W13 m ρ c (Proc.devRef .tc main_v78) = Cert.Net.pass64 (F := Ideal) (Host.dotGeneral (F := Ideal) (φ₁ := .f32) (φ₂ := .f32) (DotDims.plain 100000 64 64) none X w2) s d n := by
    refine (msg2_raw (W12 m ρ c)).trans ?_
    rw [hh, hl.src, hl.dst, hl.nrm]
  have hres : W13 m ρ c (Proc.devRef .tc main_v65_1) = Host.dotGeneral (F := Ideal) (φ₁ := .f32) (φ₂ := .f32) (DotDims.plain 100000 64 64) none X r2 := (msg2_res (W12 m ρ c)).trans hr
  refine ⟨reg5_at m ρ c hm, ?_⟩
  exact (W14_arr m ρ c 2).trans ((Cert.KernelIdeal.Relu5.final (V13 m ρ) c).trans
    (congrArg₂ (Cert.Net.reluAdd64 (F := Ideal)) hmsg hres))

/-- Layer 4: from its input at the boundary before it to its output at the boundary after it. -/
theorem layer3 (X : (⟨S100000x64, .f32⟩ : BufTy).Contents (Elt Ideal)) (h : At s d n w0 w1 w2 w3 r0 r1 r2 r3 (W14 m ρ c)) (hx : W14 m ρ c (Proc.devRef .tc main_v79) = X) :
    At s d n w0 w1 w2 w3 r0 r1 r2 r3 (W18 m ρ c) ∧ W18 m ρ c (Proc.devRef .tc main_v95) = Cert.Net.layer40 (F := Ideal) X w3 r3 s d n := by
  have hc : At s d n w0 w1 w2 w3 r0 r1 r2 r3 (W15 m ρ c) := cat3_at (W14 m ρ c) h
  have hxc : W15 m ρ c (Proc.devRef .tc main_v79) = X := (cat3_x (W14 m ρ c)).trans hx
  have hwr : W15 m ρ c (Proc.devRef .tc main_v80) = concatenate S64x80 1 [⟨S64x40, w3⟩, ⟨S64x40, r3⟩] concatenates_S64x40_S64x40_S64x80_d1 := by
    refine (cat3_raw (W14 m ρ c)).trans ?_
    rw [h.a5, h.a9]
  have hl : At s d n w0 w1 w2 w3 r0 r1 r2 r3 (W16 m ρ c) := reg6_at m ρ c hc
  have hh : W16 m ρ c (Proc.devRef .tc main_v81_0) = Host.dotGeneral (F := Ideal) (φ₁ := .f32) (φ₂ := .f32) (DotDims.plain 100000 64 40) none X w3 :=
    (W16_arr m ρ c 2).trans ((Cert.KernelIdeal.Lin6.final_left (V15 m ρ) c w3 r3 hwr).trans
      (congrArg (fun x => Host.dotGeneral (F := Ideal) (φ₁ := .f32) (φ₂ := .f32) (DotDims.plain 100000 64 40) none x w3) hxc))
  have hr : W16 m ρ c (Proc.devRef .tc main_v81_1) = Host.dotGeneral (F := Ideal) (φ₁ := .f32) (φ₂ := .f32) (DotDims.plain 100000 64 40) none X r3 :=
    (W16_arr m ρ c 3).trans ((Cert.KernelIdeal.Lin6.final_right (V15 m ρ) c w3 r3 hwr).trans
      (congrArg (fun x => Host.dotGeneral (F := Ideal) (φ₁ := .f32) (φ₂ := .f32) (DotDims.plain 100000 64 40) none x r3) hxc))
  have hm : At s d n w0 w1 w2 w3 r0 r1 r2 r3 (W17 m ρ c) := msg3_at (W16 m ρ c) hl
  have hmsg : W17 m ρ c (Proc.devRef .tc main_v94) = Cert.Net.pass40 (F := Ideal) (Host.dotGeneral (F := Ideal) (φ₁ := .f32) (φ₂ := .f32) (DotDims.plain 100000 64 40) none X w3) s d n := by
    refine (msg3_raw (W16 m ρ c)).trans ?_
    rw [hh, hl.src, hl.dst, hl.nrm]
  have hres : W17 m ρ c (Proc.devRef .tc main_v81_1) = Host.dotGeneral (F := Ideal) (φ₁ := .f32) (φ₂ := .f32) (DotDims.plain 100000 64 40) none X r3 := (msg3_res (W16 m ρ c)).trans hr
  refine ⟨reg7_at m ρ c hm, ?_⟩
  exact (W18_arr m ρ c 2).trans ((Cert.KernelIdeal.Relu7.final (V17 m ρ) c).trans
    (congrArg₂ (Cert.Net.reluAdd40 (F := Ideal)) hmsg hres))

end Regions

/-! ## The result -/

/-- What the last region leaves in the result buffer is the network of the arguments. -/
theorem result_eq (m : (ℓ : Loc nD τ sig) → Buf (Elt Ideal) ℓ) (ρ : Dev nD → PrngReg) (c : Dev nD) :
    W18 m ρ c (Proc.devRef .tc main_v95)
      = Cert.Net.net (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  have h3 := pre_at (W0 m ρ c)
  have hwr := pre_wr (W0 m ρ c)
  obtain ⟨h6, x1⟩ := layer0 m ρ c _ h3 (pre_x (W0 m ρ c)) hwr
  obtain ⟨h10, x2⟩ := layer1 m ρ c _ h6 x1
  obtain ⟨h14, x3⟩ := layer2 m ρ c _ h10 x2
  obtain ⟨-, x4⟩ := layer3 m ρ c _ h14 x3
  exact x4

end Cert.KernelIdeal.Chain

end
-- ==== Proof.RefRun.lean ====
/-
  The reference's run. Its program is a straight line of 131 host operations, cut here into fifteen stretches: three
  for the edge data (the middle one a called function's body), then per layer the product with W and the message
  passing, the rectifier (a called function's body), and the product with R and the sum. Every weakly fair execution
  ends, and each buffer then holds the fold of the operations over the launch contents, a fold of the stretches' folds.
-/
import proofs.«143482_j29437705846971_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge data: sources, destinations, degrees and their reciprocal roots. -/
abbrev opsN0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]
theorem opsN0_sub : (opsN0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩
theorem opsN0_fresh : ∀ op ∈ (opsN0 : List (HloOp τ sig (Elt F))), op.fresh = ∅ := by
  intro _ h; (repeat (cases h with | head => rfl | tail _ h => ?_)); exact nomatch h

/-- The guard of the reciprocal roots (a called function's three operations). -/
abbrev opsN1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]
theorem opsN1_sub : (opsN1 : List (HloOp τ sig (Elt F))).Forall fun op => op.bufs ⊆ tcRefs τ sig :=
  ⟨unary_bufs_sub .., unary_bufs_sub .., ternary_bufs_sub ..⟩
theorem opsN1_fresh : ∀ op ∈ (opsN1 : List (HloOp τ sig (Elt F))), op.fresh = ∅ := by
  intro _ h; (repeat (cases h with | head => rfl | tail _ h => ?_)); exact nomatch h

/-- The edge weights: the product of each edge's two ends' scales. -/
abbrev opsN2 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]
theorem opsN2_sub : (opsN2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsN2_fresh : ∀ op ∈ (opsN2 : List (HloOp τ sig (Elt F))), op.fresh = ∅ := by
  intro _ h; (repeat (cases h with | head => rfl | tail _ h => ?_)); exact nomatch h

/-- The first layer: the product with W and the message passing. -/
abbrev opsL0a : List (HloOp τ sig (Elt F)) :=
  [ binary main_arg0 main_arg2 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v31 main_v33 (broadcastInDim S1700000x1 ![0] bcast_S1700000_S1700000x1_0 : (⟨S1700000, .f32⟩ : BufTy).Contents (Elt F) → (⟨S1700000x1, .f32⟩ : BufTy).Contents (Elt F)),
    nullary main_c_7 (constantI S_ 32 0#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v32 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v33 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v40 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
theorem opsL0a_sub : (opsL0a : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsL0a_fresh : ∀ op ∈ (opsL0a : List (HloOp τ sig (Elt F))), op.fresh = ∅ := by
  intro _ h; (repeat (cases h with | head => rfl | tail _ h => ?_)); exact nomatch h

/-- The first layer: the rectifier (a called function's three operations). -/
abbrev opsL0r : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v45) (TRef.of (T := ⟨S100000x64, .f32⟩) main_call1_v0) (TRef.of (T := ⟨S100000x64, .f32⟩) main_v46) maximumf ]
theorem opsL0r_sub : (opsL0r : List (HloOp τ sig (Elt F))).Forall fun op => op.bufs ⊆ tcRefs τ sig :=
  ⟨nullary_bufs_sub .., unary_bufs_sub .., binary_bufs_sub ..⟩
theorem opsL0r_fresh : ∀ op ∈ (opsL0r : List (HloOp τ sig (Elt F))), op.fresh = ∅ := by
  intro _ h; (repeat (cases h with | head => rfl | tail _ h => ?_)); exact nomatch h

/-- The first layer: the product with R and the sum. -/
abbrev opsL0b : List (HloOp τ sig (Elt F)) :=
  [ binary main_arg0 main_arg6 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v46 main_v47 main_v48 (addf : (⟨S100000x64, .f32⟩ : BufTy).Contents (Elt F) → (⟨S100000x64, .f32⟩ : BufTy).Contents (Elt F) → (⟨S100000x64, .f32⟩ : BufTy).Contents (Elt F)) ]
theorem opsL0b_sub : (opsL0b : List (HloOp τ sig (Elt F))).Forall fun op => op.bufs ⊆ tcRefs τ sig :=
  ⟨binary_bufs_sub .., binary_bufs_sub ..⟩
theorem opsL0b_fresh : ∀ op ∈ (opsL0b : List (HloOp τ sig (Elt F))), op.fresh = ∅ := by
  intro _ h; (repeat (cases h with | head => rfl | tail _ h => ?_)); exact nomatch h

/-- The second layer: the product with W and the message passing. -/
abbrev opsL1a : List (HloOp τ sig (Elt F)) :=
  [ binary main_v48 main_arg3 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v31 main_v50 (broadcastInDim S1700000x1 ![0] bcast_S1700000_S1700000x1_0 : (⟨S1700000, .f32⟩ : BufTy).Contents (Elt F) → (⟨S1700000x1, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v49 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v50 main_v58 (broadcastInDim S1700000x64 ![0, 1] bcast_S1700000x1_S1700000x64_0_1 : (⟨S1700000x1, .f32⟩ : BufTy).Contents (Elt F) → (⟨S1700000x64, .f32⟩ : BufTy).Contents (Elt F)),
    binary main_v58 main_v57 main_v59 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
theorem opsL1a_sub : (opsL1a : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsL1a_fresh : ∀ op ∈ (opsL1a : List (HloOp τ sig (Elt F))), op.fresh = ∅ := by
  intro _ h; (repeat (cases h with | head => rfl | tail _ h => ?_)); exact nomatch h

/-- The second layer: the rectifier (a called function's three operations). -/
abbrev opsL1r : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v62) (TRef.of (T := ⟨S100000x64, .f32⟩) main_call2_v0) (TRef.of (T := ⟨S100000x64, .f32⟩) main_v63) maximumf ]
theorem opsL1r_sub : (opsL1r : List (HloOp τ sig (Elt F))).Forall fun op => op.bufs ⊆ tcRefs τ sig :=
  ⟨nullary_bufs_sub .., unary_bufs_sub .., binary_bufs_sub ..⟩
theorem opsL1r_fresh : ∀ op ∈ (opsL1r : List (HloOp τ sig (Elt F))), op.fresh = ∅ := by
  intro _ h; (repeat (cases h with | head => rfl | tail _ h => ?_)); exact nomatch h

/-- The second layer: the product with R and the sum. -/
abbrev opsL1b : List (HloOp τ sig (Elt F)) :=
  [ binary main_v48 main_arg7 main_v64 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v63 main_v64 main_v65 (addf : (⟨S100000x64, .f32⟩ : BufTy).Contents (Elt F) → (⟨S100000x64, .f32⟩ : BufTy).Contents (Elt F) → (⟨S100000x64, .f32⟩ : BufTy).Contents (Elt F)) ]
theorem opsL1b_sub : (opsL1b : List (HloOp τ sig (Elt F))).Forall fun op => op.bufs ⊆ tcRefs τ sig :=
  ⟨binary_bufs_sub .., binary_bufs_sub ..⟩
theorem opsL1b_fresh : ∀ op ∈ (opsL1b : List (HloOp τ sig (Elt F))), op.fresh = ∅ := by
  intro _ h; (repeat (cases h with | head => rfl | tail _ h => ?_)); exact nomatch h

/-- The third layer: the product with W and the message passing. -/
abbrev opsL2a : List (HloOp τ sig (Elt F)) :=
  [ binary main_v65 main_arg4 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v31 main_v67 (broadcastInDim S1700000x1 ![0] bcast_S1700000_S1700000x1_0 : (⟨S1700000, .f32⟩ : BufTy).Contents (Elt F) → (⟨S1700000x1, .f32⟩ : BufTy).Contents (Elt F)),
    nullary main_c_13 (constantI S_ 32 0#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v70 (broadcastInDim S1700000 ![] bcast_S_S1700000 : (⟨S_, .i32⟩ : BufTy).Contents (Elt F) → (⟨S1700000, .i32⟩ : BufTy).Contents (Elt F)),
    binary main_v3 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v66 main_v73 main_v74 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v67 main_v75 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v74 main_v76 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v77 (broadcastInDim S100000x64 ![] bcast_S_S100000x64 : (⟨S_, .f32⟩ : BufTy).Contents (Elt F) → (⟨S100000x64, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
theorem opsL2a_sub : (opsL2a : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsL2a_fresh : ∀ op ∈ (opsL2a : List (HloOp τ sig (Elt F))), op.fresh = ∅ := by
  intro _ h; (repeat (cases h with | head => rfl | tail _ h => ?_)); exact nomatch h

/-- The third layer: the rectifier (a called function's three operations). -/
abbrev opsL2r : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v79) (TRef.of (T := ⟨S100000x64, .f32⟩) main_call3_v0) (TRef.of (T := ⟨S100000x64, .f32⟩) main_v80) maximumf ]
theorem opsL2r_sub : (opsL2r : List (HloOp τ sig (Elt F))).Forall fun op => op.bufs ⊆ tcRefs τ sig :=
  ⟨nullary_bufs_sub .., unary_bufs_sub .., binary_bufs_sub ..⟩
theorem opsL2r_fresh : ∀ op ∈ (opsL2r : List (HloOp τ sig (Elt F))), op.fresh = ∅ := by
  intro _ h; (repeat (cases h with | head => rfl | tail _ h => ?_)); exact nomatch h

/-- The third layer: the product with R and the sum. -/
abbrev opsL2b : List (HloOp τ sig (Elt F)) :=
  [ binary main_v65 main_arg8 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v80 main_v81 main_v82 (addf : (⟨S100000x64, .f32⟩ : BufTy).Contents (Elt F) → (⟨S100000x64, .f32⟩ : BufTy).Contents (Elt F) → (⟨S100000x64, .f32⟩ : BufTy).Contents (Elt F)) ]
theorem opsL2b_sub : (opsL2b : List (HloOp τ sig (Elt F))).Forall fun op => op.bufs ⊆ tcRefs τ sig :=
  ⟨binary_bufs_sub .., binary_bufs_sub ..⟩
theorem opsL2b_fresh : ∀ op ∈ (opsL2b : List (HloOp τ sig (Elt F))), op.fresh = ∅ := by
  intro _ h; (repeat (cases h with | head => rfl | tail _ h => ?_)); exact nomatch h

/-- The last layer: the product with W and the message passing. -/
abbrev opsL3a : List (HloOp τ sig (Elt F)) :=
  [ binary main_v82 main_arg5 main_v83 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_v31 main_v84 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v85 (broadcastInDim S1700000 ![] bcast_S_S1700000 : (⟨S_, .i32⟩ : BufTy).Contents (Elt F) → (⟨S1700000, .i32⟩ : BufTy).Contents (Elt F)),
    binary main_v3 main_v85 main_v86 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v87 (broadcastInDim S1700000 ![] bcast_S_S1700000 : (⟨S_, .i32⟩ : BufTy).Contents (Elt F) → (⟨S1700000, .i32⟩ : BufTy).Contents (Elt F)),
    binary main_v3 main_v87 main_v88 (addi : (⟨S1700000, .i32⟩ : BufTy).Contents (Elt F) → (⟨S1700000, .i32⟩ : BufTy).Contents (Elt F) → (⟨S1700000, .i32⟩ : BufTy).Contents (Elt F)),
    ternary main_v86 main_v88 main_v3 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v89 main_v90 (broadcastInDim S1700000x1 ![0] bcast_S1700000_S1700000x1_0 : (⟨S1700000, .i32⟩ : BufTy).Contents (Elt F) → (⟨S1700000x1, .i32⟩ : BufTy).Contents (Elt F)),
    binary main_v83 main_v90 main_v91 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v84 main_v92 (broadcastInDim S1700000x40 ![0, 1] bcast_S1700000x1_S1700000x40_0_1 : (⟨S1700000x1, .f32⟩ : BufTy).Contents (Elt F) → (⟨S1700000x40, .f32⟩ : BufTy).Contents (Elt F)),
    binary main_v92 main_v91 main_v93 (mulf : (⟨S1700000x40, .f32⟩ : BufTy).Contents (Elt F) → (⟨S1700000x40, .f32⟩ : BufTy).Contents (Elt F) → (⟨S1700000x40, .f32⟩ : BufTy).Contents (Elt F)),
    nullary main_cst_18 (constant S_ .f32 0x00000000#32),
    unary main_cst_18 main_v94 (broadcastInDim S100000x40 ![] bcast_S_S100000x40 : (⟨S_, .f32⟩ : BufTy).Contents (Elt F) → (⟨S100000x40, .f32⟩ : BufTy).Contents (Elt F)),
    unary main_v6 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]
theorem opsL3a_sub : (opsL3a : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsL3a_fresh : ∀ op ∈ (opsL3a : List (HloOp τ sig (Elt F))), op.fresh = ∅ := by
  intro _ h; (repeat (cases h with | head => rfl | tail _ h => ?_)); exact nomatch h

/-- The last layer: the rectifier (a called function's three operations). -/
abbrev opsL3r : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S100000x40, .f32⟩) main_call4_v0) (broadcastInDim S100000x40 ![] bcast_S_S100000x40),
    TRef.binary (TRef.of (T := ⟨S100000x40, .f32⟩) main_v96) (TRef.of (T := ⟨S100000x40, .f32⟩) main_call4_v0) (TRef.of (T := ⟨S100000x40, .f32⟩) main_v97) maximumf ]
theorem opsL3r_sub : (opsL3r : List (HloOp τ sig (Elt F))).Forall fun op => op.bufs ⊆ tcRefs τ sig :=
  ⟨nullary_bufs_sub .., unary_bufs_sub .., binary_bufs_sub ..⟩
theorem opsL3r_fresh : ∀ op ∈ (opsL3r : List (HloOp τ sig (Elt F))), op.fresh = ∅ := by
  intro _ h; (repeat (cases h with | head => rfl | tail _ h => ?_)); exact nomatch h

/-- The last layer: the product with R and the sum. -/
abbrev opsL3b : List (HloOp τ sig (Elt F)) :=
  [ binary main_v82 main_arg9 main_v98 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v97 main_v98 main_v99 (addf : (⟨S100000x40, .f32⟩ : BufTy).Contents (Elt F) → (⟨S100000x40, .f32⟩ : BufTy).Contents (Elt F) → (⟨S100000x40, .f32⟩ : BufTy).Contents (Elt F)) ]
theorem opsL3b_sub : (opsL3b : List (HloOp τ sig (Elt F))).Forall fun op => op.bufs ⊆ tcRefs τ sig :=
  ⟨binary_bufs_sub .., binary_bufs_sub ..⟩
theorem opsL3b_fresh : ∀ op ∈ (opsL3b : List (HloOp τ sig (Elt F))), op.fresh = ∅ := by
  intro _ h; (repeat (cases h with | head => rfl | tail _ h => ?_)); exact nomatch h

/-- The stretches, in order. -/
abbrev stretches : List (List (HloOp τ sig (Elt F))) := [opsN0, opsN1, opsN2, opsL0a, opsL0r, opsL0b, opsL1a, opsL1r, opsL1b, opsL2a, opsL2r, opsL2b, opsL3a, opsL3r, opsL3b]

/-- The whole program's operations, in order. -/
abbrev ops : List (HloOp τ sig (Elt F)) := (stretches (F := F)).flatten

/-- Running stretches one after the other, each from what the one before left. -/
def afterAll {τ' : Topo} {sig' : RefSig} {Val : EltTy → Type} : List (List (HloOp τ' sig' Val)) → Valuation τ' sig' Val → Valuation τ' sig' Val
  | [], V => V
  | l :: ls, V => afterAll ls (after l V)

/-- Running two stretches one after the other is running their concatenation. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- The fold of a concatenation of stretches is the stretches' folds in turn. -/
theorem after_flatten {τ' : Topo} {sig' : RefSig} {Val : EltTy → Type} (ls : List (List (HloOp τ' sig' Val))) (V : Valuation τ' sig' Val) :
    after ls.flatten V = afterAll ls V := by
  induction ls generalizing V with
  | nil => rfl
  | cons l ls ih => rw [List.flatten_cons, after_append, ih]; rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op h => ?_
  obtain ⟨l, hl, hop⟩ := List.mem_flatten.mp h
  simp only [stretches, List.mem_cons, List.mem_nil_iff, or_false] at hl
  rcases hl with rfl | rfl | rfl | rfl | rfl | rfl | rfl | rfl | rfl | rfl | rfl | rfl | rfl | rfl | rfl
  · exact List.forall_iff_forall_mem.mp opsN0_sub op hop
  · exact List.forall_iff_forall_mem.mp opsN1_sub op hop
  · exact List.forall_iff_forall_mem.mp opsN2_sub op hop
  · exact List.forall_iff_forall_mem.mp opsL0a_sub op hop
  · exact List.forall_iff_forall_mem.mp opsL0r_sub op hop
  · exact List.forall_iff_forall_mem.mp opsL0b_sub op hop
  · exact List.forall_iff_forall_mem.mp opsL1a_sub op hop
  · exact List.forall_iff_forall_mem.mp opsL1r_sub op hop
  · exact List.forall_iff_forall_mem.mp opsL1b_sub op hop
  · exact List.forall_iff_forall_mem.mp opsL2a_sub op hop
  · exact List.forall_iff_forall_mem.mp opsL2r_sub op hop
  · exact List.forall_iff_forall_mem.mp opsL2b_sub op hop
  · exact List.forall_iff_forall_mem.mp opsL3a_sub op hop
  · exact List.forall_iff_forall_mem.mp opsL3r_sub op hop
  · exact List.forall_iff_forall_mem.mp opsL3b_sub op hop

theorem ops_fresh : ∀ op ∈ (ops : List (HloOp τ sig (Elt F))), op.fresh = ∅ := by
  intro op h
  obtain ⟨l, hl, hop⟩ := List.mem_flatten.mp h
  simp only [stretches, List.mem_cons, List.mem_nil_iff, or_false] at hl
  rcases hl with rfl | rfl | rfl | rfl | rfl | rfl | rfl | rfl | rfl | rfl | rfl | rfl | rfl | rfl | rfl
  · exact opsN0_fresh op hop
  · exact opsN1_fresh op hop
  · exact opsN2_fresh op hop
  · exact opsL0a_fresh op hop
  · exact opsL0r_fresh op hop
  · exact opsL0b_fresh op hop
  · exact opsL1a_fresh op hop
  · exact opsL1r_fresh op hop
  · exact opsL1b_fresh op hop
  · exact opsL2a_fresh op hop
  · exact opsL2r_fresh op hop
  · exact opsL2b_fresh op hop
  · exact opsL3a_fresh op hop
  · exact opsL3r_fresh op hop
  · exact opsL3b_fresh op hop

/-- Every weakly fair execution ends with each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = afterAll (stretches (F := F)) (launchContents m c) (Proc.devRef .tc b) :=
  (θ_run defs _ _).mono (fun r h c b => (h c b).trans (congrFun (after_flatten _ _) _))
    (run_seq scopedRefs_eq scopedSems_eq defs main (fun _ => ops) main_eq (fun _ => ops_sub) m ρ (fun _ => ops_fresh))

end Cert.ReferenceIdeal.RefRun

end
-- ==== Proof.RefNorm.lean ====
/-
  The reference's first three stretches, over ANY contents they start from: they leave the sources, the destinations
  and the edge weights of the network's definition as functions of the edge list, and write no argument. The middle
  stretch is a called function's body; its three operations are read on their own, so that the transport of their
  values between the function's buffers and the caller's meets no large array.
-/
import proofs.«143482_j29437705846971_1_alg».proof.Proof.RefRun
import proofs.«143482_j29437705846971_1_alg».proof.Proof.Net
import proofs.«143482_j29437705846971_1_alg».proof.Proof.LibJoinTwo
import Idealize.ShloMosaic.PureOps.Ideal

set_option maxRecDepth 16384
set_option maxHeartbeats 4000000

noncomputable section

namespace Cert.ReferenceIdeal.RefNorm

open Cert.ReferenceIdeal Cert.ReferenceIdeal.Gen Cert.ReferenceIdeal.RefRun
open Idealize.ShloMosaic Idealize.ShloMosaic.TcCoe Idealize.SL.Sem Idealize.ShloMosaic.StableHlo

/-- What every stretch after the edge data finds in the buffers no later stretch writes: the edge data and the arguments. -/
structure At (s d : (⟨Cert.KernelIdeal.S1700000, .i32⟩ : BufTy).Contents (Elt Ideal)) (n : (⟨Cert.KernelIdeal.S1700000, .f32⟩ : BufTy).Contents (Elt Ideal)) (x0 : (⟨Cert.KernelIdeal.S100000x64, .f32⟩ : BufTy).Contents (Elt Ideal)) (e : (⟨Cert.KernelIdeal.S2x1600000, .i32⟩ : BufTy).Contents (Elt Ideal))
    (w0 w1 w2 : (⟨Cert.KernelIdeal.S64x64, .f32⟩ : BufTy).Contents (Elt Ideal)) (w3 : (⟨Cert.KernelIdeal.S64x40, .f32⟩ : BufTy).Contents (Elt Ideal)) (r0 r1 r2 : (⟨Cert.KernelIdeal.S64x64, .f32⟩ : BufTy).Contents (Elt Ideal)) (r3 : (⟨Cert.KernelIdeal.S64x40, .f32⟩ : BufTy).Contents (Elt Ideal))
    (V : Valuation τ sig (Elt Ideal)) : Prop where
  src : V (Proc.devRef .tc main_v3) = s
  dst : V (Proc.devRef .tc main_v6) = d
  nrm : V (Proc.devRef .tc main_v31) = n
  a0 : V (Proc.devRef .tc main_arg0) = x0
  a1 : V (Proc.devRef .tc main_arg1) = e
  a2 : V (Proc.devRef .tc main_arg2) = w0
  a3 : V (Proc.devRef .tc main_arg3) = w1
  a4 : V (Proc.devRef .tc main_arg4) = w2
  a5 : V (Proc.devRef .tc main_arg5) = w3
  a6 : V (Proc.devRef .tc main_arg6) = r0
  a7 : V (Proc.devRef .tc main_arg7) = r1
  a8 : V (Proc.devRef .tc main_arg8) = r2
  a9 : V (Proc.devRef .tc main_arg9) = r3

variable (V : Valuation τ sig (Elt Ideal))

theorem n0_r_v3 : after (opsN0 (F := Ideal)) V (Proc.devRef .tc main_v3)
    = Cert.Net.srcOf (F := Ideal) (V (Proc.devRef .tc main_arg1)) := by
  simp only [opsN0, Cert.JoinTwo.cat2_fold]
  after_results_simp
  rfl
theorem n0_r_v6 : after (opsN0 (F := Ideal)) V (Proc.devRef .tc main_v6)
    = Cert.Net.dstOf (F := Ideal) (V (Proc.devRef .tc main_arg1)) := by
  simp only [opsN0, Cert.JoinTwo.cat2_fold]
  after_results_simp
  rfl
theorem n0_r_v12 : after (opsN0 (F := Ideal)) V (Proc.devRef .tc main_v12)
    = cmpf .ogt (Cert.Net.degOf (F := Ideal) (Cert.Net.dstOf (V (Proc.devRef .tc main_arg1)))) (broadcastInDim Cert.KernelIdeal.S100000 ![] Cert.KernelIdeal.Gen.bcast_S_S100000 (constant (F := Ideal) Cert.KernelIdeal.S_ .f32 0x00000000#32)) := by
  simp only [opsN0, Cert.JoinTwo.cat2_fold]
  after_results_simp
  rfl
theorem n0_r_v15 : after (opsN0 (F := Ideal)) V (Proc.devRef .tc main_v15)
    = Host.rsqrt (maximumf (Cert.Net.degOf (F := Ideal) (Cert.Net.dstOf (V (Proc.devRef .tc main_arg1)))) (broadcastInDim Cert.KernelIdeal.S100000 ![] Cert.KernelIdeal.Gen.bcast_S_S100000 (constant (F := Ideal) Cert.KernelIdeal.S_ .f32 0x3F800000#32))) := by
  simp only [opsN0, Cert.JoinTwo.cat2_fold]
  after_results_simp
  rfl
theorem n0_r_cst_3 : after (opsN0 (F := Ideal)) V (Proc.devRef .tc main_cst_3)
    = constant (F := Ideal) Cert.KernelIdeal.S_ .f32 0x00000000#32 := by
  after_results
theorem n0_k_arg0 : after (opsN0 (F := Ideal)) V (Proc.devRef .tc main_arg0) = V (Proc.devRef .tc main_arg0) := by
  after_results
theorem n0_k_arg1 : after (opsN0 (F := Ideal)) V (Proc.devRef .tc main_arg1) = V (Proc.devRef .tc main_arg1) := by
  after_results
theorem n0_k_arg2 : after (opsN0 (F := Ideal)) V (Proc.devRef .tc main_arg2) = V (Proc.devRef .tc main_arg2) := by
  after_results
theorem n0_k_arg3 : after (opsN0 (F := Ideal)) V (Proc.devRef .tc main_arg3) = V (Proc.devRef .tc main_arg3) := by
  after_results
theorem n0_k_arg4 : after (opsN0 (F := Ideal)) V (Proc.devRef .tc main_arg4) = V (Proc.devRef .tc main_arg4) := by
  after_results
theorem n0_k_arg5 : after (opsN0 (F := Ideal)) V (Proc.devRef .tc main_arg5) = V (Proc.devRef .tc main_arg5) := by
  after_results
theorem n0_k_arg6 : after (opsN0 (F := Ideal)) V (Proc.devRef .tc main_arg6) = V (Proc.devRef .tc main_arg6) := by
  after_results
theorem n0_k_arg7 : after (opsN0 (F := Ideal)) V (Proc.devRef .tc main_arg7) = V (Proc.devRef .tc main_arg7) := by
  after_results
theorem n0_k_arg8 : after (opsN0 (F := Ideal)) V (Proc.devRef .tc main_arg8) = V (Proc.devRef .tc main_arg8) := by
  after_results
theorem n0_k_arg9 : after (opsN0 (F := Ideal)) V (Proc.devRef .tc main_arg9) = V (Proc.devRef .tc main_arg9) := by
  after_results
theorem n1_r_v16 : after (opsN1 (F := Ideal)) V (Proc.devRef .tc main_v16)
    = select (V (Proc.devRef .tc main_v12)) (V (Proc.devRef .tc main_v15)) (broadcastInDim Cert.KernelIdeal.S100000 ![] Cert.KernelIdeal.Gen.bcast_S_S100000 (id (V (Proc.devRef .tc main_cst_3)))) := by
  after_results
  rfl
theorem n1_k_v3 : after (opsN1 (F := Ideal)) V (Proc.devRef .tc main_v3) = V (Proc.devRef .tc main_v3) := by
  after_results
theorem n1_k_v6 : after (opsN1 (F := Ideal)) V (Proc.devRef .tc main_v6) = V (Proc.devRef .tc main_v6) := by
  after_results
theorem n1_k_arg0 : after (opsN1 (F := Ideal)) V (Proc.devRef .tc main_arg0) = V (Proc.devRef .tc main_arg0) := by
  after_results
theorem n1_k_arg1 : after (opsN1 (F := Ideal)) V (Proc.devRef .tc main_arg1) = V (Proc.devRef .tc main_arg1) := by
  after_results
theorem n1_k_arg2 : after (opsN1 (F := Ideal)) V (Proc.devRef .tc main_arg2) = V (Proc.devRef .tc main_arg2) := by
  after_results
theorem n1_k_arg3 : after (opsN1 (F := Ideal)) V (Proc.devRef .tc main_arg3) = V (Proc.devRef .tc main_arg3) := by
  after_results
theorem n1_k_arg4 : after (opsN1 (F := Ideal)) V (Proc.devRef .tc main_arg4) = V (Proc.devRef .tc main_arg4) := by
  after_results
theorem n1_k_arg5 : after (opsN1 (F := Ideal)) V (Proc.devRef .tc main_arg5) = V (Proc.devRef .tc main_arg5) := by
  after_results
theorem n1_k_arg6 : after (opsN1 (F := Ideal)) V (Proc.devRef .tc main_arg6) = V (Proc.devRef .tc main_arg6) := by
  after_results
theorem n1_k_arg7 : after (opsN1 (F := Ideal)) V (Proc.devRef .tc main_arg7) = V (Proc.devRef .tc main_arg7) := by
  after_results
theorem n1_k_arg8 : after (opsN1 (F := Ideal)) V (Proc.devRef .tc main_arg8) = V (Proc.devRef .tc main_arg8) := by
  after_results
theorem n1_k_arg9 : after (opsN1 (F := Ideal)) V (Proc.devRef .tc main_arg9) = V (Proc.devRef .tc main_arg9) := by
  after_results
theorem n2_r_v31 : after (opsN2 (F := Ideal)) V (Proc.devRef .tc main_v31)
    = Cert.Net.normFrom (F := Ideal) (V (Proc.devRef .tc main_v16)) (V (Proc.devRef .tc main_v3)) (V (Proc.devRef .tc main_v6)) := by
  after_results
  rfl
theorem n2_k_v3 : after (opsN2 (F := Ideal)) V (Proc.devRef .tc main_v3) = V (Proc.devRef .tc main_v3) := by
  after_results
theorem n2_k_v6 : after (opsN2 (F := Ideal)) V (Proc.devRef .tc main_v6) = V (Proc.devRef .tc main_v6) := by
  after_results
theorem n2_k_arg0 : after (opsN2 (F := Ideal)) V (Proc.devRef .tc main_arg0) = V (Proc.devRef .tc main_arg0) := by
  after_results
theorem n2_k_arg1 : after (opsN2 (F := Ideal)) V (Proc.devRef .tc main_arg1) = V (Proc.devRef .tc main_arg1) := by
  after_results
theorem n2_k_arg2 : after (opsN2 (F := Ideal)) V (Proc.devRef .tc main_arg2) = V (Proc.devRef .tc main_arg2) := by
  after_results
theorem n2_k_arg3 : after (opsN2 (F := Ideal)) V (Proc.devRef .tc main_arg3) = V (Proc.devRef .tc main_arg3) := by
  after_results
theorem n2_k_arg4 : after (opsN2 (F := Ideal)) V (Proc.devRef .tc main_arg4) = V (Proc.devRef .tc main_arg4) := by
  after_results
theorem n2_k_arg5 : after (opsN2 (F := Ideal)) V (Proc.devRef .tc main_arg5) = V (Proc.devRef .tc main_arg5) := by
  after_results
theorem n2_k_arg6 : after (opsN2 (F := Ideal)) V (Proc.devRef .tc main_arg6) = V (Proc.devRef .tc main_arg6) := by
  after_results
theorem n2_k_arg7 : after (opsN2 (F := Ideal)) V (Proc.devRef .tc main_arg7) = V (Proc.devRef .tc main_arg7) := by
  after_results
theorem n2_k_arg8 : after (opsN2 (F := Ideal)) V (Proc.devRef .tc main_arg8) = V (Proc.devRef .tc main_arg8) := by
  after_results
theorem n2_k_arg9 : after (opsN2 (F := Ideal)) V (Proc.devRef .tc main_arg9) = V (Proc.devRef .tc main_arg9) := by
  after_results

/-- The three stretches together. -/
theorem norm_at : At (Cert.Net.srcOf (F := Ideal) (V (Proc.devRef .tc main_arg1))) (Cert.Net.dstOf (F := Ideal) (V (Proc.devRef .tc main_arg1)))
    (Cert.Net.normOf (F := Ideal) (Cert.Net.srcOf (V (Proc.devRef .tc main_arg1))) (Cert.Net.dstOf (V (Proc.devRef .tc main_arg1))))
    (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    (after (opsN2 (F := Ideal)) (after opsN1 (after opsN0 V))) := by
  refine ⟨?_, ?_, ?_, ?_, ?_, ?_, ?_, ?_, ?_, ?_, ?_, ?_, ?_⟩
  · rw [n2_k_v3, n1_k_v3, n0_r_v3]
  · rw [n2_k_v6, n1_k_v6, n0_r_v6]
  · rw [n2_r_v31, n1_r_v16, n1_k_v3, n1_k_v6, n0_r_v12, n0_r_v15, n0_r_cst_3, n0_r_v3, n0_r_v6]
    rfl
  · rw [n2_k_arg0, n1_k_arg0, n0_k_arg0]
  · rw [n2_k_arg1, n1_k_arg1, n0_k_arg1]
  · rw [n2_k_arg2, n1_k_arg2, n0_k_arg2]
  · rw [n2_k_arg3, n1_k_arg3, n0_k_arg3]
  · rw [n2_k_arg4, n1_k_arg4, n0_k_arg4]
  · rw [n2_k_arg5, n1_k_arg5, n0_k_arg5]
  · rw [n2_k_arg6, n1_k_arg6, n0_k_arg6]
  · rw [n2_k_arg7, n1_k_arg7, n0_k_arg7]
  · rw [n2_k_arg8, n1_k_arg8, n0_k_arg8]
  · rw [n2_k_arg9, n1_k_arg9, n0_k_arg9]

end Cert.ReferenceIdeal.RefNorm

end
-- ==== Proof.RefLayer0.lean ====
/-
  The reference's first layer, over ANY contents it starts from: three stretches (the product with W and the message
  passing; the rectifier, a called function's body read on its own; the product with R and the sum) that leave the
  layer of the definition applied to the layer's input, and write none of the edge data or the arguments.
-/
import proofs.«143482_j29437705846971_1_alg».proof.Proof.RefNorm

set_option maxRecDepth 16384
set_option maxHeartbeats 4000000

noncomputable section

namespace Cert.ReferenceIdeal.RefLayer0

open Cert.ReferenceIdeal Cert.ReferenceIdeal.Gen Cert.ReferenceIdeal.RefRun
open Idealize.ShloMosaic Idealize.ShloMosaic.TcCoe Idealize.SL.Sem Idealize.ShloMosaic.StableHlo
open Cert.ReferenceIdeal.RefNorm

variable (V : Valuation τ sig (Elt Ideal))

theorem a_r_v45 : after (opsL0a (F := Ideal)) V (Proc.devRef .tc main_v45)
    = Cert.Net.pass64 (F := Ideal) (Host.dotGeneral (F := Ideal) (φ₁ := .f32) (φ₂ := .f32) (DotDims.plain 100000 64 64) none (V (Proc.devRef .tc main_arg0)) (V (Proc.devRef .tc main_arg2))) (V (Proc.devRef .tc main_v3)) (V (Proc.devRef .tc main_v6)) (V (Proc.devRef .tc main_v31)) := by
  after_results
  rfl
theorem a_k_v3 : after (opsL0a (F := Ideal)) V (Proc.devRef .tc main_v3) = V (Proc.devRef .tc main_v3) := by
  after_results
theorem a_k_v6 : after (opsL0a (F := Ideal)) V (Proc.devRef .tc main_v6) = V (Proc.devRef .tc main_v6) := by
  after_results
theorem a_k_v31 : after (opsL0a (F := Ideal)) V (Proc.devRef .tc main_v31) = V (Proc.devRef .tc main_v31) := by
  after_results
theorem a_k_arg0 : after (opsL0a (F := Ideal)) V (Proc.devRef .tc main_arg0) = V (Proc.devRef .tc main_arg0) := by
  after_results
theorem a_k_arg1 : after (opsL0a (F := Ideal)) V (Proc.devRef .tc main_arg1) = V (Proc.devRef .tc main_arg1) := by
  after_results
theorem a_k_arg2 : after (opsL0a (F := Ideal)) V (Proc.devRef .tc main_arg2) = V (Proc.devRef .tc main_arg2) := by
  after_results
theorem a_k_arg3 : after (opsL0a (F := Ideal)) V (Proc.devRef .tc main_arg3) = V (Proc.devRef .tc main_arg3) := by
  after_results
theorem a_k_arg4 : after (opsL0a (F := Ideal)) V (Proc.devRef .tc main_arg4) = V (Proc.devRef .tc main_arg4) := by
  after_results
theorem a_k_arg5 : after (opsL0a (F := Ideal)) V (Proc.devRef .tc main_arg5) = V (Proc.devRef .tc main_arg5) := by
  after_results
theorem a_k_arg6 : after (opsL0a (F := Ideal)) V (Proc.devRef .tc main_arg6) = V (Proc.devRef .tc main_arg6) := by
  after_results
theorem a_k_arg7 : after (opsL0a (F := Ideal)) V (Proc.devRef .tc main_arg7) = V (Proc.devRef .tc main_arg7) := by
  after_results
theorem a_k_arg8 : after (opsL0a (F := Ideal)) V (Proc.devRef .tc main_arg8) = V (Proc.devRef .tc main_arg8) := by
  after_results
theorem a_k_arg9 : after (opsL0a (F := Ideal)) V (Proc.devRef .tc main_arg9) = V (Proc.devRef .tc main_arg9) := by
  after_results
theorem r_r_v46 : after (opsL0r (F := Ideal)) V (Proc.devRef .tc main_v46)
    = maximumf (V (Proc.devRef .tc main_v45)) (broadcastInDim Cert.KernelIdeal.S100000x64 ![] Cert.KernelIdeal.Gen.bcast_S_S100000x64 (constant (F := Ideal) Cert.KernelIdeal.S_ .f32 0x00000000#32)) := by
  after_results
  rfl
theorem r_k_v3 : after (opsL0r (F := Ideal)) V (Proc.devRef .tc main_v3) = V (Proc.devRef .tc main_v3) := by
  after_results
theorem r_k_v6 : after (opsL0r (F := Ideal)) V (Proc.devRef .tc main_v6) = V (Proc.devRef .tc main_v6) := by
  after_results
theorem r_k_v31 : after (opsL0r (F := Ideal)) V (Proc.devRef .tc main_v31) = V (Proc.devRef .tc main_v31) := by
  after_results
theorem r_k_arg0 : after (opsL0r (F := Ideal)) V (Proc.devRef .tc main_arg0) = V (Proc.devRef .tc main_arg0) := by
  after_results
theorem r_k_arg1 : after (opsL0r (F := Ideal)) V (Proc.devRef .tc main_arg1) = V (Proc.devRef .tc main_arg1) := by
  after_results
theorem r_k_arg2 : after (opsL0r (F := Ideal)) V (Proc.devRef .tc main_arg2) = V (Proc.devRef .tc main_arg2) := by
  after_results
theorem r_k_arg3 : after (opsL0r (F := Ideal)) V (Proc.devRef .tc main_arg3) = V (Proc.devRef .tc main_arg3) := by
  after_results
theorem r_k_arg4 : after (opsL0r (F := Ideal)) V (Proc.devRef .tc main_arg4) = V (Proc.devRef .tc main_arg4) := by
  after_results
theorem r_k_arg5 : after (opsL0r (F := Ideal)) V (Proc.devRef .tc main_arg5) = V (Proc.devRef .tc main_arg5) := by
  after_results
theorem r_k_arg6 : after (opsL0r (F := Ideal)) V (Proc.devRef .tc main_arg6) = V (Proc.devRef .tc main_arg6) := by
  after_results
theorem r_k_arg7 : after (opsL0r (F := Ideal)) V (Proc.devRef .tc main_arg7) = V (Proc.devRef .tc main_arg7) := by
  after_results
theorem r_k_arg8 : after (opsL0r (F := Ideal)) V (Proc.devRef .tc main_arg8) = V (Proc.devRef .tc main_arg8) := by
  after_results
theorem r_k_arg9 : after (opsL0r (F := Ideal)) V (Proc.devRef .tc main_arg9) = V (Proc.devRef .tc main_arg9) := by
  after_results
theorem b_r_v48 : after (opsL0b (F := Ideal)) V (Proc.devRef .tc main_v48)
    = addf (V (Proc.devRef .tc main_v46)) (Host.dotGeneral (F := Ideal) (φ₁ := .f32) (φ₂ := .f32) (DotDims.plain 100000 64 64) none (V (Proc.devRef .tc main_arg0)) (V (Proc.devRef .tc main_arg6))) := by
  after_results
  rfl
theorem b_k_v3 : after (opsL0b (F := Ideal)) V (Proc.devRef .tc main_v3) = V (Proc.devRef .tc main_v3) := by
  after_results
theorem b_k_v6 : after (opsL0b (F := Ideal)) V (Proc.devRef .tc main_v6) = V (Proc.devRef .tc main_v6) := by
  after_results
theorem b_k_v31 : after (opsL0b (F := Ideal)) V (Proc.devRef .tc main_v31) = V (Proc.devRef .tc main_v31) := by
  after_results
theorem b_k_arg0 : after (opsL0b (F := Ideal)) V (Proc.devRef .tc main_arg0) = V (Proc.devRef .tc main_arg0) := by
  after_results
theorem b_k_arg1 : after (opsL0b (F := Ideal)) V (Proc.devRef .tc main_arg1) = V (Proc.devRef .tc main_arg1) := by
  after_results
theorem b_k_arg2 : after (opsL0b (F := Ideal)) V (Proc.devRef .tc main_arg2) = V (Proc.devRef .tc main_arg2) := by
  after_results
theorem b_k_arg3 : after (opsL0b (F := Ideal)) V (Proc.devRef .tc main_arg3) = V (Proc.devRef .tc main_arg3) := by
  after_results
theorem b_k_arg4 : after (opsL0b (F := Ideal)) V (Proc.devRef .tc main_arg4) = V (Proc.devRef .tc main_arg4) := by
  after_results
theorem b_k_arg5 : after (opsL0b (F := Ideal)) V (Proc.devRef .tc main_arg5) = V (Proc.devRef .tc main_arg5) := by
  after_results
theorem b_k_arg6 : after (opsL0b (F := Ideal)) V (Proc.devRef .tc main_arg6) = V (Proc.devRef .tc main_arg6) := by
  after_results
theorem b_k_arg7 : after (opsL0b (F := Ideal)) V (Proc.devRef .tc main_arg7) = V (Proc.devRef .tc main_arg7) := by
  after_results
theorem b_k_arg8 : after (opsL0b (F := Ideal)) V (Proc.devRef .tc main_arg8) = V (Proc.devRef .tc main_arg8) := by
  after_results
theorem b_k_arg9 : after (opsL0b (F := Ideal)) V (Proc.devRef .tc main_arg9) = V (Proc.devRef .tc main_arg9) := by
  after_results

variable {s d : (⟨Cert.KernelIdeal.S1700000, .i32⟩ : BufTy).Contents (Elt Ideal)} {n : (⟨Cert.KernelIdeal.S1700000, .f32⟩ : BufTy).Contents (Elt Ideal)} {x0 : (⟨Cert.KernelIdeal.S100000x64, .f32⟩ : BufTy).Contents (Elt Ideal)} {e : (⟨Cert.KernelIdeal.S2x1600000, .i32⟩ : BufTy).Contents (Elt Ideal)}
    {w0 w1 w2 : (⟨Cert.KernelIdeal.S64x64, .f32⟩ : BufTy).Contents (Elt Ideal)} {w3 : (⟨Cert.KernelIdeal.S64x40, .f32⟩ : BufTy).Contents (Elt Ideal)} {r0 r1 r2 : (⟨Cert.KernelIdeal.S64x64, .f32⟩ : BufTy).Contents (Elt Ideal)} {r3 : (⟨Cert.KernelIdeal.S64x40, .f32⟩ : BufTy).Contents (Elt Ideal)}

/-- The layer: from its input and the edge data to its output, the edge data and the arguments as they were. -/
theorem layer (X : (⟨Cert.KernelIdeal.S100000x64, .f32⟩ : BufTy).Contents (Elt Ideal)) (h : At s d n x0 e w0 w1 w2 w3 r0 r1 r2 r3 V) (hx : V (Proc.devRef .tc main_arg0) = X) :
    At s d n x0 e w0 w1 w2 w3 r0 r1 r2 r3 (after (opsL0b (F := Ideal)) (after opsL0r (after opsL0a V)))
      ∧ after (opsL0b (F := Ideal)) (after opsL0r (after opsL0a V)) (Proc.devRef .tc main_v48) = Cert.Net.layer64 (F := Ideal) X w0 r0 s d n := by
  refine ⟨⟨?_, ?_, ?_, ?_, ?_, ?_, ?_, ?_, ?_, ?_, ?_, ?_, ?_⟩, ?_⟩
  · rw [b_k_v3, r_k_v3, a_k_v3]; exact h.src
  · rw [b_k_v6, r_k_v6, a_k_v6]; exact h.dst
  · rw [b_k_v31, r_k_v31, a_k_v31]; exact h.nrm
  · rw [b_k_arg0, r_k_arg0, a_k_arg0]; exact h.a0
  · rw [b_k_arg1, r_k_arg1, a_k_arg1]; exact h.a1
  · rw [b_k_arg2, r_k_arg2, a_k_arg2]; exact h.a2
  · rw [b_k_arg3, r_k_arg3, a_k_arg3]; exact h.a3
  · rw [b_k_arg4, r_k_arg4, a_k_arg4]; exact h.a4
  · rw [b_k_arg5, r_k_arg5, a_k_arg5]; exact h.a5
  · rw [b_k_arg6, r_k_arg6, a_k_arg6]; exact h.a6
  · rw [b_k_arg7, r_k_arg7, a_k_arg7]; exact h.a7
  · rw [b_k_arg8, r_k_arg8, a_k_arg8]; exact h.a8
  · rw [b_k_arg9, r_k_arg9, a_k_arg9]; exact h.a9
  · rw [b_r_v48, r_r_v46, r_k_arg0, r_k_arg6, a_r_v45, a_k_arg0, a_k_arg6, hx,
      h.a2, h.a6, h.src, h.dst, h.nrm]
    rfl

end Cert.ReferenceIdeal.RefLayer0

end
-- ==== Proof.RefLayer1.lean ====
/-
  The reference's second layer, over ANY contents it starts from: three stretches (the product with W and the message
  passing; the rectifier, a called function's body read on its own; the product with R and the sum) that leave the
  layer of the definition applied to the layer's input, and write none of the edge data or the arguments.
-/
import proofs.«143482_j29437705846971_1_alg».proof.Proof.RefNorm

set_option maxRecDepth 16384
set_option maxHeartbeats 4000000

noncomputable section

namespace Cert.ReferenceIdeal.RefLayer1

open Cert.ReferenceIdeal Cert.ReferenceIdeal.Gen Cert.ReferenceIdeal.RefRun
open Idealize.ShloMosaic Idealize.ShloMosaic.TcCoe Idealize.SL.Sem Idealize.ShloMosaic.StableHlo
open Cert.ReferenceIdeal.RefNorm

variable (V : Valuation τ sig (Elt Ideal))

theorem a_r_v62 : after (opsL1a (F := Ideal)) V (Proc.devRef .tc main_v62)
    = Cert.Net.pass64 (F := Ideal) (Host.dotGeneral (F := Ideal) (φ₁ := .f32) (φ₂ := .f32) (DotDims.plain 100000 64 64) none (V (Proc.devRef .tc main_v48)) (V (Proc.devRef .tc main_arg3))) (V (Proc.devRef .tc main_v3)) (V (Proc.devRef .tc main_v6)) (V (Proc.devRef .tc main_v31)) := by
  after_results
  rfl
theorem a_k_v3 : after (opsL1a (F := Ideal)) V (Proc.devRef .tc main_v3) = V (Proc.devRef .tc main_v3) := by
  after_results
theorem a_k_v6 : after (opsL1a (F := Ideal)) V (Proc.devRef .tc main_v6) = V (Proc.devRef .tc main_v6) := by
  after_results
theorem a_k_v31 : after (opsL1a (F := Ideal)) V (Proc.devRef .tc main_v31) = V (Proc.devRef .tc main_v31) := by
  after_results
theorem a_k_arg0 : after (opsL1a (F := Ideal)) V (Proc.devRef .tc main_arg0) = V (Proc.devRef .tc main_arg0) := by
  after_results
theorem a_k_arg1 : after (opsL1a (F := Ideal)) V (Proc.devRef .tc main_arg1) = V (Proc.devRef .tc main_arg1) := by
  after_results
theorem a_k_arg2 : after (opsL1a (F := Ideal)) V (Proc.devRef .tc main_arg2) = V (Proc.devRef .tc main_arg2) := by
  after_results
theorem a_k_arg3 : after (opsL1a (F := Ideal)) V (Proc.devRef .tc main_arg3) = V (Proc.devRef .tc main_arg3) := by
  after_results
theorem a_k_arg4 : after (opsL1a (F := Ideal)) V (Proc.devRef .tc main_arg4) = V (Proc.devRef .tc main_arg4) := by
  after_results
theorem a_k_arg5 : after (opsL1a (F := Ideal)) V (Proc.devRef .tc main_arg5) = V (Proc.devRef .tc main_arg5) := by
  after_results
theorem a_k_arg6 : after (opsL1a (F := Ideal)) V (Proc.devRef .tc main_arg6) = V (Proc.devRef .tc main_arg6) := by
  after_results
theorem a_k_arg7 : after (opsL1a (F := Ideal)) V (Proc.devRef .tc main_arg7) = V (Proc.devRef .tc main_arg7) := by
  after_results
theorem a_k_arg8 : after (opsL1a (F := Ideal)) V (Proc.devRef .tc main_arg8) = V (Proc.devRef .tc main_arg8) := by
  after_results
theorem a_k_arg9 : after (opsL1a (F := Ideal)) V (Proc.devRef .tc main_arg9) = V (Proc.devRef .tc main_arg9) := by
  after_results
theorem a_k_v48 : after (opsL1a (F := Ideal)) V (Proc.devRef .tc main_v48) = V (Proc.devRef .tc main_v48) := by
  after_results
theorem r_r_v63 : after (opsL1r (F := Ideal)) V (Proc.devRef .tc main_v63)
    = maximumf (V (Proc.devRef .tc main_v62)) (broadcastInDim Cert.KernelIdeal.S100000x64 ![] Cert.KernelIdeal.Gen.bcast_S_S100000x64 (constant (F := Ideal) Cert.KernelIdeal.S_ .f32 0x00000000#32)) := by
  after_results
  rfl
theorem r_k_v3 : after (opsL1r (F := Ideal)) V (Proc.devRef .tc main_v3) = V (Proc.devRef .tc main_v3) := by
  after_results
theorem r_k_v6 : after (opsL1r (F := Ideal)) V (Proc.devRef .tc main_v6) = V (Proc.devRef .tc main_v6) := by
  after_results
theorem r_k_v31 : after (opsL1r (F := Ideal)) V (Proc.devRef .tc main_v31) = V (Proc.devRef .tc main_v31) := by
  after_results
theorem r_k_arg0 : after (opsL1r (F := Ideal)) V (Proc.devRef .tc main_arg0) = V (Proc.devRef .tc main_arg0) := by
  after_results
theorem r_k_arg1 : after (opsL1r (F := Ideal)) V (Proc.devRef .tc main_arg1) = V (Proc.devRef .tc main_arg1) := by
  after_results
theorem r_k_arg2 : after (opsL1r (F := Ideal)) V (Proc.devRef .tc main_arg2) = V (Proc.devRef .tc main_arg2) := by
  after_results
theorem r_k_arg3 : after (opsL1r (F := Ideal)) V (Proc.devRef .tc main_arg3) = V (Proc.devRef .tc main_arg3) := by
  after_results
theorem r_k_arg4 : after (opsL1r (F := Ideal)) V (Proc.devRef .tc main_arg4) = V (Proc.devRef .tc main_arg4) := by
  after_results
theorem r_k_arg5 : after (opsL1r (F := Ideal)) V (Proc.devRef .tc main_arg5) = V (Proc.devRef .tc main_arg5) := by
  after_results
theorem r_k_arg6 : after (opsL1r (F := Ideal)) V (Proc.devRef .tc main_arg6) = V (Proc.devRef .tc main_arg6) := by
  after_results
theorem r_k_arg7 : after (opsL1r (F := Ideal)) V (Proc.devRef .tc main_arg7) = V (Proc.devRef .tc main_arg7) := by
  after_results
theorem r_k_arg8 : after (opsL1r (F := Ideal)) V (Proc.devRef .tc main_arg8) = V (Proc.devRef .tc main_arg8) := by
  after_results
theorem r_k_arg9 : after (opsL1r (F := Ideal)) V (Proc.devRef .tc main_arg9) = V (Proc.devRef .tc main_arg9) := by
  after_results
theorem r_k_v48 : after (opsL1r (F := Ideal)) V (Proc.devRef .tc main_v48) = V (Proc.devRef .tc main_v48) := by
  after_results
theorem b_r_v65 : after (opsL1b (F := Ideal)) V (Proc.devRef .tc main_v65)
    = addf (V (Proc.devRef .tc main_v63)) (Host.dotGeneral (F := Ideal) (φ₁ := .f32) (φ₂ := .f32) (DotDims.plain 100000 64 64) none (V (Proc.devRef .tc main_v48)) (V (Proc.devRef .tc main_arg7))) := by
  after_results
  rfl
theorem b_k_v3 : after (opsL1b (F := Ideal)) V (Proc.devRef .tc main_v3) = V (Proc.devRef .tc main_v3) := by
  after_results
theorem b_k_v6 : after (opsL1b (F := Ideal)) V (Proc.devRef .tc main_v6) = V (Proc.devRef .tc main_v6) := by
  after_results
theorem b_k_v31 : after (opsL1b (F := Ideal)) V (Proc.devRef .tc main_v31) = V (Proc.devRef .tc main_v31) := by
  after_results
theorem b_k_arg0 : after (opsL1b (F := Ideal)) V (Proc.devRef .tc main_arg0) = V (Proc.devRef .tc main_arg0) := by
  after_results
theorem b_k_arg1 : after (opsL1b (F := Ideal)) V (Proc.devRef .tc main_arg1) = V (Proc.devRef .tc main_arg1) := by
  after_results
theorem b_k_arg2 : after (opsL1b (F := Ideal)) V (Proc.devRef .tc main_arg2) = V (Proc.devRef .tc main_arg2) := by
  after_results
theorem b_k_arg3 : after (opsL1b (F := Ideal)) V (Proc.devRef .tc main_arg3) = V (Proc.devRef .tc main_arg3) := by
  after_results
theorem b_k_arg4 : after (opsL1b (F := Ideal)) V (Proc.devRef .tc main_arg4) = V (Proc.devRef .tc main_arg4) := by
  after_results
theorem b_k_arg5 : after (opsL1b (F := Ideal)) V (Proc.devRef .tc main_arg5) = V (Proc.devRef .tc main_arg5) := by
  after_results
theorem b_k_arg6 : after (opsL1b (F := Ideal)) V (Proc.devRef .tc main_arg6) = V (Proc.devRef .tc main_arg6) := by
  after_results
theorem b_k_arg7 : after (opsL1b (F := Ideal)) V (Proc.devRef .tc main_arg7) = V (Proc.devRef .tc main_arg7) := by
  after_results
theorem b_k_arg8 : after (opsL1b (F := Ideal)) V (Proc.devRef .tc main_arg8) = V (Proc.devRef .tc main_arg8) := by
  after_results
theorem b_k_arg9 : after (opsL1b (F := Ideal)) V (Proc.devRef .tc main_arg9) = V (Proc.devRef .tc main_arg9) := by
  after_results

variable {s d : (⟨Cert.KernelIdeal.S1700000, .i32⟩ : BufTy).Contents (Elt Ideal)} {n : (⟨Cert.KernelIdeal.S1700000, .f32⟩ : BufTy).Contents (Elt Ideal)} {x0 : (⟨Cert.KernelIdeal.S100000x64, .f32⟩ : BufTy).Contents (Elt Ideal)} {e : (⟨Cert.KernelIdeal.S2x1600000, .i32⟩ : BufTy).Contents (Elt Ideal)}
    {w0 w1 w2 : (⟨Cert.KernelIdeal.S64x64, .f32⟩ : BufTy).Contents (Elt Ideal)} {w3 : (⟨Cert.KernelIdeal.S64x40, .f32⟩ : BufTy).Contents (Elt Ideal)} {r0 r1 r2 : (⟨Cert.KernelIdeal.S64x64, .f32⟩ : BufTy).Contents (Elt Ideal)} {r3 : (⟨Cert.KernelIdeal.S64x40, .f32⟩ : BufTy).Contents (Elt Ideal)}

/-- The layer: from its input and the edge data to its output, the edge data and the arguments as they were. -/
theorem layer (X : (⟨Cert.KernelIdeal.S100000x64, .f32⟩ : BufTy).Contents (Elt Ideal)) (h : At s d n x0 e w0 w1 w2 w3 r0 r1 r2 r3 V) (hx : V (Proc.devRef .tc main_v48) = X) :
    At s d n x0 e w0 w1 w2 w3 r0 r1 r2 r3 (after (opsL1b (F := Ideal)) (after opsL1r (after opsL1a V)))
      ∧ after (opsL1b (F := Ideal)) (after opsL1r (after opsL1a V)) (Proc.devRef .tc main_v65) = Cert.Net.layer64 (F := Ideal) X w1 r1 s d n := by
  refine ⟨⟨?_, ?_, ?_, ?_, ?_, ?_, ?_, ?_, ?_, ?_, ?_, ?_, ?_⟩, ?_⟩
  · rw [b_k_v3, r_k_v3, a_k_v3]; exact h.src
  · rw [b_k_v6, r_k_v6, a_k_v6]; exact h.dst
  · rw [b_k_v31, r_k_v31, a_k_v31]; exact h.nrm
  · rw [b_k_arg0, r_k_arg0, a_k_arg0]; exact h.a0
  · rw [b_k_arg1, r_k_arg1, a_k_arg1]; exact h.a1
  · rw [b_k_arg2, r_k_arg2, a_k_arg2]; exact h.a2
  · rw [b_k_arg3, r_k_arg3, a_k_arg3]; exact h.a3
  · rw [b_k_arg4, r_k_arg4, a_k_arg4]; exact h.a4
  · rw [b_k_arg5, r_k_arg5, a_k_arg5]; exact h.a5
  · rw [b_k_arg6, r_k_arg6, a_k_arg6]; exact h.a6
  · rw [b_k_arg7, r_k_arg7, a_k_arg7]; exact h.a7
  · rw [b_k_arg8, r_k_arg8, a_k_arg8]; exact h.a8
  · rw [b_k_arg9, r_k_arg9, a_k_arg9]; exact h.a9
  · rw [b_r_v65, r_r_v63, r_k_v48, r_k_arg7, a_r_v62, a_k_v48, a_k_arg7, hx,
      h.a3, h.a7, h.src, h.dst, h.nrm]
    rfl

end Cert.ReferenceIdeal.RefLayer1

end
-- ==== Proof.RefLayer2.lean ====
/-
  The reference's third layer, over ANY contents it starts from: three stretches (the product with W and the message
  passing; the rectifier, a called function's body read on its own; the product with R and the sum) that leave the
  layer of the definition applied to the layer's input, and write none of the edge data or the arguments.
-/
import proofs.«143482_j29437705846971_1_alg».proof.Proof.RefNorm

set_option maxRecDepth 16384
set_option maxHeartbeats 4000000

noncomputable section

namespace Cert.ReferenceIdeal.RefLayer2

open Cert.ReferenceIdeal Cert.ReferenceIdeal.Gen Cert.ReferenceIdeal.RefRun
open Idealize.ShloMosaic Idealize.ShloMosaic.TcCoe Idealize.SL.Sem Idealize.ShloMosaic.StableHlo
open Cert.ReferenceIdeal.RefNorm

variable (V : Valuation τ sig (Elt Ideal))

theorem a_r_v79 : after (opsL2a (F := Ideal)) V (Proc.devRef .tc main_v79)
    = Cert.Net.pass64 (F := Ideal) (Host.dotGeneral (F := Ideal) (φ₁ := .f32) (φ₂ := .f32) (DotDims.plain 100000 64 64) none (V (Proc.devRef .tc main_v65)) (V (Proc.devRef .tc main_arg4))) (V (Proc.devRef .tc main_v3)) (V (Proc.devRef .tc main_v6)) (V (Proc.devRef .tc main_v31)) := by
  after_results
  rfl
theorem a_k_v3 : after (opsL2a (F := Ideal)) V (Proc.devRef .tc main_v3) = V (Proc.devRef .tc main_v3) := by
  after_results
theorem a_k_v6 : after (opsL2a (F := Ideal)) V (Proc.devRef .tc main_v6) = V (Proc.devRef .tc main_v6) := by
  after_results
theorem a_k_v31 : after (opsL2a (F := Ideal)) V (Proc.devRef .tc main_v31) = V (Proc.devRef .tc main_v31) := by
  after_results
theorem a_k_arg0 : after (opsL2a (F := Ideal)) V (Proc.devRef .tc main_arg0) = V (Proc.devRef .tc main_arg0) := by
  after_results
theorem a_k_arg1 : after (opsL2a (F := Ideal)) V (Proc.devRef .tc main_arg1) = V (Proc.devRef .tc main_arg1) := by
  after_results
theorem a_k_arg2 : after (opsL2a (F := Ideal)) V (Proc.devRef .tc main_arg2) = V (Proc.devRef .tc main_arg2) := by
  after_results
theorem a_k_arg3 : after (opsL2a (F := Ideal)) V (Proc.devRef .tc main_arg3) = V (Proc.devRef .tc main_arg3) := by
  after_results
theorem a_k_arg4 : after (opsL2a (F := Ideal)) V (Proc.devRef .tc main_arg4) = V (Proc.devRef .tc main_arg4) := by
  after_results
theorem a_k_arg5 : after (opsL2a (F := Ideal)) V (Proc.devRef .tc main_arg5) = V (Proc.devRef .tc main_arg5) := by
  after_results
theorem a_k_arg6 : after (opsL2a (F := Ideal)) V (Proc.devRef .tc main_arg6) = V (Proc.devRef .tc main_arg6) := by
  after_results
theorem a_k_arg7 : after (opsL2a (F := Ideal)) V (Proc.devRef .tc main_arg7) = V (Proc.devRef .tc main_arg7) := by
  after_results
theorem a_k_arg8 : after (opsL2a (F := Ideal)) V (Proc.devRef .tc main_arg8) = V (Proc.devRef .tc main_arg8) := by
  after_results
theorem a_k_arg9 : after (opsL2a (F := Ideal)) V (Proc.devRef .tc main_arg9) = V (Proc.devRef .tc main_arg9) := by
  after_results
theorem a_k_v65 : after (opsL2a (F := Ideal)) V (Proc.devRef .tc main_v65) = V (Proc.devRef .tc main_v65) := by
  after_results
theorem r_r_v80 : after (opsL2r (F := Ideal)) V (Proc.devRef .tc main_v80)
    = maximumf (V (Proc.devRef .tc main_v79)) (broadcastInDim Cert.KernelIdeal.S100000x64 ![] Cert.KernelIdeal.Gen.bcast_S_S100000x64 (constant (F := Ideal) Cert.KernelIdeal.S_ .f32 0x00000000#32)) := by
  after_results
  rfl
theorem r_k_v3 : after (opsL2r (F := Ideal)) V (Proc.devRef .tc main_v3) = V (Proc.devRef .tc main_v3) := by
  after_results
theorem r_k_v6 : after (opsL2r (F := Ideal)) V (Proc.devRef .tc main_v6) = V (Proc.devRef .tc main_v6) := by
  after_results
theorem r_k_v31 : after (opsL2r (F := Ideal)) V (Proc.devRef .tc main_v31) = V (Proc.devRef .tc main_v31) := by
  after_results
theorem r_k_arg0 : after (opsL2r (F := Ideal)) V (Proc.devRef .tc main_arg0) = V (Proc.devRef .tc main_arg0) := by
  after_results
theorem r_k_arg1 : after (opsL2r (F := Ideal)) V (Proc.devRef .tc main_arg1) = V (Proc.devRef .tc main_arg1) := by
  after_results
theorem r_k_arg2 : after (opsL2r (F := Ideal)) V (Proc.devRef .tc main_arg2) = V (Proc.devRef .tc main_arg2) := by
  after_results
theorem r_k_arg3 : after (opsL2r (F := Ideal)) V (Proc.devRef .tc main_arg3) = V (Proc.devRef .tc main_arg3) := by
  after_results
theorem r_k_arg4 : after (opsL2r (F := Ideal)) V (Proc.devRef .tc main_arg4) = V (Proc.devRef .tc main_arg4) := by
  after_results
theorem r_k_arg5 : after (opsL2r (F := Ideal)) V (Proc.devRef .tc main_arg5) = V (Proc.devRef .tc main_arg5) := by
  after_results
theorem r_k_arg6 : after (opsL2r (F := Ideal)) V (Proc.devRef .tc main_arg6) = V (Proc.devRef .tc main_arg6) := by
  after_results
theorem r_k_arg7 : after (opsL2r (F := Ideal)) V (Proc.devRef .tc main_arg7) = V (Proc.devRef .tc main_arg7) := by
  after_results
theorem r_k_arg8 : after (opsL2r (F := Ideal)) V (Proc.devRef .tc main_arg8) = V (Proc.devRef .tc main_arg8) := by
  after_results
theorem r_k_arg9 : after (opsL2r (F := Ideal)) V (Proc.devRef .tc main_arg9) = V (Proc.devRef .tc main_arg9) := by
  after_results
theorem r_k_v65 : after (opsL2r (F := Ideal)) V (Proc.devRef .tc main_v65) = V (Proc.devRef .tc main_v65) := by
  after_results
theorem b_r_v82 : after (opsL2b (F := Ideal)) V (Proc.devRef .tc main_v82)
    = addf (V (Proc.devRef .tc main_v80)) (Host.dotGeneral (F := Ideal) (φ₁ := .f32) (φ₂ := .f32) (DotDims.plain 100000 64 64) none (V (Proc.devRef .tc main_v65)) (V (Proc.devRef .tc main_arg8))) := by
  after_results
  rfl
theorem b_k_v3 : after (opsL2b (F := Ideal)) V (Proc.devRef .tc main_v3) = V (Proc.devRef .tc main_v3) := by
  after_results
theorem b_k_v6 : after (opsL2b (F := Ideal)) V (Proc.devRef .tc main_v6) = V (Proc.devRef .tc main_v6) := by
  after_results
theorem b_k_v31 : after (opsL2b (F := Ideal)) V (Proc.devRef .tc main_v31) = V (Proc.devRef .tc main_v31) := by
  after_results
theorem b_k_arg0 : after (opsL2b (F := Ideal)) V (Proc.devRef .tc main_arg0) = V (Proc.devRef .tc main_arg0) := by
  after_results
theorem b_k_arg1 : after (opsL2b (F := Ideal)) V (Proc.devRef .tc main_arg1) = V (Proc.devRef .tc main_arg1) := by
  after_results
theorem b_k_arg2 : after (opsL2b (F := Ideal)) V (Proc.devRef .tc main_arg2) = V (Proc.devRef .tc main_arg2) := by
  after_results
theorem b_k_arg3 : after (opsL2b (F := Ideal)) V (Proc.devRef .tc main_arg3) = V (Proc.devRef .tc main_arg3) := by
  after_results
theorem b_k_arg4 : after (opsL2b (F := Ideal)) V (Proc.devRef .tc main_arg4) = V (Proc.devRef .tc main_arg4) := by
  after_results
theorem b_k_arg5 : after (opsL2b (F := Ideal)) V (Proc.devRef .tc main_arg5) = V (Proc.devRef .tc main_arg5) := by
  after_results
theorem b_k_arg6 : after (opsL2b (F := Ideal)) V (Proc.devRef .tc main_arg6) = V (Proc.devRef .tc main_arg6) := by
  after_results
theorem b_k_arg7 : after (opsL2b (F := Ideal)) V (Proc.devRef .tc main_arg7) = V (Proc.devRef .tc main_arg7) := by
  after_results
theorem b_k_arg8 : after (opsL2b (F := Ideal)) V (Proc.devRef .tc main_arg8) = V (Proc.devRef .tc main_arg8) := by
  after_results
theorem b_k_arg9 : after (opsL2b (F := Ideal)) V (Proc.devRef .tc main_arg9) = V (Proc.devRef .tc main_arg9) := by
  after_results

variable {s d : (⟨Cert.KernelIdeal.S1700000, .i32⟩ : BufTy).Contents (Elt Ideal)} {n : (⟨Cert.KernelIdeal.S1700000, .f32⟩ : BufTy).Contents (Elt Ideal)} {x0 : (⟨Cert.KernelIdeal.S100000x64, .f32⟩ : BufTy).Contents (Elt Ideal)} {e : (⟨Cert.KernelIdeal.S2x1600000, .i32⟩ : BufTy).Contents (Elt Ideal)}
    {w0 w1 w2 : (⟨Cert.KernelIdeal.S64x64, .f32⟩ : BufTy).Contents (Elt Ideal)} {w3 : (⟨Cert.KernelIdeal.S64x40, .f32⟩ : BufTy).Contents (Elt Ideal)} {r0 r1 r2 : (⟨Cert.KernelIdeal.S64x64, .f32⟩ : BufTy).Contents (Elt Ideal)} {r3 : (⟨Cert.KernelIdeal.S64x40, .f32⟩ : BufTy).Contents (Elt Ideal)}

/-- The layer: from its input and the edge data to its output, the edge data and the arguments as they were. -/
theorem layer (X : (⟨Cert.KernelIdeal.S100000x64, .f32⟩ : BufTy).Contents (Elt Ideal)) (h : At s d n x0 e w0 w1 w2 w3 r0 r1 r2 r3 V) (hx : V (Proc.devRef .tc main_v65) = X) :
    At s d n x0 e w0 w1 w2 w3 r0 r1 r2 r3 (after (opsL2b (F := Ideal)) (after opsL2r (after opsL2a V)))
      ∧ after (opsL2b (F := Ideal)) (after opsL2r (after opsL2a V)) (Proc.devRef .tc main_v82) = Cert.Net.layer64 (F := Ideal) X w2 r2 s d n := by
  refine ⟨⟨?_, ?_, ?_, ?_, ?_, ?_, ?_, ?_, ?_, ?_, ?_, ?_, ?_⟩, ?_⟩
  · rw [b_k_v3, r_k_v3, a_k_v3]; exact h.src
  · rw [b_k_v6, r_k_v6, a_k_v6]; exact h.dst
  · rw [b_k_v31, r_k_v31, a_k_v31]; exact h.nrm
  · rw [b_k_arg0, r_k_arg0, a_k_arg0]; exact h.a0
  · rw [b_k_arg1, r_k_arg1, a_k_arg1]; exact h.a1
  · rw [b_k_arg2, r_k_arg2, a_k_arg2]; exact h.a2
  · rw [b_k_arg3, r_k_arg3, a_k_arg3]; exact h.a3
  · rw [b_k_arg4, r_k_arg4, a_k_arg4]; exact h.a4
  · rw [b_k_arg5, r_k_arg5, a_k_arg5]; exact h.a5
  · rw [b_k_arg6, r_k_arg6, a_k_arg6]; exact h.a6
  · rw [b_k_arg7, r_k_arg7, a_k_arg7]; exact h.a7
  · rw [b_k_arg8, r_k_arg8, a_k_arg8]; exact h.a8
  · rw [b_k_arg9, r_k_arg9, a_k_arg9]; exact h.a9
  · rw [b_r_v82, r_r_v80, r_k_v65, r_k_arg8, a_r_v79, a_k_v65, a_k_arg8, hx,
      h.a4, h.a8, h.src, h.dst, h.nrm]
    rfl

end Cert.ReferenceIdeal.RefLayer2

end
-- ==== Proof.RefLayer3.lean ====
/-
  The reference's last layer, over ANY contents it starts from: three stretches (the product with W and the message
  passing; the rectifier, a called function's body read on its own; the product with R and the sum) that leave the
  layer of the definition applied to the layer's input, and write none of the edge data or the arguments.
-/
import proofs.«143482_j29437705846971_1_alg».proof.Proof.RefNorm

set_option maxRecDepth 16384
set_option maxHeartbeats 4000000

noncomputable section

namespace Cert.ReferenceIdeal.RefLayer3

open Cert.ReferenceIdeal Cert.ReferenceIdeal.Gen Cert.ReferenceIdeal.RefRun
open Idealize.ShloMosaic Idealize.ShloMosaic.TcCoe Idealize.SL.Sem Idealize.ShloMosaic.StableHlo
open Cert.ReferenceIdeal.RefNorm

variable (V : Valuation τ sig (Elt Ideal))

theorem a_r_v96 : after (opsL3a (F := Ideal)) V (Proc.devRef .tc main_v96)
    = Cert.Net.pass40 (F := Ideal) (Host.dotGeneral (F := Ideal) (φ₁ := .f32) (φ₂ := .f32) (DotDims.plain 100000 64 40) none (V (Proc.devRef .tc main_v82)) (V (Proc.devRef .tc main_arg5))) (V (Proc.devRef .tc main_v3)) (V (Proc.devRef .tc main_v6)) (V (Proc.devRef .tc main_v31)) := by
  after_results
  rfl
theorem a_k_v3 : after (opsL3a (F := Ideal)) V (Proc.devRef .tc main_v3) = V (Proc.devRef .tc main_v3) := by
  after_results
theorem a_k_v6 : after (opsL3a (F := Ideal)) V (Proc.devRef .tc main_v6) = V (Proc.devRef .tc main_v6) := by
  after_results
theorem a_k_v31 : after (opsL3a (F := Ideal)) V (Proc.devRef .tc main_v31) = V (Proc.devRef .tc main_v31) := by
  after_results
theorem a_k_arg0 : after (opsL3a (F := Ideal)) V (Proc.devRef .tc main_arg0) = V (Proc.devRef .tc main_arg0) := by
  after_results
theorem a_k_arg1 : after (opsL3a (F := Ideal)) V (Proc.devRef .tc main_arg1) = V (Proc.devRef .tc main_arg1) := by
  after_results
theorem a_k_arg2 : after (opsL3a (F := Ideal)) V (Proc.devRef .tc main_arg2) = V (Proc.devRef .tc main_arg2) := by
  after_results
theorem a_k_arg3 : after (opsL3a (F := Ideal)) V (Proc.devRef .tc main_arg3) = V (Proc.devRef .tc main_arg3) := by
  after_results
theorem a_k_arg4 : after (opsL3a (F := Ideal)) V (Proc.devRef .tc main_arg4) = V (Proc.devRef .tc main_arg4) := by
  after_results
theorem a_k_arg5 : after (opsL3a (F := Ideal)) V (Proc.devRef .tc main_arg5) = V (Proc.devRef .tc main_arg5) := by
  after_results
theorem a_k_arg6 : after (opsL3a (F := Ideal)) V (Proc.devRef .tc main_arg6) = V (Proc.devRef .tc main_arg6) := by
  after_results
theorem a_k_arg7 : after (opsL3a (F := Ideal)) V (Proc.devRef .tc main_arg7) = V (Proc.devRef .tc main_arg7) := by
  after_results
theorem a_k_arg8 : after (opsL3a (F := Ideal)) V (Proc.devRef .tc main_arg8) = V (Proc.devRef .tc main_arg8) := by
  after_results
theorem a_k_arg9 : after (opsL3a (F := Ideal)) V (Proc.devRef .tc main_arg9) = V (Proc.devRef .tc main_arg9) := by
  after_results
theorem a_k_v82 : after (opsL3a (F := Ideal)) V (Proc.devRef .tc main_v82) = V (Proc.devRef .tc main_v82) := by
  after_results
theorem r_r_v97 : after (opsL3r (F := Ideal)) V (Proc.devRef .tc main_v97)
    = maximumf (V (Proc.devRef .tc main_v96)) (broadcastInDim Cert.KernelIdeal.S100000x40 ![] Cert.KernelIdeal.Gen.bcast_S_S100000x40 (constant (F := Ideal) Cert.KernelIdeal.S_ .f32 0x00000000#32)) := by
  after_results
  rfl
theorem r_k_v3 : after (opsL3r (F := Ideal)) V (Proc.devRef .tc main_v3) = V (Proc.devRef .tc main_v3) := by
  after_results
theorem r_k_v6 : after (opsL3r (F := Ideal)) V (Proc.devRef .tc main_v6) = V (Proc.devRef .tc main_v6) := by
  after_results
theorem r_k_v31 : after (opsL3r (F := Ideal)) V (Proc.devRef .tc main_v31) = V (Proc.devRef .tc main_v31) := by
  after_results
theorem r_k_arg0 : after (opsL3r (F := Ideal)) V (Proc.devRef .tc main_arg0) = V (Proc.devRef .tc main_arg0) := by
  after_results
theorem r_k_arg1 : after (opsL3r (F := Ideal)) V (Proc.devRef .tc main_arg1) = V (Proc.devRef .tc main_arg1) := by
  after_results
theorem r_k_arg2 : after (opsL3r (F := Ideal)) V (Proc.devRef .tc main_arg2) = V (Proc.devRef .tc main_arg2) := by
  after_results
theorem r_k_arg3 : after (opsL3r (F := Ideal)) V (Proc.devRef .tc main_arg3) = V (Proc.devRef .tc main_arg3) := by
  after_results
theorem r_k_arg4 : after (opsL3r (F := Ideal)) V (Proc.devRef .tc main_arg4) = V (Proc.devRef .tc main_arg4) := by
  after_results
theorem r_k_arg5 : after (opsL3r (F := Ideal)) V (Proc.devRef .tc main_arg5) = V (Proc.devRef .tc main_arg5) := by
  after_results
theorem r_k_arg6 : after (opsL3r (F := Ideal)) V (Proc.devRef .tc main_arg6) = V (Proc.devRef .tc main_arg6) := by
  after_results
theorem r_k_arg7 : after (opsL3r (F := Ideal)) V (Proc.devRef .tc main_arg7) = V (Proc.devRef .tc main_arg7) := by
  after_results
theorem r_k_arg8 : after (opsL3r (F := Ideal)) V (Proc.devRef .tc main_arg8) = V (Proc.devRef .tc main_arg8) := by
  after_results
theorem r_k_arg9 : after (opsL3r (F := Ideal)) V (Proc.devRef .tc main_arg9) = V (Proc.devRef .tc main_arg9) := by
  after_results
theorem r_k_v82 : after (opsL3r (F := Ideal)) V (Proc.devRef .tc main_v82) = V (Proc.devRef .tc main_v82) := by
  after_results
theorem b_r_v99 : after (opsL3b (F := Ideal)) V (Proc.devRef .tc main_v99)
    = addf (V (Proc.devRef .tc main_v97)) (Host.dotGeneral (F := Ideal) (φ₁ := .f32) (φ₂ := .f32) (DotDims.plain 100000 64 40) none (V (Proc.devRef .tc main_v82)) (V (Proc.devRef .tc main_arg9))) := by
  after_results
  rfl
theorem b_k_v3 : after (opsL3b (F := Ideal)) V (Proc.devRef .tc main_v3) = V (Proc.devRef .tc main_v3) := by
  after_results
theorem b_k_v6 : after (opsL3b (F := Ideal)) V (Proc.devRef .tc main_v6) = V (Proc.devRef .tc main_v6) := by
  after_results
theorem b_k_v31 : after (opsL3b (F := Ideal)) V (Proc.devRef .tc main_v31) = V (Proc.devRef .tc main_v31) := by
  after_results
theorem b_k_arg0 : after (opsL3b (F := Ideal)) V (Proc.devRef .tc main_arg0) = V (Proc.devRef .tc main_arg0) := by
  after_results
theorem b_k_arg1 : after (opsL3b (F := Ideal)) V (Proc.devRef .tc main_arg1) = V (Proc.devRef .tc main_arg1) := by
  after_results
theorem b_k_arg2 : after (opsL3b (F := Ideal)) V (Proc.devRef .tc main_arg2) = V (Proc.devRef .tc main_arg2) := by
  after_results
theorem b_k_arg3 : after (opsL3b (F := Ideal)) V (Proc.devRef .tc main_arg3) = V (Proc.devRef .tc main_arg3) := by
  after_results
theorem b_k_arg4 : after (opsL3b (F := Ideal)) V (Proc.devRef .tc main_arg4) = V (Proc.devRef .tc main_arg4) := by
  after_results
theorem b_k_arg5 : after (opsL3b (F := Ideal)) V (Proc.devRef .tc main_arg5) = V (Proc.devRef .tc main_arg5) := by
  after_results
theorem b_k_arg6 : after (opsL3b (F := Ideal)) V (Proc.devRef .tc main_arg6) = V (Proc.devRef .tc main_arg6) := by
  after_results
theorem b_k_arg7 : after (opsL3b (F := Ideal)) V (Proc.devRef .tc main_arg7) = V (Proc.devRef .tc main_arg7) := by
  after_results
theorem b_k_arg8 : after (opsL3b (F := Ideal)) V (Proc.devRef .tc main_arg8) = V (Proc.devRef .tc main_arg8) := by
  after_results
theorem b_k_arg9 : after (opsL3b (F := Ideal)) V (Proc.devRef .tc main_arg9) = V (Proc.devRef .tc main_arg9) := by
  after_results

variable {s d : (⟨Cert.KernelIdeal.S1700000, .i32⟩ : BufTy).Contents (Elt Ideal)} {n : (⟨Cert.KernelIdeal.S1700000, .f32⟩ : BufTy).Contents (Elt Ideal)} {x0 : (⟨Cert.KernelIdeal.S100000x64, .f32⟩ : BufTy).Contents (Elt Ideal)} {e : (⟨Cert.KernelIdeal.S2x1600000, .i32⟩ : BufTy).Contents (Elt Ideal)}
    {w0 w1 w2 : (⟨Cert.KernelIdeal.S64x64, .f32⟩ : BufTy).Contents (Elt Ideal)} {w3 : (⟨Cert.KernelIdeal.S64x40, .f32⟩ : BufTy).Contents (Elt Ideal)} {r0 r1 r2 : (⟨Cert.KernelIdeal.S64x64, .f32⟩ : BufTy).Contents (Elt Ideal)} {r3 : (⟨Cert.KernelIdeal.S64x40, .f32⟩ : BufTy).Contents (Elt Ideal)}

/-- The layer: from its input and the edge data to its output, the edge data and the arguments as they were. -/
theorem layer (X : (⟨Cert.KernelIdeal.S100000x64, .f32⟩ : BufTy).Contents (Elt Ideal)) (h : At s d n x0 e w0 w1 w2 w3 r0 r1 r2 r3 V) (hx : V (Proc.devRef .tc main_v82) = X) :
    At s d n x0 e w0 w1 w2 w3 r0 r1 r2 r3 (after (opsL3b (F := Ideal)) (after opsL3r (after opsL3a V)))
      ∧ after (opsL3b (F := Ideal)) (after opsL3r (after opsL3a V)) (Proc.devRef .tc main_v99) = Cert.Net.layer40 (F := Ideal) X w3 r3 s d n := by
  refine ⟨⟨?_, ?_, ?_, ?_, ?_, ?_, ?_, ?_, ?_, ?_, ?_, ?_, ?_⟩, ?_⟩
  · rw [b_k_v3, r_k_v3, a_k_v3]; exact h.src
  · rw [b_k_v6, r_k_v6, a_k_v6]; exact h.dst
  · rw [b_k_v31, r_k_v31, a_k_v31]; exact h.nrm
  · rw [b_k_arg0, r_k_arg0, a_k_arg0]; exact h.a0
  · rw [b_k_arg1, r_k_arg1, a_k_arg1]; exact h.a1
  · rw [b_k_arg2, r_k_arg2, a_k_arg2]; exact h.a2
  · rw [b_k_arg3, r_k_arg3, a_k_arg3]; exact h.a3
  · rw [b_k_arg4, r_k_arg4, a_k_arg4]; exact h.a4
  · rw [b_k_arg5, r_k_arg5, a_k_arg5]; exact h.a5
  · rw [b_k_arg6, r_k_arg6, a_k_arg6]; exact h.a6
  · rw [b_k_arg7, r_k_arg7, a_k_arg7]; exact h.a7
  · rw [b_k_arg8, r_k_arg8, a_k_arg8]; exact h.a8
  · rw [b_k_arg9, r_k_arg9, a_k_arg9]; exact h.a9
  · rw [b_r_v99, r_r_v97, r_k_v82, r_k_arg9, a_r_v96, a_k_v82, a_k_arg9, hx,
      h.a5, h.a9, h.src, h.dst, h.nrm]
    rfl

end Cert.ReferenceIdeal.RefLayer3

end
-- ==== Proof.RefChain.lean ====
/-
  The reference's result is the network of the definition: the fold of its fifteen stretches over the launch contents,
  read stretch by stretch (the edge data, then the four layers, each from what the one before left), and no stretch
  writes an argument.
-/
import proofs.«143482_j29437705846971_1_alg».proof.Proof.RefLayer0
import proofs.«143482_j29437705846971_1_alg».proof.Proof.RefLayer1
import proofs.«143482_j29437705846971_1_alg».proof.Proof.RefLayer2
import proofs.«143482_j29437705846971_1_alg».proof.Proof.RefLayer3

set_option maxRecDepth 16384
set_option maxHeartbeats 4000000

noncomputable section

namespace Cert.ReferenceIdeal.RefChain

open Cert.ReferenceIdeal Cert.ReferenceIdeal.Gen Cert.ReferenceIdeal.RefRun
open Idealize.ShloMosaic Idealize.ShloMosaic.TcCoe Idealize.SL.Sem Idealize.ShloMosaic.StableHlo
open Cert.ReferenceIdeal.RefNorm

variable (m : (ℓ : Loc nD τ sig) → Buf (Elt Ideal) ℓ) (c : Dev nD)

/-- The fold of the stretches, spelt out. -/
theorem afterAll_eq (V : Valuation τ sig (Elt Ideal)) :
    afterAll (stretches (F := Ideal)) V = (after (opsL3b (F := Ideal)) (after opsL3r (after opsL3a (after (opsL2b (F := Ideal)) (after opsL2r (after opsL2a (after (opsL1b (F := Ideal)) (after opsL1r (after opsL1a (after (opsL0b (F := Ideal)) (after opsL0r (after opsL0a (after (opsN2 (F := Ideal)) (after opsN1 (after opsN0 V))))))))))))))) := rfl

/-- After the last stretch: the edge data, the arguments as launched, and the network in the result buffer. -/
theorem final : At (Cert.Net.srcOf (F := Ideal) (m ((c.tc : Thread nD τ).loc main_arg1))) (Cert.Net.dstOf (F := Ideal) (m ((c.tc : Thread nD τ).loc main_arg1)))
      (Cert.Net.normOf (F := Ideal) (Cert.Net.srcOf (m ((c.tc : Thread nD τ).loc main_arg1))) (Cert.Net.dstOf (m ((c.tc : Thread nD τ).loc main_arg1))))
      (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      (afterAll (stretches (F := Ideal)) (launchContents m c))
    ∧ afterAll (stretches (F := Ideal)) (launchContents m c) (Proc.devRef .tc main_v99)
      = Cert.Net.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [afterAll_eq]
  have hN := norm_at (launchContents m c)
  obtain ⟨h1, x1⟩ := Cert.ReferenceIdeal.RefLayer0.layer _ _ hN hN.a0
  obtain ⟨h2, x2⟩ := Cert.ReferenceIdeal.RefLayer1.layer _ _ h1 x1
  obtain ⟨h3, x3⟩ := Cert.ReferenceIdeal.RefLayer2.layer _ _ h2 x2
  obtain ⟨h4, x4⟩ := Cert.ReferenceIdeal.RefLayer3.layer _ _ h3 x3
  exact ⟨h4, x4⟩

/-- The result buffer. -/
theorem result_eq : afterAll (stretches (F := Ideal)) (launchContents m c) (Proc.devRef .tc main_v99)
    = Cert.Net.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := (final m c).2

/-- The arguments. -/
theorem args_kept :
    afterAll (stretches (F := Ideal)) (launchContents m c) (Proc.devRef .tc main_arg0) = m ((c.tc : Thread nD τ).loc main_arg0)
    ∧ afterAll (stretches (F := Ideal)) (launchContents m c) (Proc.devRef .tc main_arg1) = m ((c.tc : Thread nD τ).loc main_arg1)
    ∧ afterAll (stretches (F := Ideal)) (launchContents m c) (Proc.devRef .tc main_arg2) = m ((c.tc : Thread nD τ).loc main_arg2)
    ∧ afterAll (stretches (F := Ideal)) (launchContents m c) (Proc.devRef .tc main_arg3) = m ((c.tc : Thread nD τ).loc main_arg3)
    ∧ afterAll (stretches (F := Ideal)) (launchContents m c) (Proc.devRef .tc main_arg4) = m ((c.tc : Thread nD τ).loc main_arg4)
    ∧ afterAll (stretches (F := Ideal)) (launchContents m c) (Proc.devRef .tc main_arg5) = m ((c.tc : Thread nD τ).loc main_arg5)
    ∧ afterAll (stretches (F := Ideal)) (launchContents m c) (Proc.devRef .tc main_arg6) = m ((c.tc : Thread nD τ).loc main_arg6)
    ∧ afterAll (stretches (F := Ideal)) (launchContents m c) (Proc.devRef .tc main_arg7) = m ((c.tc : Thread nD τ).loc main_arg7)
    ∧ afterAll (stretches (F := Ideal)) (launchContents m c) (Proc.devRef .tc main_arg8) = m ((c.tc : Thread nD τ).loc main_arg8)
    ∧ afterAll (stretches (F := Ideal)) (launchContents m c) (Proc.devRef .tc main_arg9) = m ((c.tc : Thread nD τ).loc main_arg9) :=
  ⟨(final m c).1.a0, (final m c).1.a1, (final m c).1.a2, (final m c).1.a3, (final m c).1.a4, (final m c).1.a5, (final m c).1.a6, (final m c).1.a7, (final m c).1.a8, (final m c).1.a9⟩

end Cert.ReferenceIdeal.RefChain

end
-- ==== Proof.lean ====
/-
  A four-layer graph convolution network with residual linear maps, x ↦ max(A · (x · W), 0) + x · R per layer, A the
  symmetrically normalised adjacency with a loop at every node, given as an edge list and applied by gather, scale,
  scatter-add on the host. The kernel's program computes x · W and x · R of a layer in ONE product against the joined
  table [W | R], ten row blocks at a time, cuts the product into its two column windows, lets the host pass the messages,
  and forms max(messages, 0) + residual in a second blocked pass; the reference computes the two products separately
  on whole arrays. On the extended reals the two agree entry by entry, with no appeal to finiteness: entry (r, q) of a
  product reads row r of the left operand and column q of the right one only, so a column window of x · [W | R] is
  x · W or x · R (no sum is regrouped, only re-indexed), a row block of a product is the product of the row block, and
  the narrowing of the operands is the identity there. Everything else the two programs do to those arrays is the same
  host operations in the same order, carried here as one function of whole arrays (`Cert.Net`).

  Both runs are read as folds of their segments over the launch contents: the reference's fifteen stretches of host
  operations (`RefRun`, `RefChain`), and the kernel program's eighteen segments, host stretches and regions
  alternating (`KernelRun`, `KernelChain`, with one module per region for what its write-backs leave). The idealized
  kernel is the kernel's own text read at the ideal instance, so nothing is owed for the idealization.
-/
import proofs.«143482_j29437705846971_1_alg».proof.Defs
import proofs.«143482_j29437705846971_1_alg».proof.Proof.Gen.Kernel
import proofs.«143482_j29437705846971_1_alg».proof.Proof.Gen.Kernel.Frame
import proofs.«143482_j29437705846971_1_alg».proof.Proof.Gen.KernelIdeal
import proofs.«143482_j29437705846971_1_alg».proof.Proof.Gen.KernelIdeal.Frame
import proofs.«143482_j29437705846971_1_alg».proof.Proof.Gen.ReferenceIdeal
import proofs.«143482_j29437705846971_1_alg».proof.Proof.Gen.Pre_finite_inputs
import proofs.«143482_j29437705846971_1_alg».proof.Proof.KernelRun
import proofs.«143482_j29437705846971_1_alg».proof.Proof.KernelChain
import proofs.«143482_j29437705846971_1_alg».proof.Proof.RefRun
import proofs.«143482_j29437705846971_1_alg».proof.Proof.RefChain
import Idealize.ShloMosaic.Adequacy
import Idealize.ShloMosaic.Init

set_option maxRecDepth 16384

noncomputable section

namespace Cert.Proof

open Idealize.ShloMosaic Idealize.SL.Sem

/-- The three programs run to the end, nothing faulting, their arguments unchanged. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun r h c => by
    obtain ⟨k0, k1, k2, k3, k4, k5, k6, k7, k8, k9⟩ := Cert.ReferenceIdeal.RefChain.args_kept m c
    exact ⟨(h c _).trans k0, (h c _).trans k1, (h c _).trans k2, (h c _).trans k3, (h c _).trans k4, (h c _).trans k5, (h c _).trans k6, (h c _).trans k7, (h c _).trans k8, (h c _).trans k9⟩)
    (Cert.ReferenceIdeal.RefRun.run (F := Ideal) m ρ)

/-- From memories that agree on the arguments both idealized programs end with the network of the arguments in their
    result buffers. -/
theorem algebraic : Cert.algebraic_KernelIdeal_ReferenceIdeal := by
  intro m ρ m' ρ' _ hagree
  refine ⟨fun c => Cert.Net.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result_eq m ρ c), (h c).2⟩) (Cert.KernelIdeal.Named.run m ρ)
  · refine (θ_run Cert.ReferenceIdeal.defs _ _).mono (fun r h c => ?_) (Cert.ReferenceIdeal.RefRun.run (F := Ideal) m' ρ')
    obtain ⟨k0, k1, k2, k3, k4, k5, k6, k7, k8, k9⟩ := Cert.ReferenceIdeal.RefChain.args_kept m' c
    obtain ⟨e0, e1, e2, e3, e4, e5, e6, e7, e8, e9⟩ := hagree c
    refine ⟨?_, (h c _).trans k0, (h c _).trans k1, (h c _).trans k2, (h c _).trans k3, (h c _).trans k4, (h c _).trans k5, (h c _).trans k6, (h c _).trans k7, (h c _).trans k8, (h c _).trans k9⟩
    rw [h c Cert.ReferenceIdeal.main_v99, Cert.ReferenceIdeal.RefChain.result_eq m' c, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
